-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x262144 : Shape := ⟨2, ![2, 262144]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S8192x128 .f32) (main_arg1 : IVec S2x262144 32) (main_arg2 : FVec F S128x128 .f32) (main_arg3 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S8192x128 : Shape := ⟨2, ![8192, 128]⟩
abbrev S2x262144 : Shape := ⟨2, ![2, 262144]⟩
abbrev S128x128 : Shape := ⟨2, ![128, 128]⟩
abbrev S128 : Shape := ⟨1, ![128]⟩
abbrev S1x262144 : Shape := ⟨2, ![1, 262144]⟩
abbrev S262144 : Shape := ⟨1, ![262144]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S8192x1 : Shape := ⟨2, ![8192, 1]⟩
abbrev S1024x2048 : Shape := ⟨2, ![1024, 2048]⟩
abbrev S1024x1 : Shape := ⟨2, ![1024, 1]⟩
abbrev S1024 : Shape := ⟨1, ![1024]⟩
abbrev S1x128 : Shape := ⟨2, ![1, 128]⟩
abbrev S2048x128 : Shape := ⟨2, ![2048, 128]⟩
abbrev S1024x128 : Shape := ⟨2, ![1024, 128]⟩

abbrev nBuf : Space → Nat
  | .hbm => 51
  | .vmem => 18
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S128x128, .f32⟩
  | .hbm, ⟨3, _⟩ => ⟨S128, .f32⟩
  | .hbm, ⟨4, _⟩ => ⟨S1x262144, .i32⟩
  | .hbm, ⟨5, _⟩ => ⟨S262144, .i32⟩
  | .hbm, ⟨6, _⟩ => ⟨S1x262144, .i32⟩
  | .hbm, ⟨7, _⟩ => ⟨S262144, .i32⟩
  | .hbm, ⟨8, _⟩ => ⟨S_, .bf16⟩
  | .hbm, ⟨9, _⟩ => ⟨S8192x8192, .bf16⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S_, .bf16⟩
  | .hbm, ⟨28, _⟩ => ⟨S262144, .bf16⟩
  | .hbm, ⟨29, _⟩ => ⟨S8192x8192, .bf16⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .i1⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x128, .f32⟩
  | .hbm, ⟨46, _⟩ => ⟨S8192x128, .f32⟩
  | .hbm, ⟨47, _⟩ => ⟨S8192x128, .bf16⟩
  | .hbm, ⟨48, _⟩ => ⟨S128x128, .f32⟩
  | .hbm, ⟨49, _⟩ => ⟨S1x128, .f32⟩
  | .hbm, ⟨50, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x2048, .bf16⟩
  | .local _ .vmem, ⟨6, _⟩ => ⟨S1024x2048, .bf16⟩
  | .local _ .vmem, ⟨7, _⟩ => ⟨S2048x128, .bf16⟩
  | .local _ .vmem, ⟨8, _⟩ => ⟨S2048x128, .bf16⟩
  | .local _ .vmem, ⟨9, _⟩ => ⟨S1024x1, .f32⟩
  | .local _ .vmem, ⟨10, _⟩ => ⟨S1024x1, .f32⟩
  | .local _ .vmem, ⟨11, _⟩ => ⟨S1024x128, .f32⟩
  | .local _ .vmem, ⟨12, _⟩ => ⟨S1024x128, .f32⟩
  | .local _ .vmem, ⟨13, _⟩ => ⟨S128x128, .f32⟩
  | .local _ .vmem, ⟨14, _⟩ => ⟨S1x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_call0_v0 : Ref sig .tc := ⟨.hbm, 42, rfl⟩
abbrev main_call0_v1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  reduces_S1024x2048_S1024 : S1024x2048.Reduces [1] S1024
  shapeCasts_S1024_S1024x1 : S1024.ShapeCasts S1024x1
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S128x128_S128x128_1_0 : S128x128.Transposes [1, 0] S128x128
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S1024x1_S1024x128 : S1024x1.Broadcasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  scatter_S8192x8192_S262144x2_S262144_n_01_01_1_wf : ScatterDims.WF S8192x8192 S262144x2 S262144 [] [0, 1] [0, 1] 1
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .bf16 = 32 ∨ (Rect.block (s := S8192x8192) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .bf16 = 32 ∨ (Rect.block (s := S8192x8192) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .bf16 = 32 ∨ (Rect.block (s := S8192x128) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S8192x128.size a
  hwx1_6 : ∀ i : grid1.Coords, EltTy.bits .f32 = 32 ∨ (Rect.block (s := S8192x128) S1024x128.size (cc1_transform_6 i) (hinb1_6 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v19) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v19) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v32) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S1024x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S2x262144 : Shape := ⟨2, ![2, 262144]⟩
abbrev S128x128 : Shape := ⟨2, ![128, 128]⟩
abbrev S128 : Shape := ⟨1, ![128]⟩
abbrev S_ : Shape := ⟨0, ![]⟩
abbrev S8192x8192 : Shape := ⟨2, ![8192, 8192]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S1x8192 : Shape := ⟨2, ![1, 8192]⟩
abbrev S1x128 : Shape := ⟨2, ![1, 128]⟩

abbrev nBuf : Space → Nat
  | .hbm => 63
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S8192x8192, .f32⟩
  | .hbm, ⟨6, _⟩ => ⟨S1x262144, .i32⟩
  | .hbm, ⟨7, _⟩ => ⟨S262144, .i32⟩
  | .hbm, ⟨8, _⟩ => ⟨S1x262144, .i32⟩
  | .hbm, ⟨9, _⟩ => ⟨S262144, .i32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S_, .f32⟩
  | .hbm, ⟨28, _⟩ => ⟨S262144, .f32⟩
  | .hbm, ⟨29, _⟩ => ⟨S8192x8192, .f32⟩
  | .hbm, ⟨30, _⟩ => ⟨S8192x8192, .i32⟩
  | .hbm, ⟨31, _⟩ => ⟨S8192x8192, .i32⟩
  | .hbm, ⟨32, _⟩ => ⟨S_, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .i1⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192x1, .f32⟩
  | .hbm, ⟨52, _⟩ => ⟨S8192x8192, .f32⟩
  | .hbm, ⟨53, _⟩ => ⟨S8192x8192, .f32⟩
  | .hbm, ⟨54, _⟩ => ⟨S1x8192, .f32⟩
  | .hbm, ⟨55, _⟩ => ⟨S8192x8192, .f32⟩
  | .hbm, ⟨56, _⟩ => ⟨S8192x8192, .f32⟩
  | .hbm, ⟨57, _⟩ => ⟨S8192x128, .f32⟩
  | .hbm, ⟨58, _⟩ => ⟨S128x128, .f32⟩
  | .hbm, ⟨59, _⟩ => ⟨S8192x128, .f32⟩
  | .hbm, ⟨60, _⟩ => ⟨S1x128, .f32⟩
  | .hbm, ⟨61, _⟩ => ⟨S8192x128, .f32⟩
  | .hbm, ⟨62, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_call0_v0 : Ref sig .tc := ⟨.hbm, 48, rfl⟩
abbrev main_call0_v1 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  scatter_S8192x8192_S262144x2_S262144_n_01_01_1_wf : ScatterDims.WF S8192x8192 S262144x2 S262144 [] [0, 1] [0, 1] 1
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.K.R0Kit.lean ====
/-
  The degree pass (the first kernel region), at the buffer contents `V` the region is entered with.

  Its grid is 8 row blocks by 4 column blocks, walked row block by row block; point `t` is column block `t % 4` of row
  block `t / 4`. The body adds the row sums of the adjacency block it is handed into a 1024-row accumulator kept in
  scratch memory, zeroing the accumulator first at column block 0 and copying it to the output block at column block 3.
  Here: the blocks the windows hold, the two conditions of the body in closed form over the grid, where the output
  window is left alone and where it is written back, and the region's standing invariant spelled over the accumulator.
-/
import proofs.«119681_j32641751449979_2_alg».proof.Proof.Gen.Kernel.Launch
import proofs.«119681_j32641751449979_2_alg».proof.Proof.Gen.Kernel.Skeleton
import proofs.«119681_j32641751449979_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks -/

/-- The block of window `w` at grid point `t`, cut out of the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds the point's adjacency block whenever the body runs: the window is an
    input, fetched at every point, never cut and never idle. -/
theorem held0_of {c : Dev nD} (dat : Dat τ (Elt F) Unit ℕ (Pipeline.UD sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## The body's two conditions, in closed form -/

/-- "This is column block 0": the accumulator is zeroed first. -/
abbrev first0 (i : grid0.Coords) : Prop := (Scalar.cmpi .ne (Scalar.extui (Scalar.cmpi .eq (BitVec.ofNat 32 (i 1).val) 0#32)) 0#32) = 1#1
theorem first0_iff : ∀ t : Fin cfg0.N, first0 (grid0.coords t) ↔ t.val % 4 = 0 :=
  (by decide +kernel : ∀ t : Fin grid0.N, first0 (grid0.coords t) ↔ t.val % 4 = 0)

/-- "This is column block 3": the accumulator is copied to the output block. -/
abbrev last0 (i : grid0.Coords) : Prop := k0_cond2 i = 1#1
theorem last0_iff : ∀ t : Fin cfg0.N, last0 (grid0.coords t) ↔ t.val % 4 = 3 :=
  (by decide +kernel : ∀ t : Fin grid0.N, last0 (grid0.coords t) ↔ t.val % 4 = 3)

/-! ## Where the windows are idle -/

theorem live0_0 : ∀ t : Fin cfg0.N, cfg0.idle 0 (grid0.coords t) = false := by decide +kernel
/-- Off column block 3 the body stores nothing into the output block, -/
theorem idle0_1 : ∀ t : Fin cfg0.N, ¬last0 (grid0.coords t) → cfg0.idle 1 (grid0.coords t) = true := by decide +kernel
/-- and the pipeline does not write the block back there. -/
theorem noFlush0_1 : ∀ t : Fin cfg0.N, ¬last0 (grid0.coords t) → (cfg0.win 1).flush t = false := by decide +kernel
/-- At column block 3 the output block is stored. -/
theorem live0_1 : ∀ t : Fin cfg0.N, last0 (grid0.coords t) → cfg0.idle 1 (grid0.coords t) = false := by decide +kernel

/-! ## The memrefs the body is called with -/

/-- One staging buffer of the output window, through which its contents are stated. -/
abbrev outView0 : View sig .tc .vmem S1024x1 .f32 := (Memref.whole cc0_stg1_0 : Memref sig .tc .vmem S1024x1 .f32).view
abbrev stg0_0 (t : Fin cfg0.N) : Memref sig .tc .vmem S1024x2048 .bf16 := win0_0.stage (cfg0.slots t 0)
abbrev stgW0_0 (t : Fin cfg0.N) : (stg0_0 t).IsWhole := hstage0_0 ((cfg0.slots t 0).cast nbuf0_0)
abbrev stg0_1 (t : Fin cfg0.N) : Memref sig .tc .vmem S1024x1 .f32 := win0_1.stage (cfg0.slots t 1)
abbrev stgW0_1 (t : Fin cfg0.N) : (stg0_1 t).IsWhole := hstage0_1 ((cfg0.slots t 1).cast nbuf0_1)
/-- The accumulator: a whole scoped buffer of the kernel's own. -/
abbrev acc0 : Memref sig .tc .vmem S1024x1 .f32 := Memref.whole cc0_scratch0
abbrev accView0 : View sig .tc .vmem S1024x1 .f32 := acc0.view

/-! ## The standing invariant over the accumulator -/

/-- The scoped buffers the degree pass never touches (the second region's staging buffers and accumulator), each whole
    at some contents. -/
def bystanders0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The region's class invariant: the accumulator whole at some contents, the bystanders, and the generator register
    at some state. -/
theorem classInv0_eq (c : Dev nD) :
    (Pipeline.ΦA spec0 c : sProp 𝕄)
      = iprop(iprop((∃ d, owns (c : Thread nD τ) acc0 fullShare d) ∗ bystanders0 c) ∗ (∃ r, prngReg c r)) := by
  unfold Pipeline.ΦA; rw [scopedRest0_eq]; simp only [acc0, owns_whole, bystanders0]; try rfl

end Cert.Kernel.Hand

end
-- ==== Proof.K.R0RunA.lean ====
/-
  The degree body at column block 0: the accumulator is zeroed, then the block's row sums are added; nothing is stored
  into the output block. The run is found by symbolic execution; what it leaves in the accumulator is its witness.
-/
import proofs.«119681_j32641751449979_2_alg».proof.Proof.K.R0Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- On whole memrefs — the adjacency block at `x0`, the output block at `xi1` (handed back untouched), the accumulator at
    anything (it is overwritten before it is used) — the body runs to the continuation with the accumulator's pieces
    written. -/
noncomputable def bodyFirst0 (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : first0 i) (hl : ¬last0 i)
    (x0 : Vec F S1024x2048 .bf16) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.K.R0RunB.lean ====
/-
  The degree body at column blocks 1 and 2: the block's row sums are added to the accumulator as the point before left
  it; nothing is stored into the output block.
-/
import proofs.«119681_j32641751449979_2_alg».proof.Proof.K.R0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- On whole memrefs — the adjacency block at `x0`, the output block at `xi1` (handed back untouched), the accumulator at
    `xs0` — the body runs to the continuation with the accumulator's pieces written. -/
noncomputable def bodyMid0 (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : ¬first0 i) (hl : ¬last0 i)
    (x0 : Vec F S1024x2048 .bf16) (xs0 : Vec F S1024x1 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.K.R0RunC.lean ====
/-
  The degree body at column block 3: the block's row sums are added to the accumulator as the point before left it, and
  the accumulator is then copied into the output block.
-/
import proofs.«119681_j32641751449979_2_alg».proof.Proof.K.R0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- On whole memrefs — the adjacency block at `x0`, the output block at anything, the accumulator at `xs0` — the body runs
    to the continuation with the output block's and the accumulator's pieces written. -/
noncomputable def bodyLast0 (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : ¬first0 i) (hl : last0 i)
    (x0 : Vec F S1024x2048 .bf16) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hf | exact hl)
    sl_step
    iapply Hk
    isplitl [H0]
    · iexists _; isplitr; · ipureintro; exact harg2.read_unread _
      iexact H0
    isplitl [H1]; · iexists _; iexact H1
    iexists _; iexact HS0

end Cert.Kernel.Hand

end
-- ==== Proof.K.R0.lean ====
/-
  The degree pass, point by point.

  After the body at point `t` the accumulator holds the row sums of the adjacency blocks of the row block's columns so
  far: at column block 0 the zeroed accumulator plus the block's row sums, later what the point before left plus the
  block's row sums; at column block 3 the output block receives a copy. This module names those contents
  (`outsAt0`: the output block's buffer and the accumulator after each point), states the invariant that carries the
  accumulator from one point to the next, and discharges the pipeline's obligation on the body at every point.
-/
import proofs.«119681_j32641751449979_2_alg».proof.Proof.K.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each case leaves -/

/-- At column block 0 the accumulator's pieces cover it (one whole store after the zeroing one). -/
theorem accCover_first (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : first0 i) (hl : ¬last0 i) (x0 : Vec F S1024x2048 .bf16) (y : S1024x1.Idx) :
    ∃ pc ∈ (bodyFirst0 c i arg2 harg2 arg3 harg3 arg4 harg4 hf hl x0).2.1, y ∈ pc.1.set :=
  View.cover_of_tiledL (bodyFirst0 c i arg2 harg2 arg3 harg3 arg4 harg4 hf hl x0).2.1 S1024x1.size (by sl_kernel_rfl) y
/-- The accumulator after column block 0. -/
def accAfterFirst (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : first0 i) (hl : ¬last0 i) (x0 : Vec F S1024x2048 .bf16) : Vec F S1024x1 .f32 :=
  accView0.read (Elt F) (accView0.writes (Elt F) accView0.junk (bodyFirst0 c i arg2 harg2 arg3 harg3 arg4 harg4 hf hl x0).2.1)

theorem accCover_mid (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : ¬first0 i) (hl : ¬last0 i) (x0 : Vec F S1024x2048 .bf16) (xs0 : Vec F S1024x1 .f32) (y : S1024x1.Idx) :
    ∃ pc ∈ (bodyMid0 c i arg2 harg2 arg3 harg3 arg4 harg4 hf hl x0 xs0).2.1, y ∈ pc.1.set :=
  View.cover_of_tiledL (bodyMid0 c i arg2 harg2 arg3 harg3 arg4 harg4 hf hl x0 xs0).2.1 S1024x1.size (by sl_kernel_rfl) y
/-- The accumulator after column block 1 or 2. -/
def accAfterMid (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : ¬first0 i) (hl : ¬last0 i) (x0 : Vec F S1024x2048 .bf16) (xs0 : Vec F S1024x1 .f32) : Vec F S1024x1 .f32 :=
  accView0.read (Elt F) (accView0.writes (Elt F) accView0.junk (bodyMid0 c i arg2 harg2 arg3 harg3 arg4 harg4 hf hl x0 xs0).2.1)

theorem accCover_last (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : ¬first0 i) (hl : last0 i) (x0 : Vec F S1024x2048 .bf16) (xs0 : Vec F S1024x1 .f32) (y : S1024x1.Idx) :
    ∃ pc ∈ (bodyLast0 c i arg2 harg2 arg3 harg3 arg4 harg4 hf hl x0 xs0).2.1, y ∈ pc.1.set :=
  View.cover_of_tiledL (bodyLast0 c i arg2 harg2 arg3 harg3 arg4 harg4 hf hl x0 xs0).2.1 S1024x1.size (by sl_kernel_rfl) y
/-- The accumulator after column block 3. -/
def accAfterLast (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : ¬first0 i) (hl : last0 i) (x0 : Vec F S1024x2048 .bf16) (xs0 : Vec F S1024x1 .f32) : Vec F S1024x1 .f32 :=
  accView0.read (Elt F) (accView0.writes (Elt F) accView0.junk (bodyLast0 c i arg2 harg2 arg3 harg3 arg4 harg4 hf hl x0 xs0).2.1)

theorem outCover_last (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : ¬first0 i) (hl : last0 i) (x0 : Vec F S1024x2048 .bf16) (xs0 : Vec F S1024x1 .f32) (y : S1024x1.Idx) :
    ∃ pc ∈ (bodyLast0 c i arg2 harg2 arg3 harg3 arg4 harg4 hf hl x0 xs0).1, y ∈ pc.1.set :=
  View.cover_of_tiledL (bodyLast0 c i arg2 harg2 arg3 harg3 arg4 harg4 hf hl x0 xs0).1 S1024x1.size (by sl_kernel_rfl) y
/-- The output block after column block 3. -/
def outAfterLast (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : ¬first0 i) (hl : last0 i) (x0 : Vec F S1024x2048 .bf16) (xs0 : Vec F S1024x1 .f32) : Vec F S1024x1 .f32 :=
  outView0.read (Elt F) (outView0.writes (Elt F) outView0.junk (bodyLast0 c i arg2 harg2 arg3 harg3 arg4 harg4 hf hl x0 xs0).1)

/-- Off column block 3 nothing is stored into the output block and the block is not written back: its contents there
    are never consulted; this stands in for them. -/
def idleOut0 : Vec F S1024x1 .f32 := outView0.read (Elt F) outView0.junk

/-! ## The contents after each point -/

/-- The output block's buffer and the accumulator after the body at position `n` of the walk. -/
def outsAt0 (c : Dev nD) : (n : ℕ) → n < cfg0.N → Vec F S1024x1 .f32 × Vec F S1024x1 .f32
  | 0, hn => (idleOut0, accAfterFirst c (grid0.coords ⟨0, hn⟩) (stg0_0 ⟨0, hn⟩) (stgW0_0 ⟨0, hn⟩) (stg0_1 ⟨0, hn⟩) (stgW0_1 ⟨0, hn⟩) acc0 (Memref.isWhole_whole _) ((first0_iff ⟨0, hn⟩).mpr (Nat.zero_mod _)) (fun h => by have h3 := (last0_iff ⟨0, hn⟩).mp h; (try dsimp only at h3); omega) (blk0 V c 0 ⟨0, hn⟩))
  | n + 1, hn =>
    if h0 : (n + 1) % 4 = 0 then
      (idleOut0, accAfterFirst c (grid0.coords ⟨n + 1, hn⟩) (stg0_0 ⟨n + 1, hn⟩) (stgW0_0 ⟨n + 1, hn⟩) (stg0_1 ⟨n + 1, hn⟩) (stgW0_1 ⟨n + 1, hn⟩) acc0 (Memref.isWhole_whole _) ((first0_iff ⟨n + 1, hn⟩).mpr h0) (fun h => by have h3 := (last0_iff ⟨n + 1, hn⟩).mp h; (try dsimp only at h3); omega) (blk0 V c 0 ⟨n + 1, hn⟩))
    else if h1 : (n + 1) % 4 = 3 then
      (outAfterLast c (grid0.coords ⟨n + 1, hn⟩) (stg0_0 ⟨n + 1, hn⟩) (stgW0_0 ⟨n + 1, hn⟩) (stg0_1 ⟨n + 1, hn⟩) (stgW0_1 ⟨n + 1, hn⟩) acc0 (Memref.isWhole_whole _) (fun h => h0 ((first0_iff ⟨n + 1, hn⟩).mp h)) ((last0_iff ⟨n + 1, hn⟩).mpr h1) (blk0 V c 0 ⟨n + 1, hn⟩) (outsAt0 c n (Nat.lt_of_succ_lt hn)).2,
       accAfterLast c (grid0.coords ⟨n + 1, hn⟩) (stg0_0 ⟨n + 1, hn⟩) (stgW0_0 ⟨n + 1, hn⟩) (stg0_1 ⟨n + 1, hn⟩) (stgW0_1 ⟨n + 1, hn⟩) acc0 (Memref.isWhole_whole _) (fun h => h0 ((first0_iff ⟨n + 1, hn⟩).mp h)) ((last0_iff ⟨n + 1, hn⟩).mpr h1) (blk0 V c 0 ⟨n + 1, hn⟩) (outsAt0 c n (Nat.lt_of_succ_lt hn)).2)
    else
      (idleOut0, accAfterMid c (grid0.coords ⟨n + 1, hn⟩) (stg0_0 ⟨n + 1, hn⟩) (stgW0_0 ⟨n + 1, hn⟩) (stg0_1 ⟨n + 1, hn⟩) (stgW0_1 ⟨n + 1, hn⟩) acc0 (Memref.isWhole_whole _) (fun h => h0 ((first0_iff ⟨n + 1, hn⟩).mp h)) (fun h => h1 ((last0_iff ⟨n + 1, hn⟩).mp h)) (blk0 V c 0 ⟨n + 1, hn⟩) (outsAt0 c n (Nat.lt_of_succ_lt hn)).2)

theorem outsAt0_first (c : Dev nD) (t : Fin cfg0.N) (h0 : t.val % 4 = 0) (h1 : ¬t.val % 4 = 3) :
    outsAt0 V c t.val t.isLt = (idleOut0, accAfterFirst c (grid0.coords t) (stg0_0 t) (stgW0_0 t) (stg0_1 t) (stgW0_1 t) acc0 (Memref.isWhole_whole _) ((first0_iff t).mpr h0) (fun h => h1 ((last0_iff t).mp h)) (blk0 V c 0 t)) := by
  obtain ⟨n, hn⟩ := t
  cases n with
  | zero => exact rfl
  | succ n => exact (dif_pos h0).trans rfl

theorem outsAt0_mid (c : Dev nD) (t : Fin cfg0.N) (h0 : ¬t.val % 4 = 0) (h1 : ¬t.val % 4 = 3) :
    outsAt0 V c t.val t.isLt = (idleOut0, accAfterMid c (grid0.coords t) (stg0_0 t) (stgW0_0 t) (stg0_1 t) (stgW0_1 t) acc0 (Memref.isWhole_whole _) (fun h => h0 ((first0_iff t).mp h)) (fun h => h1 ((last0_iff t).mp h)) (blk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_last (c : Dev nD) (t : Fin cfg0.N) (h0 : ¬t.val % 4 = 0) (h1 : t.val % 4 = 3) :
    outsAt0 V c t.val t.isLt = (outAfterLast c (grid0.coords t) (stg0_0 t) (stgW0_0 t) (stg0_1 t) (stgW0_1 t) acc0 (Memref.isWhole_whole _) (fun h => h0 ((first0_iff t).mp h)) ((last0_iff t).mpr h1) (blk0 V c 0 t) (outsAt0 V c (t.val - 1) (Nat.lt_of_le_of_lt (Nat.sub_le _ _) t.isLt)).2,
      accAfterLast c (grid0.coords t) (stg0_0 t) (stgW0_0 t) (stg0_1 t) (stgW0_1 t) acc0 (Memref.isWhole_whole _) (fun h => h0 ((first0_iff t).mp h)) ((last0_iff t).mpr h1) (blk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position `n`: at the start the region's class invariant (the accumulator at anything); afterwards the
    accumulator at what the point before left in it, the bystanders, and the generator register at some state. -/
def inv0 (c : Dev nD) : (n : ℕ) → n ≤ cfg0.N → sProp 𝕄
  | 0, _ => Pipeline.ΦA spec0 c
  | n + 1, hn => iprop(iprop(owns (c : Thread nD τ) acc0 fullShare ((outsAt0 V c n hn).2) ∗ bystanders0 c) ∗ (∃ r, prngReg c r))

theorem inv0_zero (c : Dev nD) (n : ℕ) (h : n ≤ cfg0.N) (hz : n = 0) : inv0 V c n h = Pipeline.ΦA spec0 c := by
  subst hz; rfl
theorem inv0_succ (c : Dev nD) (n : ℕ) (hn : n < cfg0.N) :
    inv0 V c (n + 1) hn = iprop(iprop(owns (c : Thread nD τ) acc0 fullShare ((outsAt0 V c n hn).2) ∗ bystanders0 c) ∗ (∃ r, prngReg c r)) := rfl
theorem inv0_pos (c : Dev nD) (n : ℕ) (h : n ≤ cfg0.N) (hz : n ≠ 0) :
    inv0 V c n h = iprop(iprop(owns (c : Thread nD τ) acc0 fullShare ((outsAt0 V c (n - 1) (by omega)).2) ∗ bystanders0 c) ∗ (∃ r, prngReg c r)) := by
  cases n with
  | zero => exact absurd rfl hz
  | succ n => rfl

/-! ## The proof data -/

/-- The region's proof data on core `c`: the arrays as the region finds them; after the body at point `t` the adjacency
    buffer at its block and the output buffer at `outsAt0`'s first component; the invariant `inv0`; nothing owed. -/
def dat0 (c : Dev nD) : Dat τ (Elt F) Unit ℕ (Pipeline.UD sig nD τ) ℕ cfg0 c where
  A w := V c (Pipeline.arrRef spec0 w)
  after w t := match w with
    | ⟨0, _⟩ => blk0 V c 0 t
    | ⟨1, _⟩ => (outsAt0 V c t.val t.isLt).1
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem inv0_castSucc (c : Dev nD) (t : Fin cfg0.N) :
    (dat0 V c).Φ t.castSucc = inv0 V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = (outsAt0 V c t.val t.isLt).1 := by dsimp only [dat0]
theorem held0 (c : Dev nD) (t : Fin cfg0.N) (d) : (dat0 V c).before 0 t d = blk0 V c 0 t :=
  held0_of V (dat0 V c) (A_eq0 V c 0) (after0_0 V c) t d

/-! ## The obligation on the body -/

def bodyPre0 (c : Dev nD) (t : Fin cfg0.N) : sProp 𝕄 :=
  iprop((dat0 V c).Φ t.castSucc ∗ (dat0 V c).owesAt () t.castSucc
    ∗ (∃ d, owns (c : Thread nD τ) (stg0_0 t) fullShare ((dat0 V c).before 0 t d))
    ∗ (∃ d, owns (c : Thread nD τ) (stg0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The adjacency buffer holds the point's block; the column block decides the case; the
    invariant hands the body the accumulator (at anything before the first point, at what the point before left
    afterwards) and takes it back at this point's contents, which the case's pieces cover; the bystanders and the
    register pass through; the core owes nothing. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0]
  rw [show (dat0 V c).owesAt () t.succ = (dat0 V c).owesAt () t.castSucc from rfl]
  rw [show (dat0 V c).Φ t.succ = inv0 V c (t.val + 1) t.isLt from rfl, inv0_succ]
  have hN : t.val < 32 := lt_of_lt_of_eq t.isLt (show cfg0.N = 32 from N_0)
  rw [show (dat0 V c).leavesExact 0 t = owns (c : Thread nD τ) (stg0_0 t) fullShare ((dat0 V c).after 0 t) from by
    unfold Dat.leavesExact; rw [live0_0 t], after0_0]
  by_cases h0 : t.val % 4 = 0
  · have h1 : ¬t.val % 4 = 3 := by omega
    rw [Dat.leavesExact_idle (dat0 V c) 1 t (idle0_1 t (fun h => h1 ((last0_iff t).mp h))) (noFlush0_1 t (fun h => h1 ((last0_iff t).mp h)))]
    rw [outsAt0_first V c t h0 h1]
    unfold accAfterFirst; (try dsimp only)
    by_cases hz : t.val = 0
    · rw [inv0_castSucc V c t, inv0_zero V c _ _ hz, classInv0_eq]
      iintro ⟨⟨⟨HS0, Hby⟩, Hg⟩, Ho, ⟨%d0, H0⟩, ⟨%d1, H1⟩⟩
      iapply ((bodyFirst0 c (grid0.coords t) _ _ _ _ _ _ ((first0_iff t).mpr h0) (fun h => h1 ((last0_iff t).mp h)) (blk0 V c 0 t)).2.2 _ Set.univ _)
      isplitl [H0]; · iexact H0
      isplitl [H1]; · iexact H1
      isplitl [HS0]; · iexact HS0
      iintro ⟨H0, H1, ⟨%es0, HS0⟩⟩
      isplitl [HS0 Hby Hg]
      · isplitl [HS0 Hby]
        · isplitl [HS0]
          · unfold owns; iexists _; isplitr
            swap; · iexact HS0
            ipureintro; exact View.read_writes_of_cover _ _ _ _ _ (accCover_first c _ _ _ _ _ _ _ _ _ _)
          iexact Hby
        iexact Hg
      isplitl [Ho]; · iexact Ho
      isplitl [H0]; · iexact H0
      iexists _; iexact H1
    · rw [inv0_castSucc V c t, inv0_pos V c _ _ hz]
      iintro ⟨⟨⟨HS0, Hby⟩, Hg⟩, Ho, ⟨%d0, H0⟩, ⟨%d1, H1⟩⟩
      iapply ((bodyFirst0 c (grid0.coords t) _ _ _ _ _ _ ((first0_iff t).mpr h0) (fun h => h1 ((last0_iff t).mp h)) (blk0 V c 0 t)).2.2 _ Set.univ _)
      isplitl [H0]; · iexact H0
      isplitl [H1]; · iexact H1
      isplitl [HS0]; · iexists _; iexact HS0
      iintro ⟨H0, H1, ⟨%es0, HS0⟩⟩
      isplitl [HS0 Hby Hg]
      · isplitl [HS0 Hby]
        · isplitl [HS0]
          · unfold owns; iexists _; isplitr
            swap; · iexact HS0
            ipureintro; exact View.read_writes_of_cover _ _ _ _ _ (accCover_first c _ _ _ _ _ _ _ _ _ _)
          iexact Hby
        iexact Hg
      isplitl [Ho]; · iexact Ho
      isplitl [H0]; · iexact H0
      iexists _; iexact H1
  · have hz : t.val ≠ 0 := fun h => h0 (by rw [h])
    by_cases h1 : t.val % 4 = 3
    · rw [show (dat0 V c).leavesExact 1 t = owns (c : Thread nD τ) (stg0_1 t) fullShare ((dat0 V c).after 1 t) from by
        unfold Dat.leavesExact; rw [live0_1 t ((last0_iff t).mpr h1)], after0_1]
      rw [outsAt0_last V c t h0 h1]
      unfold outAfterLast accAfterLast; (try dsimp only)
      rw [inv0_castSucc V c t, inv0_pos V c _ _ hz]
      iintro ⟨⟨⟨HS0, Hby⟩, Hg⟩, Ho, ⟨%d0, H0⟩, ⟨%d1, H1⟩⟩
      iapply ((bodyLast0 c (grid0.coords t) _ _ _ _ _ _ (fun h => h0 ((first0_iff t).mp h)) ((last0_iff t).mpr h1) (blk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hby Hg]
      · isplitl [HS0 Hby]
        · isplitl [HS0]
          · unfold owns; iexists _; isplitr
            swap; · iexact HS0
            ipureintro; exact View.read_writes_of_cover _ _ _ _ _ (accCover_last c _ _ _ _ _ _ _ _ _ _ _)
          iexact Hby
        iexact Hg
      isplitl [Ho]; · iexact Ho
      isplitl [H0]; · iexact H0
      unfold owns; iexists _; isplitr
      swap; · iexact H1
      ipureintro; exact View.read_writes_of_cover _ _ _ _ _ (outCover_last c _ _ _ _ _ _ _ _ _ _ _)
    · rw [Dat.leavesExact_idle (dat0 V c) 1 t (idle0_1 t (fun h => h1 ((last0_iff t).mp h))) (noFlush0_1 t (fun h => h1 ((last0_iff t).mp h)))]
      rw [outsAt0_mid V c t h0 h1]
      unfold accAfterMid; (try dsimp only)
      rw [inv0_castSucc V c t, inv0_pos V c _ _ hz]
      iintro ⟨⟨⟨HS0, Hby⟩, Hg⟩, Ho, ⟨%d0, H0⟩, ⟨%d1, H1⟩⟩
      iapply ((bodyMid0 c (grid0.coords t) _ _ _ _ _ _ (fun h => h0 ((first0_iff t).mp h)) (fun h => h1 ((last0_iff t).mp h)) (blk0 V c 0 t) _).2.2 _ Set.univ _)
      isplitl [H0]; · iexact H0
      isplitl [H1]; · iexact H1
      isplitl [HS0]; · iexact HS0
      iintro ⟨H0, H1, ⟨%es0, HS0⟩⟩
      isplitl [HS0 Hby Hg]
      · isplitl [HS0 Hby]
        · isplitl [HS0]
          · unfold owns; iexists _; isplitr
            swap; · iexact HS0
            ipureintro; exact View.read_writes_of_cover _ _ _ _ _ (accCover_mid c _ _ _ _ _ _ _ _ _ _ _)
          iexact Hby
        iexact Hg
      isplitl [Ho]; · iexact Ho
      isplitl [H0]; · iexact H0
      iexists _; iexact H1

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 32 := N_0; omega), classInv0_eq]
  iintro ⟨⟨HS0, Hby⟩, Hg⟩
  isplitl [HS0 Hby]
  · isplitl [HS0]; · iexists _; iexact HS0
    iexact Hby
  iexact Hg

end Cert.Kernel.Hand

end
-- ==== Proof.K.R1Kit.lean ====
import proofs.«119681_j32641751449979_2_alg».proof.Proof.Gen.Kernel.Launch
import proofs.«119681_j32641751449979_2_alg».proof.Proof.Gen.Kernel.Skeleton
import proofs.«119681_j32641751449979_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ
/-! # The second pallas_call (the aggregate-and-project kernel), at the buffer contents V it is entered with

Everything the three control cases of its body and the assembly over the grid share: the blocks its windows show,
the two branch conditions as functions of the linear point, where its output window is live, the memrefs the body is
called on, and the shape of the invariant carrying the accumulator between points. -/

variable (V : (c : Dev nD) → (b : Ref sig .tc) → Buf (Elt F) ((c : Thread nD τ).loc b))

/-- The block window w shows at point t, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input's staging buffer holds its block at every point

Each of the six inputs is uncut and never idle, so for any proof data over the entry contents whose body hands the
block back in place, the buffer the body is given holds the block whether or not the point fetched it: a point that
does not fetch has the block index of the point before. -/

theorem found1_0 {c : Dev nD} (dat : Dat τ (Elt F) Unit ℕ (Pipeline.UD sig nD τ) ℕ cfg1 c)
    (hA : dat.A 0 = V c (Pipeline.arrRef spec1 0)) (hafter : ∀ t, dat.after 0 t = iblk1 V c 0 t)
    (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  refine (dat.before_in_eq_fetched 0 rfl (fun _ => rfl) (fun _ _ _ => rfl) hkeep t d).trans ?_
  unfold Dat.fetched Dat.blockOf iblk1; rw [hA]; try rfl

theorem found1_1 {c : Dev nD} (dat : Dat τ (Elt F) Unit ℕ (Pipeline.UD sig nD τ) ℕ cfg1 c)
    (hA : dat.A 1 = V c (Pipeline.arrRef spec1 1)) (hafter : ∀ t, dat.after 1 t = iblk1 V c 1 t)
    (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  refine (dat.before_in_eq_fetched 1 rfl (fun _ => rfl) (fun _ _ _ => rfl) hkeep t d).trans ?_
  unfold Dat.fetched Dat.blockOf iblk1; rw [hA]; try rfl

theorem found1_2 {c : Dev nD} (dat : Dat τ (Elt F) Unit ℕ (Pipeline.UD sig nD τ) ℕ cfg1 c)
    (hA : dat.A 2 = V c (Pipeline.arrRef spec1 2)) (hafter : ∀ t, dat.after 2 t = iblk1 V c 2 t)
    (t : Fin cfg1.N) (d) : dat.before 2 t d = iblk1 V c 2 t := by
  have hkeep : ∀ t, (cfg1.win 2).cut (cfg1.grid.coords t) (dat.after 2 t) = dat.blockOf 2 t := fun t => by
    rw [hafter]; unfold Dat.blockOf iblk1; rw [hA]; try rfl
  refine (dat.before_in_eq_fetched 2 rfl (fun _ => rfl) (fun _ _ _ => rfl) hkeep t d).trans ?_
  unfold Dat.fetched Dat.blockOf iblk1; rw [hA]; try rfl

theorem found1_3 {c : Dev nD} (dat : Dat τ (Elt F) Unit ℕ (Pipeline.UD sig nD τ) ℕ cfg1 c)
    (hA : dat.A 3 = V c (Pipeline.arrRef spec1 3)) (hafter : ∀ t, dat.after 3 t = iblk1 V c 3 t)
    (t : Fin cfg1.N) (d) : dat.before 3 t d = iblk1 V c 3 t := by
  have hkeep : ∀ t, (cfg1.win 3).cut (cfg1.grid.coords t) (dat.after 3 t) = dat.blockOf 3 t := fun t => by
    rw [hafter]; unfold Dat.blockOf iblk1; rw [hA]; try rfl
  refine (dat.before_in_eq_fetched 3 rfl (fun _ => rfl) (fun _ _ _ => rfl) hkeep t d).trans ?_
  unfold Dat.fetched Dat.blockOf iblk1; rw [hA]; try rfl

theorem found1_4 {c : Dev nD} (dat : Dat τ (Elt F) Unit ℕ (Pipeline.UD sig nD τ) ℕ cfg1 c)
    (hA : dat.A 4 = V c (Pipeline.arrRef spec1 4)) (hafter : ∀ t, dat.after 4 t = iblk1 V c 4 t)
    (t : Fin cfg1.N) (d) : dat.before 4 t d = iblk1 V c 4 t := by
  have hkeep : ∀ t, (cfg1.win 4).cut (cfg1.grid.coords t) (dat.after 4 t) = dat.blockOf 4 t := fun t => by
    rw [hafter]; unfold Dat.blockOf iblk1; rw [hA]; try rfl
  refine (dat.before_in_eq_fetched 4 rfl (fun _ => rfl) (fun _ _ _ => rfl) hkeep t d).trans ?_
  unfold Dat.fetched Dat.blockOf iblk1; rw [hA]; try rfl

theorem found1_5 {c : Dev nD} (dat : Dat τ (Elt F) Unit ℕ (Pipeline.UD sig nD τ) ℕ cfg1 c)
    (hA : dat.A 5 = V c (Pipeline.arrRef spec1 5)) (hafter : ∀ t, dat.after 5 t = iblk1 V c 5 t)
    (t : Fin cfg1.N) (d) : dat.before 5 t d = iblk1 V c 5 t := by
  have hkeep : ∀ t, (cfg1.win 5).cut (cfg1.grid.coords t) (dat.after 5 t) = dat.blockOf 5 t := fun t => by
    rw [hafter]; unfold Dat.blockOf iblk1; rw [hA]; try rfl
  refine (dat.before_in_eq_fetched 5 rfl (fun _ => rfl) (fun _ _ _ => rfl) hkeep t d).trans ?_
  unfold Dat.fetched Dat.blockOf iblk1; rw [hA]; try rfl

/-! ## The two branch conditions, by the linear point

The grid is 8 x 4 with the reduction step k the fast axis, so point t has k = t % 4. -/

/-- The first conditional (zero the accumulator) is taken where k = 0: the body's scalar chain, substituted. -/
abbrev cond1_0 (i : grid1.Coords) : Prop :=
  (Scalar.cmpi .ne (Scalar.extui (Scalar.cmpi .eq (BitVec.ofNat 32 (i 1).val) 0#32)) 0#32) = 1#1

theorem hcond1_0 : ∀ t : Fin cfg1.N, cond1_0 (grid1.coords t) ↔ t.val % 4 = 0 :=
  (by decide +kernel : ∀ t : Fin grid1.N, cond1_0 (grid1.coords t) ↔ t.val % 4 = 0)

/-- The last conditional (the epilogue, which stores the output block) is taken where k = 3. -/
abbrev cond1_1 (i : grid1.Coords) : Prop := k1_cond2 i = 1#1

theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are live -/

theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl
theorem live1_5 : ∀ t : Fin cfg1.N, cfg1.idle 5 (grid1.coords t) = false := fun _ => rfl

/-- Away from k = 3 the body stores nothing into the output window: the configuration calls it idle there, -/
theorem idle1_6_off : ∀ t : Fin cfg1.N, ¬cond1_1 (grid1.coords t) → cfg1.idle 6 (grid1.coords t) = true := by decide +kernel
/-- and the pipeline does not write its block back there; -/
theorem keep1_6_off : ∀ t : Fin cfg1.N, ¬cond1_1 (grid1.coords t) → (cfg1.win 6).flush t = false := by decide +kernel
/-- at k = 3 it is live. -/
theorem live1_6_on : ∀ t : Fin cfg1.N, cond1_1 (grid1.coords t) → cfg1.idle 6 (grid1.coords t) = false := by decide +kernel

/-! ## The memrefs the body is called on -/

abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)
/-- The accumulator: a whole scoped buffer of the kernel's own, passed beside the windows and carried from point to point. -/
abbrev scM1_0 : Memref sig .tc .vmem S1024x128 .f32 := Memref.whole cc1_scratch0
/-- A view each of an output staging buffer and of the accumulator, through which contents written as pieces are read
    back (which buffer of the two does not matter once the pieces cover). -/
abbrev VO1_6 : View sig .tc .vmem S1024x128 .f32 := (Memref.whole cc1_stg6_0 : Memref sig .tc .vmem S1024x128 .f32).view
abbrev VS1_0 : View sig .tc .vmem S1024x128 .f32 := scM1_0.view

/-! ## The class invariant of the region, conjunct by conjunct

The core's scoped buffers that are no staging buffer of this call are the first call's four staging buffers and its
accumulator, which this call never touches, and this call's accumulator. -/

/-- A whole buffer held at some contents. -/
abbrev anyAt (c : Dev nD) (b : Ref sig .tc) : sProp 𝕄 :=
  iprop(∃ f : Buf (Elt F) ((c : Thread nD τ).loc b), ((c : Thread nD τ).loc b) ↦{fullShare} f)

theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg1_1 ∗ anyAt c cc0_scratch0
          ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.K.R1RunA.lean ====
import proofs.«119681_j32641751449979_2_alg».proof.Proof.K.R1Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ
/-! # The body at the first step of the reduction (k = 0)

The first conditional is taken and the last is not: the body zeroes the accumulator, then adds the product of the
adjacency block and the scaled-feature block to it. The accumulator is overwritten whole before it is read to any
effect, so it may come in at anything. It touches the two operand blocks and the accumulator only. -/

set_option maxHeartbeats 1000000 in
/-- The pieces the body's two stores leave in the accumulator at the first step, with the body's triple on whole
    memrefs: the two operand blocks at their contents and the accumulator at anything go in; the operands come back
    as they were and the accumulator with the pieces written. -/
noncomputable def firstRun (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole)
    (hc0 : cond1_0 i) (hc1 : ¬cond1_1 i)
    (x0 : Vec F S1024x2048 .bf16) (x1 : Vec F S2048x128 .bf16) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1
                ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?pieces, fun E K => ?triple⟩
  case triple =>
    simp only [cc1__gcn_kernel_eq_skeleton]; unfold cc1__gcn_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Hand

end
-- ==== Proof.K.R1RunB.lean ====
import proofs.«119681_j32641751449979_2_alg».proof.Proof.K.R1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ
/-! # The body at a middle step of the reduction (k = 1, 2)

Neither conditional is taken: the body adds the product of the adjacency block and the scaled-feature block to the
accumulator, which comes in at what the step before left. It touches those three buffers only. -/

set_option maxHeartbeats 1000000 in
/-- The pieces the body's store leaves in the accumulator at a middle step, with the body's triple on whole memrefs:
    the two operand blocks at their contents and the accumulator at the contents xs0 go in; the operands come back
    as they were and the accumulator with the pieces written. -/
noncomputable def midRun (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole)
    (hc0 : ¬cond1_0 i) (hc1 : ¬cond1_1 i)
    (x0 : Vec F S1024x2048 .bf16) (x1 : Vec F S2048x128 .bf16) (xs0 : Vec F S1024x128 .f32) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg9 fullShare xs0
            ∗ (iprop(owns (c : Thread nD τ) arg2 fullShare x0 ∗ owns (c : Thread nD τ) arg3 fullShare x1
                ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?pieces, fun E K => ?triple⟩
  case triple =>
    simp only [cc1__gcn_kernel_eq_skeleton]; unfold cc1__gcn_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Hand

end
-- ==== Proof.K.R1RunC.lean ====
import proofs.«119681_j32641751449979_2_alg».proof.Proof.K.R1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ
/-! # The body at the last step of the reduction (k = 3)

The first conditional is not taken and the last is: the body adds the last product to the accumulator, which comes
in at what the step before left, and then the epilogue reads the accumulator, the degree scale, the features, the
weights and the bias and stores the projected block into the output window's buffer, which may come in at
anything. It touches every operand. -/

set_option maxHeartbeats 1000000 in
/-- The pieces the epilogue's store leaves in the output window's buffer and those the accumulation leaves in the
    accumulator at the last step, with the body's triple on whole memrefs: the six input blocks at their contents,
    the output buffer at anything and the accumulator at the contents xs0 go in; the inputs come back as they were,
    the output buffer and the accumulator with their pieces written. -/
noncomputable def lastRun (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole)
    (hc0 : ¬cond1_0 i) (hc1 : cond1_1 i)
    (x0 : Vec F S1024x2048 .bf16) (x1 : Vec F S2048x128 .bf16) (x2 : Vec F S1024x1 .f32) (x3 : Vec F S1024x128 .f32) (x4 : Vec F S128x128 .f32) (x5 : Vec F S1x128 .f32) (xs0 : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f LO)
                ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?outPieces, ?accPieces, fun E K => ?triple⟩
  case triple =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]; · iexists _; iexact HO
    iexists _; iexact HS

end Cert.Kernel.Hand

end
-- ==== Proof.K.R1.lean ====
import proofs.«119681_j32641751449979_2_alg».proof.Proof.K.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ
/-! # The second pallas_call over its grid, at the buffer contents V it is entered with

What the accumulator and the output window's buffer hold after every point, the proof data of the pipeline with the
accumulator carried through the invariant, and the body obligation: at each point the residue of the point modulo 4
selects the control case, whose triple applies. -/

variable (V : (c : Dev nD) → (b : Ref sig .tc) → Buf (Elt F) ((c : Thread nD τ).loc b))

/-! ## What each control case leaves

Each case's pieces are read back over junk through a fixed view; since they tile the buffer, the reading is the same
through any view and over any earlier contents. -/

/-- The accumulator after the first step. -/
def accFirst (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i) (x0 : Vec F S1024x2048 .bf16) (x1 : Vec F S2048x128 .bf16) : Vec F S1024x128 .f32 :=
  VS1_0.read (Elt F) (VS1_0.writes (Elt F) VS1_0.junk (firstRun c i arg2 harg2 arg3 harg3 arg4 harg4 arg5 harg5 arg6 harg6 arg7 harg7 arg8 harg8 arg9 harg9 hc0 hc1 x0 x1).1)

/-- Its pieces tile the accumulator. -/
theorem accFirst_cover (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i) (x0 : Vec F S1024x2048 .bf16) (x1 : Vec F S2048x128 .bf16) (y : S1024x128.Idx) :
    ∃ pc ∈ (firstRun c i arg2 harg2 arg3 harg3 arg4 harg4 arg5 harg5 arg6 harg6 arg7 harg7 arg8 harg8 arg9 harg9 hc0 hc1 x0 x1).1, y ∈ pc.1.set :=
  View.cover_of_tiledL (firstRun c i arg2 harg2 arg3 harg3 arg4 harg4 arg5 harg5 arg6 harg6 arg7 harg7 arg8 harg8 arg9 harg9 hc0 hc1 x0 x1).1 S1024x128.size (by sl_kernel_rfl) y

/-- The accumulator after a middle step that found it at xs0. -/
def accMid (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i) (x0 : Vec F S1024x2048 .bf16) (x1 : Vec F S2048x128 .bf16) (xs0 : Vec F S1024x128 .f32) : Vec F S1024x128 .f32 :=
  VS1_0.read (Elt F) (VS1_0.writes (Elt F) VS1_0.junk (midRun c i arg2 harg2 arg3 harg3 arg4 harg4 arg5 harg5 arg6 harg6 arg7 harg7 arg8 harg8 arg9 harg9 hc0 hc1 x0 x1 xs0).1)

theorem accMid_cover (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i) (x0 : Vec F S1024x2048 .bf16) (x1 : Vec F S2048x128 .bf16) (xs0 : Vec F S1024x128 .f32) (y : S1024x128.Idx) :
    ∃ pc ∈ (midRun c i arg2 harg2 arg3 harg3 arg4 harg4 arg5 harg5 arg6 harg6 arg7 harg7 arg8 harg8 arg9 harg9 hc0 hc1 x0 x1 xs0).1, y ∈ pc.1.set :=
  View.cover_of_tiledL (midRun c i arg2 harg2 arg3 harg3 arg4 harg4 arg5 harg5 arg6 harg6 arg7 harg7 arg8 harg8 arg9 harg9 hc0 hc1 x0 x1 xs0).1 S1024x128.size (by sl_kernel_rfl) y

/-- The output window's buffer after the last step that found the accumulator at xs0. -/
def outLast (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i) (x0 : Vec F S1024x2048 .bf16) (x1 : Vec F S2048x128 .bf16) (x2 : Vec F S1024x1 .f32) (x3 : Vec F S1024x128 .f32) (x4 : Vec F S128x128 .f32) (x5 : Vec F S1x128 .f32) (xs0 : Vec F S1024x128 .f32) : Vec F S1024x128 .f32 :=
  VO1_6.read (Elt F) (VO1_6.writes (Elt F) VO1_6.junk (lastRun c i arg2 harg2 arg3 harg3 arg4 harg4 arg5 harg5 arg6 harg6 arg7 harg7 arg8 harg8 arg9 harg9 hc0 hc1 x0 x1 x2 x3 x4 x5 xs0).1)

theorem outLast_cover (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i) (x0 : Vec F S1024x2048 .bf16) (x1 : Vec F S2048x128 .bf16) (x2 : Vec F S1024x1 .f32) (x3 : Vec F S1024x128 .f32) (x4 : Vec F S128x128 .f32) (x5 : Vec F S1x128 .f32) (xs0 : Vec F S1024x128 .f32) (y : S1024x128.Idx) :
    ∃ pc ∈ (lastRun c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (lastRun c i arg2 harg2 arg3 harg3 arg4 harg4 arg5 harg5 arg6 harg6 arg7 harg7 arg8 harg8 arg9 harg9 hc0 hc1 x0 x1 x2 x3 x4 x5 xs0).1 S1024x128.size (by sl_kernel_rfl) y

/-- The accumulator after the last step. -/
def accLast (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i) (x0 : Vec F S1024x2048 .bf16) (x1 : Vec F S2048x128 .bf16) (x2 : Vec F S1024x1 .f32) (x3 : Vec F S1024x128 .f32) (x4 : Vec F S128x128 .f32) (x5 : Vec F S1x128 .f32) (xs0 : Vec F S1024x128 .f32) : Vec F S1024x128 .f32 :=
  VS1_0.read (Elt F) (VS1_0.writes (Elt F) VS1_0.junk (lastRun c i arg2 harg2 arg3 harg3 arg4 harg4 arg5 harg5 arg6 harg6 arg7 harg7 arg8 harg8 arg9 harg9 hc0 hc1 x0 x1 x2 x3 x4 x5 xs0).2.1)

theorem accLast_cover (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i) (x0 : Vec F S1024x2048 .bf16) (x1 : Vec F S2048x128 .bf16) (x2 : Vec F S1024x1 .f32) (x3 : Vec F S1024x128 .f32) (x4 : Vec F S128x128 .f32) (x5 : Vec F S1x128 .f32) (xs0 : Vec F S1024x128 .f32) (y : S1024x128.Idx) :
    ∃ pc ∈ (lastRun c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (lastRun c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What stands for the output window's buffer at a point that stores nothing into it: the window is idle there and
    its block is not written back, so nothing reads this value. -/
def restOut : Vec F S1024x128 .f32 := VO1_6.read (Elt F) VO1_6.junk

/-! ## Point by point -/

theorem not_last_of_first {n : ℕ} (h : n % 4 = 0) : ¬n % 4 = 3 := by omega

/-- What the output window's buffer and the accumulator hold after the body at point n. The residue of n modulo 4
    selects the case; a middle or last step starts from the accumulator the point before left, the first step from
    nothing. -/
def outsAt1 (c : Dev nD) : (n : ℕ) → n < cfg1.N → Vec F S1024x128 .f32 × Vec F S1024x128 .f32
  | 0, hn =>
    (restOut, accFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod 4))
      (fun h => not_last_of_first (Nat.zero_mod 4) ((hcond1_1 ⟨0, hn⟩).mp h)) (iblk1 V c 0 ⟨0, hn⟩) (iblk1 V c 1 ⟨0, hn⟩))
  | n + 1, hn =>
    if h0 : (n + 1) % 4 = 0 then
      (restOut, accFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0)
        (fun h => not_last_of_first h0 ((hcond1_1 ⟨n + 1, hn⟩).mp h)) (iblk1 V c 0 ⟨n + 1, hn⟩) (iblk1 V c 1 ⟨n + 1, hn⟩))
    else if h1 : (n + 1) % 4 = 3 then
      (outLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1)
          (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2,
        accLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1)
          (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
    else
      (restOut, accMid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h))
        (iblk1 V c 0 ⟨n + 1, hn⟩) (iblk1 V c 1 ⟨n + 1, hn⟩) (outsAt1 c n (Nat.lt_of_succ_lt hn)).2)

/-- At a first step. -/
theorem outsAt1_A (c : Dev nD) (t : Fin cfg1.N) (h0 : t.val % 4 = 0) (h1 : ¬t.val % 4 = 3) :
    outsAt1 V c t.val t.isLt = (restOut, accFirst c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t)) := by
  obtain ⟨n, hn⟩ := t
  cases n with
  | zero => rfl
  | succ n => exact (dif_pos h0).trans rfl

/-- At a middle step: over what the point before left. -/
theorem outsAt1_B (c : Dev nD) (t : Fin cfg1.N) (h0 : ¬t.val % 4 = 0) (h1 : ¬t.val % 4 = 3) :
    outsAt1 V c t.val t.isLt = (restOut, accMid c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod 4) h0
  | succ n => exact (dif_neg h0).trans ((dif_neg h1).trans rfl)

/-- At a last step: over what the point before left. -/
theorem outsAt1_C (c : Dev nD) (t : Fin cfg1.N) (h0 : ¬t.val % 4 = 0) (h1 : t.val % 4 = 3) :
    outsAt1 V c t.val t.isLt = (outLast c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2,
      accLast c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact absurd (Nat.zero_mod 4) h0
  | succ n => exact (dif_neg h0).trans ((dif_pos h1).trans rfl)

/-! ## The invariant: the accumulator carried between points

Before the first point it is the class's own (every scoped buffer that is no staging buffer at anything, the
generator register at some state); from then on it names what the accumulator holds. -/

def PhiS1 (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg1_1 ∗ anyAt c cc0_scratch0
      ∗ owns (c : Thread nD τ) scM1_0 fullShare (outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(anyAt c cc0_stg0_0 ∗ anyAt c cc0_stg0_1 ∗ anyAt c cc0_stg1_0 ∗ anyAt c cc0_stg1_1 ∗ anyAt c cc0_scratch0
      ∗ owns (c : Thread nD τ) scM1_0 fullShare (outsAt1 V c n hn).2) ∗ (∃ r, prngReg c r)) := rfl

theorem PhiS1_pos (c : Dev nD) (n : ℕ) (h : n ≤ cfg1.N) (hz : n ≠ 0) :
    PhiS1 V c n h = iprop(iprop(anyAt c cc0_stg0_0 ∗ anyAt c cc0_stg0_1 ∗ anyAt c cc0_stg1_0 ∗ anyAt c cc0_stg1_1 ∗ anyAt c cc0_scratch0
      ∗ owns (c : Thread nD τ) scM1_0 fullShare (outsAt1 V c (n - 1) (by omega)).2) ∗ (∃ r, prngReg c r)) := by
  cases n with
  | zero => exact absurd rfl hz
  | succ n => rfl

/-! ## The proof data -/

/-- The pipeline's proof data on core c: the arrays as the region finds them; after the body each input's buffer at
    its block and the output's at what the point leaves; the invariant above; full shares; nothing owed. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  found1_0 V (dat1 V c) (A_eq1 V c 0) (after1_0 V c) t d
theorem before1_1 (c : Dev nD) (t : Fin cfg1.N) (d) : (dat1 V c).before 1 t d = iblk1 V c 1 t :=
  found1_1 V (dat1 V c) (A_eq1 V c 1) (after1_1 V c) t d
theorem before1_2 (c : Dev nD) (t : Fin cfg1.N) (d) : (dat1 V c).before 2 t d = iblk1 V c 2 t :=
  found1_2 V (dat1 V c) (A_eq1 V c 2) (after1_2 V c) t d
theorem before1_3 (c : Dev nD) (t : Fin cfg1.N) (d) : (dat1 V c).before 3 t d = iblk1 V c 3 t :=
  found1_3 V (dat1 V c) (A_eq1 V c 3) (after1_3 V c) t d
theorem before1_4 (c : Dev nD) (t : Fin cfg1.N) (d) : (dat1 V c).before 4 t d = iblk1 V c 4 t :=
  found1_4 V (dat1 V c) (A_eq1 V c 4) (after1_4 V c) t d
theorem before1_5 (c : Dev nD) (t : Fin cfg1.N) (d) : (dat1 V c).before 5 t d = iblk1 V c 5 t :=
  found1_5 V (dat1 V c) (A_eq1 V c 5) (after1_5 V c) t d

/-- An input's buffer is handed back at what the body leaves: its block. -/
theorem leaves1_0 (c : Dev nD) (t : Fin cfg1.N) :
    (dat1 V c).leavesExact 0 t = owns (c : Thread nD τ) (ms1_0 t) fullShare (iblk1 V c 0 t) := by
  unfold Dat.leavesExact; rw [live1_0 t, after1_0]
theorem leaves1_1 (c : Dev nD) (t : Fin cfg1.N) :
    (dat1 V c).leavesExact 1 t = owns (c : Thread nD τ) (ms1_1 t) fullShare (iblk1 V c 1 t) := by
  unfold Dat.leavesExact; rw [live1_1 t, after1_1]
theorem leaves1_2 (c : Dev nD) (t : Fin cfg1.N) :
    (dat1 V c).leavesExact 2 t = owns (c : Thread nD τ) (ms1_2 t) fullShare (iblk1 V c 2 t) := by
  unfold Dat.leavesExact; rw [live1_2 t, after1_2]
theorem leaves1_3 (c : Dev nD) (t : Fin cfg1.N) :
    (dat1 V c).leavesExact 3 t = owns (c : Thread nD τ) (ms1_3 t) fullShare (iblk1 V c 3 t) := by
  unfold Dat.leavesExact; rw [live1_3 t, after1_3]
theorem leaves1_4 (c : Dev nD) (t : Fin cfg1.N) :
    (dat1 V c).leavesExact 4 t = owns (c : Thread nD τ) (ms1_4 t) fullShare (iblk1 V c 4 t) := by
  unfold Dat.leavesExact; rw [live1_4 t, after1_4]
theorem leaves1_5 (c : Dev nD) (t : Fin cfg1.N) :
    (dat1 V c).leavesExact 5 t = owns (c : Thread nD τ) (ms1_5 t) fullShare (iblk1 V c 5 t) := by
  unfold Dat.leavesExact; rw [live1_5 t, after1_5]

/-! ## The body obligation -/

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' buffers hold their blocks; the residue of the point modulo 4 says which
    control case it is in, and that case's triple applies. The invariant hands the body the accumulator — at the first
    point of all at anything, afterwards at what the point before left — and takes it back at this point's contents;
    the first call's buffers, the generator register and the core's debts pass through untouched; away from the
    last step the output window's buffer is handed back as it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5]
  by_cases h0 : t.val % 4 = 0
  · have h1 : ¬t.val % 4 = 3 := not_last_of_first h0
    rw [Dat.leavesExact_idle (dat1 V c) 6 t (idle1_6_off t (fun h => h1 ((hcond1_1 t).mp h))) (keep1_6_off t (fun h => h1 ((hcond1_1 t).mp h)))]
    rw [outsAt1_A V c t h0 h1]
    unfold accFirst; (try dsimp only)
    by_cases hz : t.val = 0
    · rw [PhiS1_castSucc V c t, PhiS1_zero V c _ _ hz, PhiA1_eq]
      iintro ⟨⟨⟨HR0, HR1, HR2, HR3, HR4, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((firstRun c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t)).2 Set.univ _)
      isplitl [H0]; · iexact H0
      isplitl [H1]; · iexact H1
      isplitl [HS]; · iexact HS
      iintro ⟨H0, H1, ⟨%es, HS⟩⟩
      isplitl [HR0 HR1 HR2 HR3 HR4 HS Hg]
      · isplitl [HR0 HR1 HR2 HR3 HR4 HS]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS
          ipureintro; exact View.read_writes_of_cover _ _ _ _ _ (accFirst_cover c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨⟨HR0, HR1, HR2, HR3, HR4, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((firstRun c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t)).2 Set.univ _)
      isplitl [H0]; · iexact H0
      isplitl [H1]; · iexact H1
      isplitl [HS]; · iexists _; iexact HS
      iintro ⟨H0, H1, ⟨%es, HS⟩⟩
      isplitl [HR0 HR1 HR2 HR3 HR4 HS Hg]
      · isplitl [HR0 HR1 HR2 HR3 HR4 HS]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS
          ipureintro; exact View.read_writes_of_cover _ _ _ _ _ (accFirst_cover c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · by_cases h1 : t.val % 4 = 3
    · have hz : t.val ≠ 0 := fun e => h0 (by omega)
      rw [show (dat1 V c).leavesExact 6 t = owns (c : Thread nD τ) (ms1_6 t) fullShare ((dat1 V c).after 6 t) from by
        unfold Dat.leavesExact; rw [live1_6_on t ((hcond1_1 t).mpr h1)], after1_6]
      rw [outsAt1_C V c t h0 h1]
      unfold outLast accLast; (try dsimp only)
      rw [PhiS1_castSucc V c t, PhiS1_pos V c _ _ hz]
      iintro ⟨⟨⟨HR0, HR1, HR2, HR3, HR4, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((lastRun c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%eo, H6⟩, ⟨%es, HS⟩⟩
      isplitl [HR0 HR1 HR2 HR3 HR4 HS Hg]
      · isplitl [HR0 HR1 HR2 HR3 HR4 HS]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS
          ipureintro; exact View.read_writes_of_cover _ _ _ _ _ (accLast_cover c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (outLast_cover c _ _ _ _ _ _ _ _ _ _ _ _ _ _ _ _ _ _ _ _ _ _ _ _ _ _)
    · have hz : t.val ≠ 0 := fun e => h0 (by omega)
      rw [Dat.leavesExact_idle (dat1 V c) 6 t (idle1_6_off t (fun h => h1 ((hcond1_1 t).mp h))) (keep1_6_off t (fun h => h1 ((hcond1_1 t).mp h)))]
      rw [outsAt1_B V c t h0 h1]
      unfold accMid; (try dsimp only)
      rw [PhiS1_castSucc V c t, PhiS1_pos V c _ _ hz]
      iintro ⟨⟨⟨HR0, HR1, HR2, HR3, HR4, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((midRun c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2).2 Set.univ _)
      isplitl [H0]; · iexact H0
      isplitl [H1]; · iexact H1
      isplitl [HS]; · iexact HS
      iintro ⟨H0, H1, ⟨%es, HS⟩⟩
      isplitl [HR0 HR1 HR2 HR3 HR4 HS Hg]
      · isplitl [HR0 HR1 HR2 HR3 HR4 HS]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS
          ipureintro; exact View.read_writes_of_cover _ _ _ _ _ (accMid_cover c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the region -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's own back: what the accumulator holds is forgotten. -/
theorem PhiS1_forget (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HS⟩, Hg⟩
  isplitl [HR0 HR1 HR2 HR3 HR4 HS]
  · isplitl [HR0]; · iexact HR0
    isplitl [HR1]; · iexact HR1
    isplitl [HR2]; · iexact HR2
    isplitl [HR3]; · iexact HR3
    isplitl [HR4]; · iexact HR4
    iexists _; iexact HS
  iexact Hg

/-- In particular after the last point. -/
theorem hout1 (c : Dev nD) : (dat1 V c).Φ (Fin.last cfg1.N) ⊢ Pipeline.ΦA spec1 c :=
  PhiS1_forget V c _ (by rw [Fin.val_last]; have : cfg1.N = 32 := N_1; omega)

end Cert.Kernel.Hand

end
-- ==== Proof.K.Main.lean ====
/-
  The whole program as six segments: the host stretch that builds the adjacency, the degree pass, three host stretches
  (degree plus one, its inverse square root where positive, the pre-scaled features, the transposed weight and the bias
  row), and the aggregation pass.

  Between two segments every unscoped buffer is held whole at contents named here (`W0` … `W6`): the launch memory, then
  what each host stretch computes from the contents before it, and after a kernel region the region's arrays at what
  its write-backs leave (inputs as entered, the output at the fold of the blocks written back) with every other buffer
  as entered. The run reads every unscoped buffer at `W6` off the final state; the arguments walk back through the fold
  to the launch memory (no host operation writes one, no region changes one), and the result buffer is the aggregation
  pass's output array.
-/
import proofs.«119681_j32641751449979_2_alg».proof.Proof.K.R0
import proofs.«119681_j32641751449979_2_alg».proof.Proof.K.R1
import proofs.«119681_j32641751449979_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents at each boundary -/

/-- At launch. -/
abbrev W0 (c : Dev nD) : Valuation τ sig (Elt F) := fun b => m (c, b)
/-- After the stretch that builds the adjacency (the degree pass's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the degree pass: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the three host stretches between the passes (the aggregation pass's entry is `W5`). -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev V5 : (c : Dev nD) → (b : Ref sig .tc) → Buf (Elt F) ((c : Thread nD τ).loc b) := fun c b => W5 m c b
/-- After the aggregation pass. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-! ## The arguments end as launched -/

/-- No host stretch between the passes writes `r` when `r` is none of their results. -/
theorem W5_of (c : Dev nD) (r : Ref sig .tc) (h1 : r ∉ hostOps1_W) (h2 : r ∉ hostOps1_1_W) (h3 : r ∉ hostOps1_2_W) :
    W5 m c (Proc.devRef .tc r) = W2 m c (Proc.devRef .tc r) :=
  (StableHlo.after_of_writes_sub hostOps1_2 _ hostOps1_2_writes h3).trans <|
    (StableHlo.after_of_writes_sub hostOps1_1 _ hostOps1_1_writes h2).trans <|
      StableHlo.after_of_writes_sub hostOps1 _ hostOps1_writes h1
theorem W1_of (c : Dev nD) (r : Ref sig .tc) (h : r ∉ hostOps0_W) : W1 m c (Proc.devRef .tc r) = m ((c : Thread nD τ).loc r) :=
  StableHlo.after_of_writes_sub hostOps0 _ hostOps0_writes h

/-- The features: an input window of the aggregation pass, read back as entered; written by nothing before. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := (W6_arr m c 3).trans (((dat1 (V5 m) c).arrAt_in 3 rfl _).trans (A_eq1 (V5 m) c 3))
    _ = W2 m c (Proc.devRef .tc main_arg0) := W5_of m c main_arg0 (by decide) (by decide) (by decide)
    _ = W1 m c (Proc.devRef .tc main_arg0) := W2_of_ne m c main_arg0 (by decide)
    _ = m ((c : Thread nD τ).loc main_arg0) := W1_of m c main_arg0 (by decide)
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W2 m c (Proc.devRef .tc main_arg1) := W5_of m c main_arg1 (by decide) (by decide) (by decide)
    _ = W1 m c (Proc.devRef .tc main_arg1) := W2_of_ne m c main_arg1 (by decide)
    _ = m ((c : Thread nD τ).loc main_arg1) := W1_of m c main_arg1 (by decide)
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W2 m c (Proc.devRef .tc main_arg2) := W5_of m c main_arg2 (by decide) (by decide) (by decide)
    _ = W1 m c (Proc.devRef .tc main_arg2) := W2_of_ne m c main_arg2 (by decide)
    _ = m ((c : Thread nD τ).loc main_arg2) := W1_of m c main_arg2 (by decide)
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W2 m c (Proc.devRef .tc main_arg3) := W5_of m c main_arg3 (by decide) (by decide) (by decide)
    _ = W1 m c (Proc.devRef .tc main_arg3) := W2_of_ne m c main_arg3 (by decide)
    _ = m ((c : Thread nD τ).loc main_arg3) := W1_of m c main_arg3 (by decide)
/-- The result buffer is the aggregation pass's output array. -/
theorem W6_main_v34 (c : Dev nD) : W6 m c (Proc.devRef .tc main_v34) = (dat1 (V5 m) c).arrAt 6 cfg1.N := W6_arr m c 6

/-! ## The proof data family and the thread state -/

abbrev adm : (p : Fin 2) → (pcfgs (F := F) p).Adm := fun p => (cfgs p).toPCfg_adm
/-- Both regions' proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V5 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- The degree pass over the thread state: entered from every unscoped buffer at `W1`, left at `W2`. Its arrays are split
    out of the unscoped buffers and put back at the exit contents; the generator register goes into the invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    refine BIBase.Entails.trans ?_ (hin0 (V1 m) c)
    unfold Pipeline.ΦA
    iintro ⟨Hp, -, Hr⟩
    isplitl [Hr]; · iexact Hr
    iexact Hp
  hout c := by
    rw [Pipeline.ownSems0_none, show (pdats m 0 c).Φ (Fin.last _) = (dat0 (V1 m) c).Φ (Fin.last cfg0.N) from rfl]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation pass over the thread state: entered from every unscoped buffer at `W5`, left at `W6` beside the core
    owing nothing. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V5 m) c).Φ 0 from rfl]
    refine BIBase.Entails.trans ?_ (hin1 (V5 m) c)
    unfold Pipeline.ΦA
    iintro ⟨Hp, -, Hr⟩
    isplitl [Hr]; · iexact Hr
    iexact Hp
  hout c := by
    rw [Pipeline.ownSems0_none, show (pdats m 1 c).Φ (Fin.last _) = (dat1 (V5 m) c).Φ (Fin.last cfg1.N) from rfl]
    refine BIBase.Entails.trans (hout1 (V5 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m) ]

set_option backward.isDefEq.respectTransparency.types false in
/-- Every weakly fair execution of the program from memory `m` with zero counters terminates, nothing faulting, and
    the final memory holds every unscoped buffer at `W6`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m c b) :=
  Pipeline.θ_run_regions_kit (pcfgs (F := F)) adm (pdats m) () cellOf_inj embL defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

/-- The run with the result named: the result buffer ends at the aggregation pass's output array, the arguments as
    launched. -/
theorem run_result : θ_run defs (onTc (τ := τ) (main (F := F))) ⟨m, fun _ => 0, ρ⟩ (fun r => ∀ c : Dev nD,
      r.2.mem ((c.tc : Thread nD τ).loc main_v34) = (dat1 (V5 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v34 (by decide))).trans (W6_main_v34 m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

end Cert.Kernel.Hand

end
-- ==== Proof.KI.R0Kit.lean ====
/-
  The degree pass (the first kernel region), at the buffer contents `V` the region is entered with.

  Its grid is 8 row blocks by 4 column blocks, walked row block by row block; point `t` is column block `t % 4` of row
  block `t / 4`. The body adds the row sums of the adjacency block it is handed into a 1024-row accumulator kept in
  scratch memory, zeroing the accumulator first at column block 0 and copying it to the output block at column block 3.
  Here: the blocks the windows hold, the two conditions of the body in closed form over the grid, where the output
  window is left alone and where it is written back, and the region's standing invariant spelled over the accumulator.
-/
import proofs.«119681_j32641751449979_2_alg».proof.Proof.Gen.KernelIdeal.Launch
import proofs.«119681_j32641751449979_2_alg».proof.Proof.Gen.KernelIdeal.Skeleton
import proofs.«119681_j32641751449979_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks -/

/-- The block of window `w` at grid point `t`, cut out of the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds the point's adjacency block whenever the body runs: the window is an
    input, fetched at every point, never cut and never idle. -/
theorem held0_of {c : Dev nD} (dat : Dat τ (Elt F) Unit ℕ (Pipeline.UD sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## The body's two conditions, in closed form -/

/-- "This is column block 0": the accumulator is zeroed first. -/
abbrev first0 (i : grid0.Coords) : Prop := (Scalar.cmpi .ne (Scalar.extui (Scalar.cmpi .eq (BitVec.ofNat 32 (i 1).val) 0#32)) 0#32) = 1#1
theorem first0_iff : ∀ t : Fin cfg0.N, first0 (grid0.coords t) ↔ t.val % 4 = 0 :=
  (by decide +kernel : ∀ t : Fin grid0.N, first0 (grid0.coords t) ↔ t.val % 4 = 0)

/-- "This is column block 3": the accumulator is copied to the output block. -/
abbrev last0 (i : grid0.Coords) : Prop := k0_cond2 i = 1#1
theorem last0_iff : ∀ t : Fin cfg0.N, last0 (grid0.coords t) ↔ t.val % 4 = 3 :=
  (by decide +kernel : ∀ t : Fin grid0.N, last0 (grid0.coords t) ↔ t.val % 4 = 3)

/-! ## Where the windows are idle -/

theorem live0_0 : ∀ t : Fin cfg0.N, cfg0.idle 0 (grid0.coords t) = false := by decide +kernel
/-- Off column block 3 the body stores nothing into the output block, -/
theorem idle0_1 : ∀ t : Fin cfg0.N, ¬last0 (grid0.coords t) → cfg0.idle 1 (grid0.coords t) = true := by decide +kernel
/-- and the pipeline does not write the block back there. -/
theorem noFlush0_1 : ∀ t : Fin cfg0.N, ¬last0 (grid0.coords t) → (cfg0.win 1).flush t = false := by decide +kernel
/-- At column block 3 the output block is stored. -/
theorem live0_1 : ∀ t : Fin cfg0.N, last0 (grid0.coords t) → cfg0.idle 1 (grid0.coords t) = false := by decide +kernel

/-! ## The memrefs the body is called with -/

/-- One staging buffer of the output window, through which its contents are stated. -/
abbrev outView0 : View sig .tc .vmem S1024x1 .f32 := (Memref.whole cc0_stg1_0 : Memref sig .tc .vmem S1024x1 .f32).view
abbrev stg0_0 (t : Fin cfg0.N) : Memref sig .tc .vmem S1024x2048 .bf16 := win0_0.stage (cfg0.slots t 0)
abbrev stgW0_0 (t : Fin cfg0.N) : (stg0_0 t).IsWhole := hstage0_0 ((cfg0.slots t 0).cast nbuf0_0)
abbrev stg0_1 (t : Fin cfg0.N) : Memref sig .tc .vmem S1024x1 .f32 := win0_1.stage (cfg0.slots t 1)
abbrev stgW0_1 (t : Fin cfg0.N) : (stg0_1 t).IsWhole := hstage0_1 ((cfg0.slots t 1).cast nbuf0_1)
/-- The accumulator: a whole scoped buffer of the kernel's own. -/
abbrev acc0 : Memref sig .tc .vmem S1024x1 .f32 := Memref.whole cc0_scratch0
abbrev accView0 : View sig .tc .vmem S1024x1 .f32 := acc0.view

/-! ## The standing invariant over the accumulator -/

/-- The scoped buffers the degree pass never touches (the second region's staging buffers and accumulator), each whole
    at some contents. -/
def bystanders0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The region's class invariant: the accumulator whole at some contents, the bystanders, and the generator register
    at some state. -/
theorem classInv0_eq (c : Dev nD) :
    (Pipeline.ΦA spec0 c : sProp 𝕄)
      = iprop(iprop((∃ d, owns (c : Thread nD τ) acc0 fullShare d) ∗ bystanders0 c) ∗ (∃ r, prngReg c r)) := by
  unfold Pipeline.ΦA; rw [scopedRest0_eq]; simp only [acc0, owns_whole, bystanders0]; try rfl

end Cert.KernelIdeal.Hand

end
-- ==== Proof.KI.R0RunA.lean ====
/-
  The degree body at column block 0: the accumulator is zeroed, then the block's row sums are added; nothing is stored
  into the output block. The run is found by symbolic execution; what it leaves in the accumulator is its witness.
-/
import proofs.«119681_j32641751449979_2_alg».proof.Proof.KI.R0Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- On whole memrefs — the adjacency block at `x0`, the output block at `xi1` (handed back untouched), the accumulator at
    anything (it is overwritten before it is used) — the body runs to the continuation with the accumulator's pieces
    written. -/
noncomputable def bodyFirst0 (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : first0 i) (hl : ¬last0 i)
    (x0 : Vec F S1024x2048 .bf16) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KI.R0RunB.lean ====
/-
  The degree body at column blocks 1 and 2: the block's row sums are added to the accumulator as the point before left
  it; nothing is stored into the output block.
-/
import proofs.«119681_j32641751449979_2_alg».proof.Proof.KI.R0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- On whole memrefs — the adjacency block at `x0`, the output block at `xi1` (handed back untouched), the accumulator at
    `xs0` — the body runs to the continuation with the accumulator's pieces written. -/
noncomputable def bodyMid0 (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : ¬first0 i) (hl : ¬last0 i)
    (x0 : Vec F S1024x2048 .bf16) (xs0 : Vec F S1024x1 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KI.R0RunC.lean ====
/-
  The degree body at column block 3: the block's row sums are added to the accumulator as the point before left it, and
  the accumulator is then copied into the output block.
-/
import proofs.«119681_j32641751449979_2_alg».proof.Proof.KI.R0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- On whole memrefs — the adjacency block at `x0`, the output block at anything, the accumulator at `xs0` — the body runs
    to the continuation with the output block's and the accumulator's pieces written. -/
noncomputable def bodyLast0 (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : ¬first0 i) (hl : last0 i)
    (x0 : Vec F S1024x2048 .bf16) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hf | exact hl)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.KI.R0.lean ====
/-
  The degree pass, point by point.

  After the body at point `t` the accumulator holds the row sums of the adjacency blocks of the row block's columns so
  far: at column block 0 the zeroed accumulator plus the block's row sums, later what the point before left plus the
  block's row sums; at column block 3 the output block receives a copy. This module names those contents
  (`outsAt0`: the output block's buffer and the accumulator after each point), states the invariant that carries the
  accumulator from one point to the next, and discharges the pipeline's obligation on the body at every point.
-/
import proofs.«119681_j32641751449979_2_alg».proof.Proof.KI.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each case leaves -/

/-- At column block 0 the accumulator's pieces cover it (one whole store after the zeroing one). -/
theorem accCover_first (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : first0 i) (hl : ¬last0 i) (x0 : Vec F S1024x2048 .bf16) (y : S1024x1.Idx) :
    ∃ pc ∈ (bodyFirst0 c i arg2 harg2 arg3 harg3 arg4 harg4 hf hl x0).2.1, y ∈ pc.1.set :=
  View.cover_of_tiledL (bodyFirst0 c i arg2 harg2 arg3 harg3 arg4 harg4 hf hl x0).2.1 S1024x1.size (by sl_kernel_rfl) y
/-- The accumulator after column block 0. -/
def accAfterFirst (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : first0 i) (hl : ¬last0 i) (x0 : Vec F S1024x2048 .bf16) : Vec F S1024x1 .f32 :=
  accView0.read (Elt F) (accView0.writes (Elt F) accView0.junk (bodyFirst0 c i arg2 harg2 arg3 harg3 arg4 harg4 hf hl x0).2.1)

theorem accCover_mid (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : ¬first0 i) (hl : ¬last0 i) (x0 : Vec F S1024x2048 .bf16) (xs0 : Vec F S1024x1 .f32) (y : S1024x1.Idx) :
    ∃ pc ∈ (bodyMid0 c i arg2 harg2 arg3 harg3 arg4 harg4 hf hl x0 xs0).2.1, y ∈ pc.1.set :=
  View.cover_of_tiledL (bodyMid0 c i arg2 harg2 arg3 harg3 arg4 harg4 hf hl x0 xs0).2.1 S1024x1.size (by sl_kernel_rfl) y
/-- The accumulator after column block 1 or 2. -/
def accAfterMid (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : ¬first0 i) (hl : ¬last0 i) (x0 : Vec F S1024x2048 .bf16) (xs0 : Vec F S1024x1 .f32) : Vec F S1024x1 .f32 :=
  accView0.read (Elt F) (accView0.writes (Elt F) accView0.junk (bodyMid0 c i arg2 harg2 arg3 harg3 arg4 harg4 hf hl x0 xs0).2.1)

theorem accCover_last (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : ¬first0 i) (hl : last0 i) (x0 : Vec F S1024x2048 .bf16) (xs0 : Vec F S1024x1 .f32) (y : S1024x1.Idx) :
    ∃ pc ∈ (bodyLast0 c i arg2 harg2 arg3 harg3 arg4 harg4 hf hl x0 xs0).2.1, y ∈ pc.1.set :=
  View.cover_of_tiledL (bodyLast0 c i arg2 harg2 arg3 harg3 arg4 harg4 hf hl x0 xs0).2.1 S1024x1.size (by sl_kernel_rfl) y
/-- The accumulator after column block 3. -/
def accAfterLast (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : ¬first0 i) (hl : last0 i) (x0 : Vec F S1024x2048 .bf16) (xs0 : Vec F S1024x1 .f32) : Vec F S1024x1 .f32 :=
  accView0.read (Elt F) (accView0.writes (Elt F) accView0.junk (bodyLast0 c i arg2 harg2 arg3 harg3 arg4 harg4 hf hl x0 xs0).2.1)

theorem outCover_last (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : ¬first0 i) (hl : last0 i) (x0 : Vec F S1024x2048 .bf16) (xs0 : Vec F S1024x1 .f32) (y : S1024x1.Idx) :
    ∃ pc ∈ (bodyLast0 c i arg2 harg2 arg3 harg3 arg4 harg4 hf hl x0 xs0).1, y ∈ pc.1.set :=
  View.cover_of_tiledL (bodyLast0 c i arg2 harg2 arg3 harg3 arg4 harg4 hf hl x0 xs0).1 S1024x1.size (by sl_kernel_rfl) y
/-- The output block after column block 3. -/
def outAfterLast (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : ¬first0 i) (hl : last0 i) (x0 : Vec F S1024x2048 .bf16) (xs0 : Vec F S1024x1 .f32) : Vec F S1024x1 .f32 :=
  outView0.read (Elt F) (outView0.writes (Elt F) outView0.junk (bodyLast0 c i arg2 harg2 arg3 harg3 arg4 harg4 hf hl x0 xs0).1)

/-- Off column block 3 nothing is stored into the output block and the block is not written back: its contents there
    are never consulted; this stands in for them. -/
def idleOut0 : Vec F S1024x1 .f32 := outView0.read (Elt F) outView0.junk

/-! ## The contents after each point -/

/-- The output block's buffer and the accumulator after the body at position `n` of the walk. -/
def outsAt0 (c : Dev nD) : (n : ℕ) → n < cfg0.N → Vec F S1024x1 .f32 × Vec F S1024x1 .f32
  | 0, hn => (idleOut0, accAfterFirst c (grid0.coords ⟨0, hn⟩) (stg0_0 ⟨0, hn⟩) (stgW0_0 ⟨0, hn⟩) (stg0_1 ⟨0, hn⟩) (stgW0_1 ⟨0, hn⟩) acc0 (Memref.isWhole_whole _) ((first0_iff ⟨0, hn⟩).mpr (Nat.zero_mod _)) (fun h => by have h3 := (last0_iff ⟨0, hn⟩).mp h; (try dsimp only at h3); omega) (blk0 V c 0 ⟨0, hn⟩))
  | n + 1, hn =>
    if h0 : (n + 1) % 4 = 0 then
      (idleOut0, accAfterFirst c (grid0.coords ⟨n + 1, hn⟩) (stg0_0 ⟨n + 1, hn⟩) (stgW0_0 ⟨n + 1, hn⟩) (stg0_1 ⟨n + 1, hn⟩) (stgW0_1 ⟨n + 1, hn⟩) acc0 (Memref.isWhole_whole _) ((first0_iff ⟨n + 1, hn⟩).mpr h0) (fun h => by have h3 := (last0_iff ⟨n + 1, hn⟩).mp h; (try dsimp only at h3); omega) (blk0 V c 0 ⟨n + 1, hn⟩))
    else if h1 : (n + 1) % 4 = 3 then
      (outAfterLast c (grid0.coords ⟨n + 1, hn⟩) (stg0_0 ⟨n + 1, hn⟩) (stgW0_0 ⟨n + 1, hn⟩) (stg0_1 ⟨n + 1, hn⟩) (stgW0_1 ⟨n + 1, hn⟩) acc0 (Memref.isWhole_whole _) (fun h => h0 ((first0_iff ⟨n + 1, hn⟩).mp h)) ((last0_iff ⟨n + 1, hn⟩).mpr h1) (blk0 V c 0 ⟨n + 1, hn⟩) (outsAt0 c n (Nat.lt_of_succ_lt hn)).2,
       accAfterLast c (grid0.coords ⟨n + 1, hn⟩) (stg0_0 ⟨n + 1, hn⟩) (stgW0_0 ⟨n + 1, hn⟩) (stg0_1 ⟨n + 1, hn⟩) (stgW0_1 ⟨n + 1, hn⟩) acc0 (Memref.isWhole_whole _) (fun h => h0 ((first0_iff ⟨n + 1, hn⟩).mp h)) ((last0_iff ⟨n + 1, hn⟩).mpr h1) (blk0 V c 0 ⟨n + 1, hn⟩) (outsAt0 c n (Nat.lt_of_succ_lt hn)).2)
    else
      (idleOut0, accAfterMid c (grid0.coords ⟨n + 1, hn⟩) (stg0_0 ⟨n + 1, hn⟩) (stgW0_0 ⟨n + 1, hn⟩) (stg0_1 ⟨n + 1, hn⟩) (stgW0_1 ⟨n + 1, hn⟩) acc0 (Memref.isWhole_whole _) (fun h => h0 ((first0_iff ⟨n + 1, hn⟩).mp h)) (fun h => h1 ((last0_iff ⟨n + 1, hn⟩).mp h)) (blk0 V c 0 ⟨n + 1, hn⟩) (outsAt0 c n (Nat.lt_of_succ_lt hn)).2)

theorem outsAt0_first (c : Dev nD) (t : Fin cfg0.N) (h0 : t.val % 4 = 0) (h1 : ¬t.val % 4 = 3) :
    outsAt0 V c t.val t.isLt = (idleOut0, accAfterFirst c (grid0.coords t) (stg0_0 t) (stgW0_0 t) (stg0_1 t) (stgW0_1 t) acc0 (Memref.isWhole_whole _) ((first0_iff t).mpr h0) (fun h => h1 ((last0_iff t).mp h)) (blk0 V c 0 t)) := by
  obtain ⟨n, hn⟩ := t
  cases n with
  | zero => exact rfl
  | succ n => exact (dif_pos h0).trans rfl

theorem outsAt0_mid (c : Dev nD) (t : Fin cfg0.N) (h0 : ¬t.val % 4 = 0) (h1 : ¬t.val % 4 = 3) :
    outsAt0 V c t.val t.isLt = (idleOut0, accAfterMid c (grid0.coords t) (stg0_0 t) (stgW0_0 t) (stg0_1 t) (stgW0_1 t) acc0 (Memref.isWhole_whole _) (fun h => h0 ((first0_iff t).mp h)) (fun h => h1 ((last0_iff t).mp h)) (blk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_last (c : Dev nD) (t : Fin cfg0.N) (h0 : ¬t.val % 4 = 0) (h1 : t.val % 4 = 3) :
    outsAt0 V c t.val t.isLt = (outAfterLast c (grid0.coords t) (stg0_0 t) (stgW0_0 t) (stg0_1 t) (stgW0_1 t) acc0 (Memref.isWhole_whole _) (fun h => h0 ((first0_iff t).mp h)) ((last0_iff t).mpr h1) (blk0 V c 0 t) (outsAt0 V c (t.val - 1) (Nat.lt_of_le_of_lt (Nat.sub_le _ _) t.isLt)).2,
      accAfterLast c (grid0.coords t) (stg0_0 t) (stgW0_0 t) (stg0_1 t) (stgW0_1 t) acc0 (Memref.isWhole_whole _) (fun h => h0 ((first0_iff t).mp h)) ((last0_iff t).mpr h1) (blk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position `n`: at the start the region's class invariant (the accumulator at anything); afterwards the
    accumulator at what the point before left in it, the bystanders, and the generator register at some state. -/
def inv0 (c : Dev nD) : (n : ℕ) → n ≤ cfg0.N → sProp 𝕄
  | 0, _ => Pipeline.ΦA spec0 c
  | n + 1, hn => iprop(iprop(owns (c : Thread nD τ) acc0 fullShare ((outsAt0 V c n hn).2) ∗ bystanders0 c) ∗ (∃ r, prngReg c r))

theorem inv0_zero (c : Dev nD) (n : ℕ) (h : n ≤ cfg0.N) (hz : n = 0) : inv0 V c n h = Pipeline.ΦA spec0 c := by
  subst hz; rfl
theorem inv0_succ (c : Dev nD) (n : ℕ) (hn : n < cfg0.N) :
    inv0 V c (n + 1) hn = iprop(iprop(owns (c : Thread nD τ) acc0 fullShare ((outsAt0 V c n hn).2) ∗ bystanders0 c) ∗ (∃ r, prngReg c r)) := rfl
theorem inv0_pos (c : Dev nD) (n : ℕ) (h : n ≤ cfg0.N) (hz : n ≠ 0) :
    inv0 V c n h = iprop(iprop(owns (c : Thread nD τ) acc0 fullShare ((outsAt0 V c (n - 1) (by omega)).2) ∗ bystanders0 c) ∗ (∃ r, prngReg c r)) := by
  cases n with
  | zero => exact absurd rfl hz
  | succ n => rfl

/-! ## The proof data -/

/-- The region's proof data on core `c`: the arrays as the region finds them; after the body at point `t` the adjacency
    buffer at its block and the output buffer at `outsAt0`'s first component; the invariant `inv0`; nothing owed. -/
def dat0 (c : Dev nD) : Dat τ (Elt F) Unit ℕ (Pipeline.UD sig nD τ) ℕ cfg0 c where
  A w := V c (Pipeline.arrRef spec0 w)
  after w t := match w with
    | ⟨0, _⟩ => blk0 V c 0 t
    | ⟨1, _⟩ => (outsAt0 V c t.val t.isLt).1
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem inv0_castSucc (c : Dev nD) (t : Fin cfg0.N) :
    (dat0 V c).Φ t.castSucc = inv0 V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = (outsAt0 V c t.val t.isLt).1 := by dsimp only [dat0]
theorem held0 (c : Dev nD) (t : Fin cfg0.N) (d) : (dat0 V c).before 0 t d = blk0 V c 0 t :=
  held0_of V (dat0 V c) (A_eq0 V c 0) (after0_0 V c) t d

/-! ## The obligation on the body -/

def bodyPre0 (c : Dev nD) (t : Fin cfg0.N) : sProp 𝕄 :=
  iprop((dat0 V c).Φ t.castSucc ∗ (dat0 V c).owesAt () t.castSucc
    ∗ (∃ d, owns (c : Thread nD τ) (stg0_0 t) fullShare ((dat0 V c).before 0 t d))
    ∗ (∃ d, owns (c : Thread nD τ) (stg0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The adjacency buffer holds the point's block; the column block decides the case; the
    invariant hands the body the accumulator (at anything before the first point, at what the point before left
    afterwards) and takes it back at this point's contents, which the case's pieces cover; the bystanders and the
    register pass through; the core owes nothing. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0]
  rw [show (dat0 V c).owesAt () t.succ = (dat0 V c).owesAt () t.castSucc from rfl]
  rw [show (dat0 V c).Φ t.succ = inv0 V c (t.val + 1) t.isLt from rfl, inv0_succ]
  have hN : t.val < 32 := lt_of_lt_of_eq t.isLt (show cfg0.N = 32 from N_0)
  rw [show (dat0 V c).leavesExact 0 t = owns (c : Thread nD τ) (stg0_0 t) fullShare ((dat0 V c).after 0 t) from by
    unfold Dat.leavesExact; rw [live0_0 t], after0_0]
  by_cases h0 : t.val % 4 = 0
  · have h1 : ¬t.val % 4 = 3 := by omega
    rw [Dat.leavesExact_idle (dat0 V c) 1 t (idle0_1 t (fun h => h1 ((last0_iff t).mp h))) (noFlush0_1 t (fun h => h1 ((last0_iff t).mp h)))]
    rw [outsAt0_first V c t h0 h1]
    unfold accAfterFirst; (try dsimp only)
    by_cases hz : t.val = 0
    · rw [inv0_castSucc V c t, inv0_zero V c _ _ hz, classInv0_eq]
      iintro ⟨⟨⟨HS0, Hby⟩, Hg⟩, Ho, ⟨%d0, H0⟩, ⟨%d1, H1⟩⟩
      iapply ((bodyFirst0 c (grid0.coords t) _ _ _ _ _ _ ((first0_iff t).mpr h0) (fun h => h1 ((last0_iff t).mp h)) (blk0 V c 0 t)).2.2 _ Set.univ _)
      isplitl [H0]; · iexact H0
      isplitl [H1]; · iexact H1
      isplitl [HS0]; · iexact HS0
      iintro ⟨H0, H1, ⟨%es0, HS0⟩⟩
      isplitl [HS0 Hby Hg]
      · isplitl [HS0 Hby]
        · isplitl [HS0]
          · unfold owns; iexists _; isplitr
            swap; · iexact HS0
            ipureintro; exact View.read_writes_of_cover _ _ _ _ _ (accCover_first c _ _ _ _ _ _ _ _ _ _)
          iexact Hby
        iexact Hg
      isplitl [Ho]; · iexact Ho
      isplitl [H0]; · iexact H0
      iexists _; iexact H1
    · rw [inv0_castSucc V c t, inv0_pos V c _ _ hz]
      iintro ⟨⟨⟨HS0, Hby⟩, Hg⟩, Ho, ⟨%d0, H0⟩, ⟨%d1, H1⟩⟩
      iapply ((bodyFirst0 c (grid0.coords t) _ _ _ _ _ _ ((first0_iff t).mpr h0) (fun h => h1 ((last0_iff t).mp h)) (blk0 V c 0 t)).2.2 _ Set.univ _)
      isplitl [H0]; · iexact H0
      isplitl [H1]; · iexact H1
      isplitl [HS0]; · iexists _; iexact HS0
      iintro ⟨H0, H1, ⟨%es0, HS0⟩⟩
      isplitl [HS0 Hby Hg]
      · isplitl [HS0 Hby]
        · isplitl [HS0]
          · unfold owns; iexists _; isplitr
            swap; · iexact HS0
            ipureintro; exact View.read_writes_of_cover _ _ _ _ _ (accCover_first c _ _ _ _ _ _ _ _ _ _)
          iexact Hby
        iexact Hg
      isplitl [Ho]; · iexact Ho
      isplitl [H0]; · iexact H0
      iexists _; iexact H1
  · have hz : t.val ≠ 0 := fun h => h0 (by rw [h])
    by_cases h1 : t.val % 4 = 3
    · rw [show (dat0 V c).leavesExact 1 t = owns (c : Thread nD τ) (stg0_1 t) fullShare ((dat0 V c).after 1 t) from by
        unfold Dat.leavesExact; rw [live0_1 t ((last0_iff t).mpr h1)], after0_1]
      rw [outsAt0_last V c t h0 h1]
      unfold outAfterLast accAfterLast; (try dsimp only)
      rw [inv0_castSucc V c t, inv0_pos V c _ _ hz]
      iintro ⟨⟨⟨HS0, Hby⟩, Hg⟩, Ho, ⟨%d0, H0⟩, ⟨%d1, H1⟩⟩
      iapply ((bodyLast0 c (grid0.coords t) _ _ _ _ _ _ (fun h => h0 ((first0_iff t).mp h)) ((last0_iff t).mpr h1) (blk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hby Hg]
      · isplitl [HS0 Hby]
        · isplitl [HS0]
          · unfold owns; iexists _; isplitr
            swap; · iexact HS0
            ipureintro; exact View.read_writes_of_cover _ _ _ _ _ (accCover_last c _ _ _ _ _ _ _ _ _ _ _)
          iexact Hby
        iexact Hg
      isplitl [Ho]; · iexact Ho
      isplitl [H0]; · iexact H0
      unfold owns; iexists _; isplitr
      swap; · iexact H1
      ipureintro; exact View.read_writes_of_cover _ _ _ _ _ (outCover_last c _ _ _ _ _ _ _ _ _ _ _)
    · rw [Dat.leavesExact_idle (dat0 V c) 1 t (idle0_1 t (fun h => h1 ((last0_iff t).mp h))) (noFlush0_1 t (fun h => h1 ((last0_iff t).mp h)))]
      rw [outsAt0_mid V c t h0 h1]
      unfold accAfterMid; (try dsimp only)
      rw [inv0_castSucc V c t, inv0_pos V c _ _ hz]
      iintro ⟨⟨⟨HS0, Hby⟩, Hg⟩, Ho, ⟨%d0, H0⟩, ⟨%d1, H1⟩⟩
      iapply ((bodyMid0 c (grid0.coords t) _ _ _ _ _ _ (fun h => h0 ((first0_iff t).mp h)) (fun h => h1 ((last0_iff t).mp h)) (blk0 V c 0 t) _).2.2 _ Set.univ _)
      isplitl [H0]; · iexact H0
      isplitl [H1]; · iexact H1
      isplitl [HS0]; · iexact HS0
      iintro ⟨H0, H1, ⟨%es0, HS0⟩⟩
      isplitl [HS0 Hby Hg]
      · isplitl [HS0 Hby]
        · isplitl [HS0]
          · unfold owns; iexists _; isplitr
            swap; · iexact HS0
            ipureintro; exact View.read_writes_of_cover _ _ _ _ _ (accCover_mid c _ _ _ _ _ _ _ _ _ _ _)
          iexact Hby
        iexact Hg
      isplitl [Ho]; · iexact Ho
      isplitl [H0]; · iexact H0
      iexists _; iexact H1

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 32 := N_0; omega), classInv0_eq]
  iintro ⟨⟨HS0, Hby⟩, Hg⟩
  isplitl [HS0 Hby]
  · isplitl [HS0]; · iexists _; iexact HS0
    iexact Hby
  iexact Hg

end Cert.KernelIdeal.Hand

end
-- ==== Proof.KI.R1Kit.lean ====
import proofs.«119681_j32641751449979_2_alg».proof.Proof.Gen.KernelIdeal.Launch
import proofs.«119681_j32641751449979_2_alg».proof.Proof.Gen.KernelIdeal.Skeleton
import proofs.«119681_j32641751449979_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ
/-! # The second pallas_call (the aggregate-and-project kernel), at the buffer contents V it is entered with

Everything the three control cases of its body and the assembly over the grid share: the blocks its windows show,
the two branch conditions as functions of the linear point, where its output window is live, the memrefs the body is
called on, and the shape of the invariant carrying the accumulator between points. -/

variable (V : (c : Dev nD) → (b : Ref sig .tc) → Buf (Elt F) ((c : Thread nD τ).loc b))

/-- The block window w shows at point t, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input's staging buffer holds its block at every point

Each of the six inputs is uncut and never idle, so for any proof data over the entry contents whose body hands the
block back in place, the buffer the body is given holds the block whether or not the point fetched it: a point that
does not fetch has the block index of the point before. -/

theorem found1_0 {c : Dev nD} (dat : Dat τ (Elt F) Unit ℕ (Pipeline.UD sig nD τ) ℕ cfg1 c)
    (hA : dat.A 0 = V c (Pipeline.arrRef spec1 0)) (hafter : ∀ t, dat.after 0 t = iblk1 V c 0 t)
    (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  refine (dat.before_in_eq_fetched 0 rfl (fun _ => rfl) (fun _ _ _ => rfl) hkeep t d).trans ?_
  unfold Dat.fetched Dat.blockOf iblk1; rw [hA]; try rfl

theorem found1_1 {c : Dev nD} (dat : Dat τ (Elt F) Unit ℕ (Pipeline.UD sig nD τ) ℕ cfg1 c)
    (hA : dat.A 1 = V c (Pipeline.arrRef spec1 1)) (hafter : ∀ t, dat.after 1 t = iblk1 V c 1 t)
    (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  refine (dat.before_in_eq_fetched 1 rfl (fun _ => rfl) (fun _ _ _ => rfl) hkeep t d).trans ?_
  unfold Dat.fetched Dat.blockOf iblk1; rw [hA]; try rfl

theorem found1_2 {c : Dev nD} (dat : Dat τ (Elt F) Unit ℕ (Pipeline.UD sig nD τ) ℕ cfg1 c)
    (hA : dat.A 2 = V c (Pipeline.arrRef spec1 2)) (hafter : ∀ t, dat.after 2 t = iblk1 V c 2 t)
    (t : Fin cfg1.N) (d) : dat.before 2 t d = iblk1 V c 2 t := by
  have hkeep : ∀ t, (cfg1.win 2).cut (cfg1.grid.coords t) (dat.after 2 t) = dat.blockOf 2 t := fun t => by
    rw [hafter]; unfold Dat.blockOf iblk1; rw [hA]; try rfl
  refine (dat.before_in_eq_fetched 2 rfl (fun _ => rfl) (fun _ _ _ => rfl) hkeep t d).trans ?_
  unfold Dat.fetched Dat.blockOf iblk1; rw [hA]; try rfl

theorem found1_3 {c : Dev nD} (dat : Dat τ (Elt F) Unit ℕ (Pipeline.UD sig nD τ) ℕ cfg1 c)
    (hA : dat.A 3 = V c (Pipeline.arrRef spec1 3)) (hafter : ∀ t, dat.after 3 t = iblk1 V c 3 t)
    (t : Fin cfg1.N) (d) : dat.before 3 t d = iblk1 V c 3 t := by
  have hkeep : ∀ t, (cfg1.win 3).cut (cfg1.grid.coords t) (dat.after 3 t) = dat.blockOf 3 t := fun t => by
    rw [hafter]; unfold Dat.blockOf iblk1; rw [hA]; try rfl
  refine (dat.before_in_eq_fetched 3 rfl (fun _ => rfl) (fun _ _ _ => rfl) hkeep t d).trans ?_
  unfold Dat.fetched Dat.blockOf iblk1; rw [hA]; try rfl

theorem found1_4 {c : Dev nD} (dat : Dat τ (Elt F) Unit ℕ (Pipeline.UD sig nD τ) ℕ cfg1 c)
    (hA : dat.A 4 = V c (Pipeline.arrRef spec1 4)) (hafter : ∀ t, dat.after 4 t = iblk1 V c 4 t)
    (t : Fin cfg1.N) (d) : dat.before 4 t d = iblk1 V c 4 t := by
  have hkeep : ∀ t, (cfg1.win 4).cut (cfg1.grid.coords t) (dat.after 4 t) = dat.blockOf 4 t := fun t => by
    rw [hafter]; unfold Dat.blockOf iblk1; rw [hA]; try rfl
  refine (dat.before_in_eq_fetched 4 rfl (fun _ => rfl) (fun _ _ _ => rfl) hkeep t d).trans ?_
  unfold Dat.fetched Dat.blockOf iblk1; rw [hA]; try rfl

theorem found1_5 {c : Dev nD} (dat : Dat τ (Elt F) Unit ℕ (Pipeline.UD sig nD τ) ℕ cfg1 c)
    (hA : dat.A 5 = V c (Pipeline.arrRef spec1 5)) (hafter : ∀ t, dat.after 5 t = iblk1 V c 5 t)
    (t : Fin cfg1.N) (d) : dat.before 5 t d = iblk1 V c 5 t := by
  have hkeep : ∀ t, (cfg1.win 5).cut (cfg1.grid.coords t) (dat.after 5 t) = dat.blockOf 5 t := fun t => by
    rw [hafter]; unfold Dat.blockOf iblk1; rw [hA]; try rfl
  refine (dat.before_in_eq_fetched 5 rfl (fun _ => rfl) (fun _ _ _ => rfl) hkeep t d).trans ?_
  unfold Dat.fetched Dat.blockOf iblk1; rw [hA]; try rfl

/-! ## The two branch conditions, by the linear point

The grid is 8 x 4 with the reduction step k the fast axis, so point t has k = t % 4. -/

/-- The first conditional (zero the accumulator) is taken where k = 0: the body's scalar chain, substituted. -/
abbrev cond1_0 (i : grid1.Coords) : Prop :=
  (Scalar.cmpi .ne (Scalar.extui (Scalar.cmpi .eq (BitVec.ofNat 32 (i 1).val) 0#32)) 0#32) = 1#1

theorem hcond1_0 : ∀ t : Fin cfg1.N, cond1_0 (grid1.coords t) ↔ t.val % 4 = 0 :=
  (by decide +kernel : ∀ t : Fin grid1.N, cond1_0 (grid1.coords t) ↔ t.val % 4 = 0)

/-- The last conditional (the epilogue, which stores the output block) is taken where k = 3. -/
abbrev cond1_1 (i : grid1.Coords) : Prop := k1_cond2 i = 1#1

theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are live -/

theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl
theorem live1_5 : ∀ t : Fin cfg1.N, cfg1.idle 5 (grid1.coords t) = false := fun _ => rfl

/-- Away from k = 3 the body stores nothing into the output window: the configuration calls it idle there, -/
theorem idle1_6_off : ∀ t : Fin cfg1.N, ¬cond1_1 (grid1.coords t) → cfg1.idle 6 (grid1.coords t) = true := by decide +kernel
/-- and the pipeline does not write its block back there; -/
theorem keep1_6_off : ∀ t : Fin cfg1.N, ¬cond1_1 (grid1.coords t) → (cfg1.win 6).flush t = false := by decide +kernel
/-- at k = 3 it is live. -/
theorem live1_6_on : ∀ t : Fin cfg1.N, cond1_1 (grid1.coords t) → cfg1.idle 6 (grid1.coords t) = false := by decide +kernel

/-! ## The memrefs the body is called on -/

abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)
/-- The accumulator: a whole scoped buffer of the kernel's own, passed beside the windows and carried from point to point. -/
abbrev scM1_0 : Memref sig .tc .vmem S1024x128 .f32 := Memref.whole cc1_scratch0
/-- A view each of an output staging buffer and of the accumulator, through which contents written as pieces are read
    back (which buffer of the two does not matter once the pieces cover). -/
abbrev VO1_6 : View sig .tc .vmem S1024x128 .f32 := (Memref.whole cc1_stg6_0 : Memref sig .tc .vmem S1024x128 .f32).view
abbrev VS1_0 : View sig .tc .vmem S1024x128 .f32 := scM1_0.view

/-! ## The class invariant of the region, conjunct by conjunct

The core's scoped buffers that are no staging buffer of this call are the first call's four staging buffers and its
accumulator, which this call never touches, and this call's accumulator. -/

/-- A whole buffer held at some contents. -/
abbrev anyAt (c : Dev nD) (b : Ref sig .tc) : sProp 𝕄 :=
  iprop(∃ f : Buf (Elt F) ((c : Thread nD τ).loc b), ((c : Thread nD τ).loc b) ↦{fullShare} f)

theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg1_1 ∗ anyAt c cc0_scratch0
          ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KI.R1RunA.lean ====
import proofs.«119681_j32641751449979_2_alg».proof.Proof.KI.R1Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ
/-! # The body at the first step of the reduction (k = 0)

The first conditional is taken and the last is not: the body zeroes the accumulator, then adds the product of the
adjacency block and the scaled-feature block to it. The accumulator is overwritten whole before it is read to any
effect, so it may come in at anything. It touches the two operand blocks and the accumulator only. -/

set_option maxHeartbeats 1000000 in
/-- The pieces the body's two stores leave in the accumulator at the first step, with the body's triple on whole
    memrefs: the two operand blocks at their contents and the accumulator at anything go in; the operands come back
    as they were and the accumulator with the pieces written. -/
noncomputable def firstRun (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole)
    (hc0 : cond1_0 i) (hc1 : ¬cond1_1 i)
    (x0 : Vec F S1024x2048 .bf16) (x1 : Vec F S2048x128 .bf16) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1
                ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?pieces, fun E K => ?triple⟩
  case triple =>
    simp only [cc1__gcn_kernel_eq_skeleton]; unfold cc1__gcn_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Hand

end
-- ==== Proof.KI.R1RunB.lean ====
import proofs.«119681_j32641751449979_2_alg».proof.Proof.KI.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ
/-! # The body at a middle step of the reduction (k = 1, 2)

Neither conditional is taken: the body adds the product of the adjacency block and the scaled-feature block to the
accumulator, which comes in at what the step before left. It touches those three buffers only. -/

set_option maxHeartbeats 1000000 in
/-- The pieces the body's store leaves in the accumulator at a middle step, with the body's triple on whole memrefs:
    the two operand blocks at their contents and the accumulator at the contents xs0 go in; the operands come back
    as they were and the accumulator with the pieces written. -/
noncomputable def midRun (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole)
    (hc0 : ¬cond1_0 i) (hc1 : ¬cond1_1 i)
    (x0 : Vec F S1024x2048 .bf16) (x1 : Vec F S2048x128 .bf16) (xs0 : Vec F S1024x128 .f32) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg9 fullShare xs0
            ∗ (iprop(owns (c : Thread nD τ) arg2 fullShare x0 ∗ owns (c : Thread nD τ) arg3 fullShare x1
                ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?pieces, fun E K => ?triple⟩
  case triple =>
    simp only [cc1__gcn_kernel_eq_skeleton]; unfold cc1__gcn_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Hand

end
-- ==== Proof.KI.R1RunC.lean ====
import proofs.«119681_j32641751449979_2_alg».proof.Proof.KI.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ
/-! # The body at the last step of the reduction (k = 3)

The first conditional is not taken and the last is: the body adds the last product to the accumulator, which comes
in at what the step before left, and then the epilogue reads the accumulator, the degree scale, the features, the
weights and the bias and stores the projected block into the output window's buffer, which may come in at
anything. It touches every operand. -/

set_option maxHeartbeats 1000000 in
/-- The pieces the epilogue's store leaves in the output window's buffer and those the accumulation leaves in the
    accumulator at the last step, with the body's triple on whole memrefs: the six input blocks at their contents,
    the output buffer at anything and the accumulator at the contents xs0 go in; the inputs come back as they were,
    the output buffer and the accumulator with their pieces written. -/
noncomputable def lastRun (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole)
    (hc0 : ¬cond1_0 i) (hc1 : cond1_1 i)
    (x0 : Vec F S1024x2048 .bf16) (x1 : Vec F S2048x128 .bf16) (x2 : Vec F S1024x1 .f32) (x3 : Vec F S1024x128 .f32) (x4 : Vec F S128x128 .f32) (x5 : Vec F S1x128 .f32) (xs0 : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f LO)
                ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?outPieces, ?accPieces, fun E K => ?triple⟩
  case triple =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]; · iexists _; iexact HO
    iexists _; iexact HS

end Cert.KernelIdeal.Hand

end
-- ==== Proof.KI.R1.lean ====
import proofs.«119681_j32641751449979_2_alg».proof.Proof.KI.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ
/-! # The second pallas_call over its grid, at the buffer contents V it is entered with

What the accumulator and the output window's buffer hold after every point, the proof data of the pipeline with the
accumulator carried through the invariant, and the body obligation: at each point the residue of the point modulo 4
selects the control case, whose triple applies. -/

variable (V : (c : Dev nD) → (b : Ref sig .tc) → Buf (Elt F) ((c : Thread nD τ).loc b))

/-! ## What each control case leaves

Each case's pieces are read back over junk through a fixed view; since they tile the buffer, the reading is the same
through any view and over any earlier contents. -/

/-- The accumulator after the first step. -/
def accFirst (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i) (x0 : Vec F S1024x2048 .bf16) (x1 : Vec F S2048x128 .bf16) : Vec F S1024x128 .f32 :=
  VS1_0.read (Elt F) (VS1_0.writes (Elt F) VS1_0.junk (firstRun c i arg2 harg2 arg3 harg3 arg4 harg4 arg5 harg5 arg6 harg6 arg7 harg7 arg8 harg8 arg9 harg9 hc0 hc1 x0 x1).1)

/-- Its pieces tile the accumulator. -/
theorem accFirst_cover (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i) (x0 : Vec F S1024x2048 .bf16) (x1 : Vec F S2048x128 .bf16) (y : S1024x128.Idx) :
    ∃ pc ∈ (firstRun c i arg2 harg2 arg3 harg3 arg4 harg4 arg5 harg5 arg6 harg6 arg7 harg7 arg8 harg8 arg9 harg9 hc0 hc1 x0 x1).1, y ∈ pc.1.set :=
  View.cover_of_tiledL (firstRun c i arg2 harg2 arg3 harg3 arg4 harg4 arg5 harg5 arg6 harg6 arg7 harg7 arg8 harg8 arg9 harg9 hc0 hc1 x0 x1).1 S1024x128.size (by sl_kernel_rfl) y

/-- The accumulator after a middle step that found it at xs0. -/
def accMid (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i) (x0 : Vec F S1024x2048 .bf16) (x1 : Vec F S2048x128 .bf16) (xs0 : Vec F S1024x128 .f32) : Vec F S1024x128 .f32 :=
  VS1_0.read (Elt F) (VS1_0.writes (Elt F) VS1_0.junk (midRun c i arg2 harg2 arg3 harg3 arg4 harg4 arg5 harg5 arg6 harg6 arg7 harg7 arg8 harg8 arg9 harg9 hc0 hc1 x0 x1 xs0).1)

theorem accMid_cover (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i) (x0 : Vec F S1024x2048 .bf16) (x1 : Vec F S2048x128 .bf16) (xs0 : Vec F S1024x128 .f32) (y : S1024x128.Idx) :
    ∃ pc ∈ (midRun c i arg2 harg2 arg3 harg3 arg4 harg4 arg5 harg5 arg6 harg6 arg7 harg7 arg8 harg8 arg9 harg9 hc0 hc1 x0 x1 xs0).1, y ∈ pc.1.set :=
  View.cover_of_tiledL (midRun c i arg2 harg2 arg3 harg3 arg4 harg4 arg5 harg5 arg6 harg6 arg7 harg7 arg8 harg8 arg9 harg9 hc0 hc1 x0 x1 xs0).1 S1024x128.size (by sl_kernel_rfl) y

/-- The output window's buffer after the last step that found the accumulator at xs0. -/
def outLast (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i) (x0 : Vec F S1024x2048 .bf16) (x1 : Vec F S2048x128 .bf16) (x2 : Vec F S1024x1 .f32) (x3 : Vec F S1024x128 .f32) (x4 : Vec F S128x128 .f32) (x5 : Vec F S1x128 .f32) (xs0 : Vec F S1024x128 .f32) : Vec F S1024x128 .f32 :=
  VO1_6.read (Elt F) (VO1_6.writes (Elt F) VO1_6.junk (lastRun c i arg2 harg2 arg3 harg3 arg4 harg4 arg5 harg5 arg6 harg6 arg7 harg7 arg8 harg8 arg9 harg9 hc0 hc1 x0 x1 x2 x3 x4 x5 xs0).1)

theorem outLast_cover (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i) (x0 : Vec F S1024x2048 .bf16) (x1 : Vec F S2048x128 .bf16) (x2 : Vec F S1024x1 .f32) (x3 : Vec F S1024x128 .f32) (x4 : Vec F S128x128 .f32) (x5 : Vec F S1x128 .f32) (xs0 : Vec F S1024x128 .f32) (y : S1024x128.Idx) :
    ∃ pc ∈ (lastRun c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (lastRun c i arg2 harg2 arg3 harg3 arg4 harg4 arg5 harg5 arg6 harg6 arg7 harg7 arg8 harg8 arg9 harg9 hc0 hc1 x0 x1 x2 x3 x4 x5 xs0).1 S1024x128.size (by sl_kernel_rfl) y

/-- The accumulator after the last step. -/
def accLast (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i) (x0 : Vec F S1024x2048 .bf16) (x1 : Vec F S2048x128 .bf16) (x2 : Vec F S1024x1 .f32) (x3 : Vec F S1024x128 .f32) (x4 : Vec F S128x128 .f32) (x5 : Vec F S1x128 .f32) (xs0 : Vec F S1024x128 .f32) : Vec F S1024x128 .f32 :=
  VS1_0.read (Elt F) (VS1_0.writes (Elt F) VS1_0.junk (lastRun c i arg2 harg2 arg3 harg3 arg4 harg4 arg5 harg5 arg6 harg6 arg7 harg7 arg8 harg8 arg9 harg9 hc0 hc1 x0 x1 x2 x3 x4 x5 xs0).2.1)

theorem accLast_cover (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i) (x0 : Vec F S1024x2048 .bf16) (x1 : Vec F S2048x128 .bf16) (x2 : Vec F S1024x1 .f32) (x3 : Vec F S1024x128 .f32) (x4 : Vec F S128x128 .f32) (x5 : Vec F S1x128 .f32) (xs0 : Vec F S1024x128 .f32) (y : S1024x128.Idx) :
    ∃ pc ∈ (lastRun c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (lastRun c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What stands for the output window's buffer at a point that stores nothing into it: the window is idle there and
    its block is not written back, so nothing reads this value. -/
def restOut : Vec F S1024x128 .f32 := VO1_6.read (Elt F) VO1_6.junk

/-! ## Point by point -/

theorem not_last_of_first {n : ℕ} (h : n % 4 = 0) : ¬n % 4 = 3 := by omega

/-- What the output window's buffer and the accumulator hold after the body at point n. The residue of n modulo 4
    selects the case; a middle or last step starts from the accumulator the point before left, the first step from
    nothing. -/
def outsAt1 (c : Dev nD) : (n : ℕ) → n < cfg1.N → Vec F S1024x128 .f32 × Vec F S1024x128 .f32
  | 0, hn =>
    (restOut, accFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod 4))
      (fun h => not_last_of_first (Nat.zero_mod 4) ((hcond1_1 ⟨0, hn⟩).mp h)) (iblk1 V c 0 ⟨0, hn⟩) (iblk1 V c 1 ⟨0, hn⟩))
  | n + 1, hn =>
    if h0 : (n + 1) % 4 = 0 then
      (restOut, accFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0)
        (fun h => not_last_of_first h0 ((hcond1_1 ⟨n + 1, hn⟩).mp h)) (iblk1 V c 0 ⟨n + 1, hn⟩) (iblk1 V c 1 ⟨n + 1, hn⟩))
    else if h1 : (n + 1) % 4 = 3 then
      (outLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1)
          (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2,
        accLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1)
          (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
    else
      (restOut, accMid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h))
        (iblk1 V c 0 ⟨n + 1, hn⟩) (iblk1 V c 1 ⟨n + 1, hn⟩) (outsAt1 c n (Nat.lt_of_succ_lt hn)).2)

/-- At a first step. -/
theorem outsAt1_A (c : Dev nD) (t : Fin cfg1.N) (h0 : t.val % 4 = 0) (h1 : ¬t.val % 4 = 3) :
    outsAt1 V c t.val t.isLt = (restOut, accFirst c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t)) := by
  obtain ⟨n, hn⟩ := t
  cases n with
  | zero => rfl
  | succ n => exact (dif_pos h0).trans rfl

/-- At a middle step: over what the point before left. -/
theorem outsAt1_B (c : Dev nD) (t : Fin cfg1.N) (h0 : ¬t.val % 4 = 0) (h1 : ¬t.val % 4 = 3) :
    outsAt1 V c t.val t.isLt = (restOut, accMid c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod 4) h0
  | succ n => exact (dif_neg h0).trans ((dif_neg h1).trans rfl)

/-- At a last step: over what the point before left. -/
theorem outsAt1_C (c : Dev nD) (t : Fin cfg1.N) (h0 : ¬t.val % 4 = 0) (h1 : t.val % 4 = 3) :
    outsAt1 V c t.val t.isLt = (outLast c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2,
      accLast c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact absurd (Nat.zero_mod 4) h0
  | succ n => exact (dif_neg h0).trans ((dif_pos h1).trans rfl)

/-! ## The invariant: the accumulator carried between points

Before the first point it is the class's own (every scoped buffer that is no staging buffer at anything, the
generator register at some state); from then on it names what the accumulator holds. -/

def PhiS1 (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg1_1 ∗ anyAt c cc0_scratch0
      ∗ owns (c : Thread nD τ) scM1_0 fullShare (outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(anyAt c cc0_stg0_0 ∗ anyAt c cc0_stg0_1 ∗ anyAt c cc0_stg1_0 ∗ anyAt c cc0_stg1_1 ∗ anyAt c cc0_scratch0
      ∗ owns (c : Thread nD τ) scM1_0 fullShare (outsAt1 V c n hn).2) ∗ (∃ r, prngReg c r)) := rfl

theorem PhiS1_pos (c : Dev nD) (n : ℕ) (h : n ≤ cfg1.N) (hz : n ≠ 0) :
    PhiS1 V c n h = iprop(iprop(anyAt c cc0_stg0_0 ∗ anyAt c cc0_stg0_1 ∗ anyAt c cc0_stg1_0 ∗ anyAt c cc0_stg1_1 ∗ anyAt c cc0_scratch0
      ∗ owns (c : Thread nD τ) scM1_0 fullShare (outsAt1 V c (n - 1) (by omega)).2) ∗ (∃ r, prngReg c r)) := by
  cases n with
  | zero => exact absurd rfl hz
  | succ n => rfl

/-! ## The proof data -/

/-- The pipeline's proof data on core c: the arrays as the region finds them; after the body each input's buffer at
    its block and the output's at what the point leaves; the invariant above; full shares; nothing owed. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  found1_0 V (dat1 V c) (A_eq1 V c 0) (after1_0 V c) t d
theorem before1_1 (c : Dev nD) (t : Fin cfg1.N) (d) : (dat1 V c).before 1 t d = iblk1 V c 1 t :=
  found1_1 V (dat1 V c) (A_eq1 V c 1) (after1_1 V c) t d
theorem before1_2 (c : Dev nD) (t : Fin cfg1.N) (d) : (dat1 V c).before 2 t d = iblk1 V c 2 t :=
  found1_2 V (dat1 V c) (A_eq1 V c 2) (after1_2 V c) t d
theorem before1_3 (c : Dev nD) (t : Fin cfg1.N) (d) : (dat1 V c).before 3 t d = iblk1 V c 3 t :=
  found1_3 V (dat1 V c) (A_eq1 V c 3) (after1_3 V c) t d
theorem before1_4 (c : Dev nD) (t : Fin cfg1.N) (d) : (dat1 V c).before 4 t d = iblk1 V c 4 t :=
  found1_4 V (dat1 V c) (A_eq1 V c 4) (after1_4 V c) t d
theorem before1_5 (c : Dev nD) (t : Fin cfg1.N) (d) : (dat1 V c).before 5 t d = iblk1 V c 5 t :=
  found1_5 V (dat1 V c) (A_eq1 V c 5) (after1_5 V c) t d

/-- An input's buffer is handed back at what the body leaves: its block. -/
theorem leaves1_0 (c : Dev nD) (t : Fin cfg1.N) :
    (dat1 V c).leavesExact 0 t = owns (c : Thread nD τ) (ms1_0 t) fullShare (iblk1 V c 0 t) := by
  unfold Dat.leavesExact; rw [live1_0 t, after1_0]
theorem leaves1_1 (c : Dev nD) (t : Fin cfg1.N) :
    (dat1 V c).leavesExact 1 t = owns (c : Thread nD τ) (ms1_1 t) fullShare (iblk1 V c 1 t) := by
  unfold Dat.leavesExact; rw [live1_1 t, after1_1]
theorem leaves1_2 (c : Dev nD) (t : Fin cfg1.N) :
    (dat1 V c).leavesExact 2 t = owns (c : Thread nD τ) (ms1_2 t) fullShare (iblk1 V c 2 t) := by
  unfold Dat.leavesExact; rw [live1_2 t, after1_2]
theorem leaves1_3 (c : Dev nD) (t : Fin cfg1.N) :
    (dat1 V c).leavesExact 3 t = owns (c : Thread nD τ) (ms1_3 t) fullShare (iblk1 V c 3 t) := by
  unfold Dat.leavesExact; rw [live1_3 t, after1_3]
theorem leaves1_4 (c : Dev nD) (t : Fin cfg1.N) :
    (dat1 V c).leavesExact 4 t = owns (c : Thread nD τ) (ms1_4 t) fullShare (iblk1 V c 4 t) := by
  unfold Dat.leavesExact; rw [live1_4 t, after1_4]
theorem leaves1_5 (c : Dev nD) (t : Fin cfg1.N) :
    (dat1 V c).leavesExact 5 t = owns (c : Thread nD τ) (ms1_5 t) fullShare (iblk1 V c 5 t) := by
  unfold Dat.leavesExact; rw [live1_5 t, after1_5]

/-! ## The body obligation -/

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' buffers hold their blocks; the residue of the point modulo 4 says which
    control case it is in, and that case's triple applies. The invariant hands the body the accumulator — at the first
    point of all at anything, afterwards at what the point before left — and takes it back at this point's contents;
    the first call's buffers, the generator register and the core's debts pass through untouched; away from the
    last step the output window's buffer is handed back as it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5]
  by_cases h0 : t.val % 4 = 0
  · have h1 : ¬t.val % 4 = 3 := not_last_of_first h0
    rw [Dat.leavesExact_idle (dat1 V c) 6 t (idle1_6_off t (fun h => h1 ((hcond1_1 t).mp h))) (keep1_6_off t (fun h => h1 ((hcond1_1 t).mp h)))]
    rw [outsAt1_A V c t h0 h1]
    unfold accFirst; (try dsimp only)
    by_cases hz : t.val = 0
    · rw [PhiS1_castSucc V c t, PhiS1_zero V c _ _ hz, PhiA1_eq]
      iintro ⟨⟨⟨HR0, HR1, HR2, HR3, HR4, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((firstRun c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t)).2 Set.univ _)
      isplitl [H0]; · iexact H0
      isplitl [H1]; · iexact H1
      isplitl [HS]; · iexact HS
      iintro ⟨H0, H1, ⟨%es, HS⟩⟩
      isplitl [HR0 HR1 HR2 HR3 HR4 HS Hg]
      · isplitl [HR0 HR1 HR2 HR3 HR4 HS]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS
          ipureintro; exact View.read_writes_of_cover _ _ _ _ _ (accFirst_cover c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨⟨HR0, HR1, HR2, HR3, HR4, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((firstRun c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t)).2 Set.univ _)
      isplitl [H0]; · iexact H0
      isplitl [H1]; · iexact H1
      isplitl [HS]; · iexists _; iexact HS
      iintro ⟨H0, H1, ⟨%es, HS⟩⟩
      isplitl [HR0 HR1 HR2 HR3 HR4 HS Hg]
      · isplitl [HR0 HR1 HR2 HR3 HR4 HS]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS
          ipureintro; exact View.read_writes_of_cover _ _ _ _ _ (accFirst_cover c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · by_cases h1 : t.val % 4 = 3
    · have hz : t.val ≠ 0 := fun e => h0 (by omega)
      rw [show (dat1 V c).leavesExact 6 t = owns (c : Thread nD τ) (ms1_6 t) fullShare ((dat1 V c).after 6 t) from by
        unfold Dat.leavesExact; rw [live1_6_on t ((hcond1_1 t).mpr h1)], after1_6]
      rw [outsAt1_C V c t h0 h1]
      unfold outLast accLast; (try dsimp only)
      rw [PhiS1_castSucc V c t, PhiS1_pos V c _ _ hz]
      iintro ⟨⟨⟨HR0, HR1, HR2, HR3, HR4, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((lastRun c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%eo, H6⟩, ⟨%es, HS⟩⟩
      isplitl [HR0 HR1 HR2 HR3 HR4 HS Hg]
      · isplitl [HR0 HR1 HR2 HR3 HR4 HS]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS
          ipureintro; exact View.read_writes_of_cover _ _ _ _ _ (accLast_cover c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (outLast_cover c _ _ _ _ _ _ _ _ _ _ _ _ _ _ _ _ _ _ _ _ _ _ _ _ _ _)
    · have hz : t.val ≠ 0 := fun e => h0 (by omega)
      rw [Dat.leavesExact_idle (dat1 V c) 6 t (idle1_6_off t (fun h => h1 ((hcond1_1 t).mp h))) (keep1_6_off t (fun h => h1 ((hcond1_1 t).mp h)))]
      rw [outsAt1_B V c t h0 h1]
      unfold accMid; (try dsimp only)
      rw [PhiS1_castSucc V c t, PhiS1_pos V c _ _ hz]
      iintro ⟨⟨⟨HR0, HR1, HR2, HR3, HR4, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((midRun c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2).2 Set.univ _)
      isplitl [H0]; · iexact H0
      isplitl [H1]; · iexact H1
      isplitl [HS]; · iexact HS
      iintro ⟨H0, H1, ⟨%es, HS⟩⟩
      isplitl [HR0 HR1 HR2 HR3 HR4 HS Hg]
      · isplitl [HR0 HR1 HR2 HR3 HR4 HS]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS
          ipureintro; exact View.read_writes_of_cover _ _ _ _ _ (accMid_cover c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the region -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's own back: what the accumulator holds is forgotten. -/
theorem PhiS1_forget (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HS⟩, Hg⟩
  isplitl [HR0 HR1 HR2 HR3 HR4 HS]
  · isplitl [HR0]; · iexact HR0
    isplitl [HR1]; · iexact HR1
    isplitl [HR2]; · iexact HR2
    isplitl [HR3]; · iexact HR3
    isplitl [HR4]; · iexact HR4
    iexists _; iexact HS
  iexact Hg

/-- In particular after the last point. -/
theorem hout1 (c : Dev nD) : (dat1 V c).Φ (Fin.last cfg1.N) ⊢ Pipeline.ΦA spec1 c :=
  PhiS1_forget V c _ (by rw [Fin.val_last]; have : cfg1.N = 32 := N_1; omega)

end Cert.KernelIdeal.Hand

end
-- ==== Proof.KI.Main.lean ====
/-
  The whole program as six segments: the host stretch that builds the adjacency, the degree pass, three host stretches
  (degree plus one, its inverse square root where positive, the pre-scaled features, the transposed weight and the bias
  row), and the aggregation pass.

  Between two segments every unscoped buffer is held whole at contents named here (`W0` … `W6`): the launch memory, then
  what each host stretch computes from the contents before it, and after a kernel region the region's arrays at what
  its write-backs leave (inputs as entered, the output at the fold of the blocks written back) with every other buffer
  as entered. The run reads every unscoped buffer at `W6` off the final state; the arguments walk back through the fold
  to the launch memory (no host operation writes one, no region changes one), and the result buffer is the aggregation
  pass's output array.
-/
import proofs.«119681_j32641751449979_2_alg».proof.Proof.KI.R0
import proofs.«119681_j32641751449979_2_alg».proof.Proof.KI.R1
import proofs.«119681_j32641751449979_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents at each boundary -/

/-- At launch. -/
abbrev W0 (c : Dev nD) : Valuation τ sig (Elt F) := fun b => m (c, b)
/-- After the stretch that builds the adjacency (the degree pass's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the degree pass: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the three host stretches between the passes (the aggregation pass's entry is `W5`). -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev V5 : (c : Dev nD) → (b : Ref sig .tc) → Buf (Elt F) ((c : Thread nD τ).loc b) := fun c b => W5 m c b
/-- After the aggregation pass. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-! ## The arguments end as launched -/

/-- No host stretch between the passes writes `r` when `r` is none of their results. -/
theorem W5_of (c : Dev nD) (r : Ref sig .tc) (h1 : r ∉ hostOps1_W) (h2 : r ∉ hostOps1_1_W) (h3 : r ∉ hostOps1_2_W) :
    W5 m c (Proc.devRef .tc r) = W2 m c (Proc.devRef .tc r) :=
  (StableHlo.after_of_writes_sub hostOps1_2 _ hostOps1_2_writes h3).trans <|
    (StableHlo.after_of_writes_sub hostOps1_1 _ hostOps1_1_writes h2).trans <|
      StableHlo.after_of_writes_sub hostOps1 _ hostOps1_writes h1
theorem W1_of (c : Dev nD) (r : Ref sig .tc) (h : r ∉ hostOps0_W) : W1 m c (Proc.devRef .tc r) = m ((c : Thread nD τ).loc r) :=
  StableHlo.after_of_writes_sub hostOps0 _ hostOps0_writes h

/-- The features: an input window of the aggregation pass, read back as entered; written by nothing before. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := (W6_arr m c 3).trans (((dat1 (V5 m) c).arrAt_in 3 rfl _).trans (A_eq1 (V5 m) c 3))
    _ = W2 m c (Proc.devRef .tc main_arg0) := W5_of m c main_arg0 (by decide) (by decide) (by decide)
    _ = W1 m c (Proc.devRef .tc main_arg0) := W2_of_ne m c main_arg0 (by decide)
    _ = m ((c : Thread nD τ).loc main_arg0) := W1_of m c main_arg0 (by decide)
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W2 m c (Proc.devRef .tc main_arg1) := W5_of m c main_arg1 (by decide) (by decide) (by decide)
    _ = W1 m c (Proc.devRef .tc main_arg1) := W2_of_ne m c main_arg1 (by decide)
    _ = m ((c : Thread nD τ).loc main_arg1) := W1_of m c main_arg1 (by decide)
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W2 m c (Proc.devRef .tc main_arg2) := W5_of m c main_arg2 (by decide) (by decide) (by decide)
    _ = W1 m c (Proc.devRef .tc main_arg2) := W2_of_ne m c main_arg2 (by decide)
    _ = m ((c : Thread nD τ).loc main_arg2) := W1_of m c main_arg2 (by decide)
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W2 m c (Proc.devRef .tc main_arg3) := W5_of m c main_arg3 (by decide) (by decide) (by decide)
    _ = W1 m c (Proc.devRef .tc main_arg3) := W2_of_ne m c main_arg3 (by decide)
    _ = m ((c : Thread nD τ).loc main_arg3) := W1_of m c main_arg3 (by decide)
/-- The result buffer is the aggregation pass's output array. -/
theorem W6_main_v34 (c : Dev nD) : W6 m c (Proc.devRef .tc main_v34) = (dat1 (V5 m) c).arrAt 6 cfg1.N := W6_arr m c 6

/-! ## The proof data family and the thread state -/

abbrev adm : (p : Fin 2) → (pcfgs (F := F) p).Adm := fun p => (cfgs p).toPCfg_adm
/-- Both regions' proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V5 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- The degree pass over the thread state: entered from every unscoped buffer at `W1`, left at `W2`. Its arrays are split
    out of the unscoped buffers and put back at the exit contents; the generator register goes into the invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    refine BIBase.Entails.trans ?_ (hin0 (V1 m) c)
    unfold Pipeline.ΦA
    iintro ⟨Hp, -, Hr⟩
    isplitl [Hr]; · iexact Hr
    iexact Hp
  hout c := by
    rw [Pipeline.ownSems0_none, show (pdats m 0 c).Φ (Fin.last _) = (dat0 (V1 m) c).Φ (Fin.last cfg0.N) from rfl]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation pass over the thread state: entered from every unscoped buffer at `W5`, left at `W6` beside the core
    owing nothing. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V5 m) c).Φ 0 from rfl]
    refine BIBase.Entails.trans ?_ (hin1 (V5 m) c)
    unfold Pipeline.ΦA
    iintro ⟨Hp, -, Hr⟩
    isplitl [Hr]; · iexact Hr
    iexact Hp
  hout c := by
    rw [Pipeline.ownSems0_none, show (pdats m 1 c).Φ (Fin.last _) = (dat1 (V5 m) c).Φ (Fin.last cfg1.N) from rfl]
    refine BIBase.Entails.trans (hout1 (V5 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m) ]

set_option backward.isDefEq.respectTransparency.types false in
/-- Every weakly fair execution of the program from memory `m` with zero counters terminates, nothing faulting, and
    the final memory holds every unscoped buffer at `W6`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m c b) :=
  Pipeline.θ_run_regions_kit (pcfgs (F := F)) adm (pdats m) () cellOf_inj embL defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

/-- The run with the result named: the result buffer ends at the aggregation pass's output array, the arguments as
    launched. -/
theorem run_result : θ_run defs (onTc (τ := τ) (main (F := F))) ⟨m, fun _ => 0, ρ⟩ (fun r => ∀ c : Dev nD,
      r.2.mem ((c.tc : Thread nD τ).loc main_v34) = (dat1 (V5 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v34 (by decide))).trans (W6_main_v34 m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

end Cert.KernelIdeal.Hand

end
-- ==== Proof.KI.Glue.lean ====
/-
  The host operations between the two kernel passes, each result as a function of the buffers before the stretch:
  the degree plus one, its inverse square root where it is positive (zero elsewhere), the features scaled by it row by
  row, the transposed weight and the bias as a row.
-/
import proofs.«119681_j32641751449979_2_alg».proof.Proof.Gen.KernelIdeal.Launch
import Idealize.ShloMosaic.Lib.StableHlo.Run

noncomputable section

namespace Cert.KernelIdeal.Hand

open Idealize.ShloMosaic Idealize.ShloMosaic.TcCoe Idealize.ShloMosaic.StableHlo Idealize.SL.Sem
open Cert.KernelIdeal Cert.KernelIdeal.Gen

variable {F : FTy → Type} [FloatOps F] [Cert.KernelIdeal.Facts]

/-- The column of inverse square roots of the degrees plus one, zero where the degree plus one is not positive. -/
def dinvCol (g : (⟨S8192x1, .f32⟩ : BufTy).Contents (Elt F)) : (⟨S8192x1, .f32⟩ : BufTy).Contents (Elt F) :=
  select
    (cmpf .ogt (addf g (broadcastInDim S8192x1 ![] Facts₀.bcast_S_S8192x1 (constant (F := F) S_ .f32 0x3F800000#32)))
      (broadcastInDim S8192x1 ![] Facts₀.bcast_S_S8192x1 (constant (F := F) S_ .f32 0x00000000#32)))
    (Host.divf (broadcastInDim S8192x1 ![] Facts₀.bcast_S_S8192x1 (constant (F := F) S_ .f32 0x3F800000#32))
      (Host.sqrt (addf g (broadcastInDim S8192x1 ![] Facts₀.bcast_S_S8192x1 (constant (F := F) S_ .f32 0x3F800000#32)))))
    (broadcastInDim S8192x1 ![] Facts₀.bcast_S_S8192x1 (id (constant (F := F) S_ .f32 0x00000000#32)))

/-- After the two stretches that follow the degree pass, the scale column is `dinvCol` of the degree pass's output. -/
theorem scale_eq (V : Valuation τ sig (Elt F)) :
    after hostOps1_1 (after hostOps1 V) (main_v28 : DevRef τ sig) = dinvCol (V (main_v20 : DevRef τ sig)) := by
  after_results
  try rfl

/-- The pre-scaled features: the scale column broadcast along the rows, times the features. -/
theorem scaled_eq (V : Valuation τ sig (Elt F)) :
    after hostOps1_2 V (main_v31 : DevRef τ sig)
      = truncf .bf16 (mulf (broadcastInDim S8192x128 ![0, 1] Facts₀.bcast_S8192x1_S8192x128_0_1 (V (main_v28 : DevRef τ sig))) (V (main_arg0 : DevRef τ sig))) Facts₀.bitsLt_bf16_f32 := by
  after_results
  try rfl

/-- The transposed weight. -/
theorem wt_eq (V : Valuation τ sig (Elt F)) :
    after hostOps1_2 V (main_v32 : DevRef τ sig) = transpose S128x128 [1, 0] (V (main_arg2 : DevRef τ sig)) Facts₀.transposes_S128x128_S128x128_1_0 := by
  after_results
  try rfl

/-- The bias as a row. -/
theorem brow_eq (V : Valuation τ sig (Elt F)) :
    after hostOps1_2 V (main_v33 : DevRef τ sig) = shapeCast S1x128 (V (main_arg3 : DevRef τ sig)) Facts₀.shapeCasts_S128_S1x128 := by
  after_results
  try rfl

/-- The three stretches leave the adjacency, the features and the degree column's source alone. -/
theorem keep_v19 (V : Valuation τ sig (Elt F)) :
    after hostOps1_2 (after hostOps1_1 (after hostOps1 V)) (main_v19 : DevRef τ sig) = V (main_v19 : DevRef τ sig) := by
  after_results
theorem keep_arg0 (V : Valuation τ sig (Elt F)) :
    after hostOps1_2 (after hostOps1_1 (after hostOps1 V)) (main_arg0 : DevRef τ sig) = V (main_arg0 : DevRef τ sig) := by
  after_results
theorem keep_v28 (V : Valuation τ sig (Elt F)) :
    after hostOps1_2 V (main_v28 : DevRef τ sig) = V (main_v28 : DevRef τ sig) := by
  after_results
theorem keep1_arg0 (V : Valuation τ sig (Elt F)) :
    after hostOps1_1 (after hostOps1 V) (main_arg0 : DevRef τ sig) = V (main_arg0 : DevRef τ sig) := by
  after_results
theorem keep1_arg2 (V : Valuation τ sig (Elt F)) :
    after hostOps1_1 (after hostOps1 V) (main_arg2 : DevRef τ sig) = V (main_arg2 : DevRef τ sig) := by
  after_results
theorem keep1_arg3 (V : Valuation τ sig (Elt F)) :
    after hostOps1_1 (after hostOps1 V) (main_arg3 : DevRef τ sig) = V (main_arg3 : DevRef τ sig) := by
  after_results

end Cert.KernelIdeal.Hand

end
-- ==== Proof.Spec.lean ====
/-
  The two closed forms of the graph-convolution layer, index by index over the extended reals.

  With `A` the dense 0/1 adjacency (row `i`, column `j`), `x` the node features, `W` the weight (row = output
  channel) and `b` the bias:

  * the fused form keeps the self-loops implicit: the degree of row `i` is `(∑ j, A i j) + 1`, its inverse
    square root `d i`, the aggregate `d i * ∑ j, A i j * (d j * x j k) + (d i * d i) * x i k`, and the output the
    product of the aggregate with the transposed weight plus the bias;
  * the dense form adds the identity to the adjacency first: degree `0 + ∑ j, (A i j + δ i j)`, the normalised
    adjacency `((A i j + δ i j) * d i) * d j`, its product with `x`, then with the transposed weight, plus the bias.

  They agree when the adjacency entries are `0` or `1` and the features are real: the law is
  `∑ j, (A i j + δ i j) * t j = (∑ j, A i j * t j) + t i`, which needs the terms finite to distribute.
-/
import Idealize.ShloMosaic.PureOps.Ideal

noncomputable section

open scoped BigOperators

namespace Cert.Spec

open Idealize.ShloMosaic

/-- The inverse square root of a degree, `0` where the degree is not positive. -/
def dinv (g : EReal) : EReal := if 0 < g then Ideal.div 1 (Ideal.sqrt g) else 0

/-- The identity matrix. -/
def eye (i j : Fin 8192) : EReal := if i = j then 1 else 0

variable (A : Fin 8192 → Fin 8192 → EReal) (x : Fin 8192 → Fin 128 → EReal)
  (W : Fin 128 → Fin 128 → EReal) (b : Fin 128 → EReal)

/-! ## The fused form (self-loops implicit) -/

def degK (i : Fin 8192) : EReal := (∑ j, A i j) + 1
def dK (i : Fin 8192) : EReal := dinv (degK A i)
def aggK (i : Fin 8192) (k : Fin 128) : EReal :=
  dK A i * (∑ j, A i j * (dK A j * x j k)) + (dK A i * dK A i) * x i k
def outK (i : Fin 8192) (q : Fin 128) : EReal := (∑ k, aggK A x i k * W q k) + b q

/-! ## The dense form (identity added to the adjacency) -/

def degR (i : Fin 8192) : EReal := 0 + ∑ j, (A i j + eye i j)
def dR (i : Fin 8192) : EReal := dinv (degR A i)
def normR (i j : Fin 8192) : EReal := ((A i j + eye i j) * dR A i) * dR A j
def aggR (i : Fin 8192) (k : Fin 128) : EReal := ∑ j, normR A i j * x j k
def outR (i : Fin 8192) (q : Fin 128) : EReal := (∑ k, aggR A x i k * W q k) + b q

end Cert.Spec

end
-- ==== Proof.KI.GlueIdeal.lean ====
/-
  The host operations between the passes, read at an index over the extended reals: the scale of row `r` is the inverse
  square root of (degree of `r`) + 1 where that is positive and zero elsewhere; the pre-scaled feature `(j, k)` is the
  scale of row `j` times the feature; the transposed weight at `(k, q)` is the weight at `(q, k)`; the bias row at
  `(0, q)` is the bias at `q`.
-/
import proofs.«119681_j32641751449979_2_alg».proof.Proof.KI.Glue
import proofs.«119681_j32641751449979_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Idealize.ShloMosaic.TcCoe Idealize.SL.Sem
open Cert.KernelIdeal Cert.KernelIdeal.Gen

variable [Cert.KernelIdeal.Facts]

/-- The word `0x3F800000` denotes one. -/
theorem f32_one : Ideal.ofBits .f32 0x3F800000#32 = 1 := by
  simp [Ideal.ofBits, Ideal.ieee]
  rw [← EReal.coe_mul, ← EReal.coe_one]
  norm_num

/-- The guarded inverse square root, as the select on the comparison spells it. -/
theorem select_dinv (g : EReal) :
    Scalar.select (Ideal.cmp .ogt g 0) (Ideal.div 1 (Ideal.sqrt g)) (0 : EReal) = Cert.Spec.dinv g := by
  unfold Cert.Spec.dinv Scalar.select Ideal.cmp
  by_cases h : 0 < g
  · simp [h]
  · simp [h]

/-- A scalar constant broadcast to the degree column reads as the constant everywhere. -/
theorem splat_col (w : BitVec 32) (j : S8192x1.Idx) :
    broadcastInDim S8192x1 ![] Facts₀.bcast_S_S8192x1 (constant (F := Ideal) S_ .f32 w) j = Ideal.ofBits .f32 w :=
  (broadcastInDim_apply ![] Facts₀.bcast_S_S8192x1 (constant (F := Ideal) S_ .f32 w) j ix0 (fun a => a.elim0)).trans rfl

/-- The scale of row `r`. -/
theorem dinvCol_apply (g : FVec Ideal S8192x1 .f32) (r : Fin 8192) :
    dinvCol (F := Ideal) g (ix2 r (0 : Fin 1)) = Cert.Spec.dinv (g (ix2 r (0 : Fin 1)) + 1) := by
  unfold dinvCol
  rw [select_apply]
  show Scalar.select (Ideal.cmp .ogt (g (ix2 r 0) + broadcastInDim S8192x1 ![] Facts₀.bcast_S_S8192x1 (constant (F := Ideal) S_ .f32 0x3F800000#32) (ix2 r 0))
      (broadcastInDim S8192x1 ![] Facts₀.bcast_S_S8192x1 (constant (F := Ideal) S_ .f32 0x00000000#32) (ix2 r 0)))
    (Ideal.div (broadcastInDim S8192x1 ![] Facts₀.bcast_S_S8192x1 (constant (F := Ideal) S_ .f32 0x3F800000#32) (ix2 r 0))
      (Ideal.sqrt (g (ix2 r 0) + broadcastInDim S8192x1 ![] Facts₀.bcast_S_S8192x1 (constant (F := Ideal) S_ .f32 0x3F800000#32) (ix2 r 0))))
    (broadcastInDim S8192x1 ![] Facts₀.bcast_S_S8192x1 (constant (F := Ideal) S_ .f32 0x00000000#32) (ix2 r 0)) = _
  rw [splat_col, splat_col, f32_one, Ideal.ofBits_zero_f32]
  exact select_dinv _

/-- The pre-scaled feature at `(j, k)`. -/
theorem scaled_apply (d : FVec Ideal S8192x1 .f32) (x : FVec Ideal S8192x128 .f32) (j : Fin 8192) (k : Fin 128) :
    truncf (F := Ideal) .bf16 (mulf (broadcastInDim S8192x128 ![0, 1] Facts₀.bcast_S8192x1_S8192x128_0_1 d) x) Facts₀.bitsLt_bf16_f32 (ix2 j k)
      = d (ix2 j (0 : Fin 1)) * x (ix2 j k) := by
  show broadcastInDim S8192x128 ![0, 1] Facts₀.bcast_S8192x1_S8192x128_0_1 d (ix2 j k) * x (ix2 j k) = _
  rw [broadcastInDim_apply ![0, 1] Facts₀.bcast_S8192x1_S8192x128_0_1 d (ix2 j k) (ix2 j (0 : Fin 1))
    (fun a => by match a with | ⟨0, _⟩ => rfl | ⟨1, _⟩ => rfl)]

/-- The transposed weight at `(k, q)`. -/
theorem wt_apply (W : FVec Ideal S128x128 .f32) (k q : Fin 128) :
    transpose S128x128 [1, 0] W Facts₀.transposes_S128x128_S128x128_1_0 (ix2 k q) = W (ix2 q k) :=
  transpose_apply [1, 0] W Facts₀.transposes_S128x128_S128x128_1_0 (ix2 k q) (ix2 q k)
    (fun b => by match b with | ⟨0, _⟩ => rfl | ⟨1, _⟩ => rfl)

/-- The bias row at `(0, q)`. -/
theorem brow_apply (b : FVec Ideal S128 .f32) (q : Fin 128) :
    shapeCast S1x128 b Facts₀.shapeCasts_S128_S1x128 (ix2 (0 : Fin 1) q) = b (ix1 q) :=
  (shapeCast_addUnit_apply ![128] b Facts₀.shapeCasts_S128_S1x128 (ix2 (0 : Fin 1) q)).trans
    (congrArg b (funext fun a => by match a with | ⟨0, _⟩ => rfl))

end Cert.KernelIdeal.Hand

end
-- ==== Proof.KI.R0Pieces.lean ====
/-
  What the degree body's stores are, as the body's own arithmetic: at column block 0 the accumulator receives the row
  sums of the adjacency block added to the zero block; at the later column blocks the row sums added to what the
  accumulator held; at column block 3 the output block receives that same value.
-/
import proofs.«119681_j32641751449979_2_alg».proof.Proof.KI.R0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

theorem zeros2 : (![0, 0] : Fin 2 → Nat) = fun _ => 0 := funext fun a => by fin_cases a <;> rfl

/-- After column block 0: the zero block plus the block's row sums. -/
theorem accAfterFirst_eq (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : first0 i) (hl : ¬last0 i) (x0 : Vec F S1024x2048 .bf16) :
    accAfterFirst c i arg2 harg2 arg3 harg3 arg4 harg4 hf hl x0 = k0_pay2 (k0_pay1 (F := F)) x0 := by
  unfold accAfterFirst
  rw [View.read_writes_eq_canon _ _ _ (accCover_first c i arg2 harg2 arg3 harg3 arg4 harg4 hf hl x0)]
  unfold bodyFirst0
  dsimp only
  sl_unfold_words
  rw [View.canon_cons_unit_zero (S := S1024x1) zeros2, View.readCov_unit_zero (S := S1024x1) _ zeros2]
  simp only [View.readAt_eq_ld, harg2.read_unread, View.ld_unit_zero (S := S1024x2048) zeros2]

/-- After column block 1 or 2: what the accumulator held plus the block's row sums. -/
theorem accAfterMid_eq (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : ¬first0 i) (hl : ¬last0 i) (x0 : Vec F S1024x2048 .bf16) (xs0 : Vec F S1024x1 .f32) :
    accAfterMid c i arg2 harg2 arg3 harg3 arg4 harg4 hf hl x0 xs0 = k0_pay2 xs0 x0 := by
  unfold accAfterMid
  rw [View.read_writes_eq_canon _ _ _ (accCover_mid c i arg2 harg2 arg3 harg3 arg4 harg4 hf hl x0 xs0)]
  unfold bodyMid0
  dsimp only
  sl_unfold_words
  rw [View.canon_unit_zero (S := S1024x1) zeros2]
  simp only [View.readAt_eq_ld, harg2.read_unread, harg4.read_unread, View.ld_unit_zero (S := S1024x2048) zeros2, View.ld_unit_zero (S := S1024x1) zeros2]

/-- After column block 3: the same for the accumulator, -/
theorem accAfterLast_eq (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : ¬first0 i) (hl : last0 i) (x0 : Vec F S1024x2048 .bf16) (xs0 : Vec F S1024x1 .f32) :
    accAfterLast c i arg2 harg2 arg3 harg3 arg4 harg4 hf hl x0 xs0 = k0_pay2 xs0 x0 := by
  unfold accAfterLast
  rw [View.read_writes_eq_canon _ _ _ (accCover_last c i arg2 harg2 arg3 harg3 arg4 harg4 hf hl x0 xs0)]
  unfold bodyLast0
  dsimp only
  sl_unfold_words
  rw [View.canon_unit_zero (S := S1024x1) zeros2]
  simp only [View.readAt_eq_ld, harg2.read_unread, harg4.read_unread, View.ld_unit_zero (S := S1024x2048) zeros2, View.ld_unit_zero (S := S1024x1) zeros2]

/-- and the output block receives a copy of it. -/
theorem outAfterLast_eq (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S1024x1 .f32) (harg4 : arg4.IsWhole) (hf : ¬first0 i) (hl : last0 i) (x0 : Vec F S1024x2048 .bf16) (xs0 : Vec F S1024x1 .f32) :
    outAfterLast c i arg2 harg2 arg3 harg3 arg4 harg4 hf hl x0 xs0 = k0_pay2 xs0 x0 := by
  unfold outAfterLast
  rw [View.read_writes_eq_canon _ _ _ (outCover_last c i arg2 harg2 arg3 harg3 arg4 harg4 hf hl x0 xs0)]
  unfold bodyLast0
  dsimp only
  sl_unfold_words
  rw [View.canon_unit_zero (S := S1024x1) zeros2, View.readCov_unit_zero (S := S1024x1) _ zeros2]
  simp only [View.readAt_eq_ld, harg2.read_unread, harg4.read_unread, View.ld_unit_zero (S := S1024x2048) zeros2, View.ld_unit_zero (S := S1024x1) zeros2]

end Cert.KernelIdeal.Hand

end
-- ==== Proof.KI.R0ValueA.lean ====
/-
  The degree pass, one row block at a time.

  A row block is walked at four consecutive points (its column blocks 0 to 3). The accumulator after them is the
  body's step applied four times, from the zero block, to the four adjacency blocks in order, and the output block
  stored at the last of them is that same value. An adjacency block's entry (p, q) at point t is the adjacency's
  entry at row 1024 (t / 4) + p and column 2048 (t % 4) + q.
-/
import proofs.«119681_j32641751449979_2_alg».proof.Proof.KI.R0Pieces
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The accumulator from one point to the next -/

/-- The contents after a position depend on the position only. -/
theorem outsAt0_congr (c : Dev nD) (k n : ℕ) (hk : k < cfg0.N) (hn : n < cfg0.N) (e : k = n) :
    outsAt0 V c k hk = outsAt0 V c n hn := by
  subst e; rfl

/-- At column block 0 the accumulator is left at the zero block stepped by the point's adjacency block. -/
theorem acc_zero0 (c : Dev nD) (t : Fin cfg0.N) (h0 : t.val % 4 = 0) :
    (outsAt0 V c t.val t.isLt).2 = k0_pay2 (k0_pay1 (F := F)) (blk0 V c 0 t) := by
  have h1 : ¬t.val % 4 = 3 := by omega
  rw [outsAt0_first V c t h0 h1]
  dsimp only
  exact accAfterFirst_eq c (grid0.coords t) (stg0_0 t) (stgW0_0 t) (stg0_1 t) (stgW0_1 t) acc0 (Memref.isWhole_whole _)
    ((first0_iff t).mpr h0) (fun h => h1 ((last0_iff t).mp h)) (blk0 V c 0 t)

/-- At a later column block it is what the point before left, stepped by the point's adjacency block. -/
theorem acc_step0 (c : Dev nD) (s t : Fin cfg0.N) (e : t.val = s.val + 1) (h0 : ¬t.val % 4 = 0) :
    (outsAt0 V c t.val t.isLt).2 = k0_pay2 (outsAt0 V c s.val s.isLt).2 (blk0 V c 0 t) := by
  by_cases h1 : t.val % 4 = 3
  · rw [outsAt0_last V c t h0 h1]
    dsimp only
    rw [outsAt0_congr V c (t.val - 1) s.val (Nat.lt_of_le_of_lt (Nat.sub_le _ _) t.isLt) s.isLt (by omega)]
    exact accAfterLast_eq c (grid0.coords t) (stg0_0 t) (stgW0_0 t) (stg0_1 t) (stgW0_1 t) acc0 (Memref.isWhole_whole _)
      (fun h => h0 ((first0_iff t).mp h)) ((last0_iff t).mpr h1) (blk0 V c 0 t) (outsAt0 V c s.val s.isLt).2
  · rw [outsAt0_mid V c t h0 h1]
    dsimp only
    rw [outsAt0_congr V c (t.val - 1) s.val (Nat.lt_of_le_of_lt (Nat.sub_le _ _) t.isLt) s.isLt (by omega)]
    exact accAfterMid_eq c (grid0.coords t) (stg0_0 t) (stgW0_0 t) (stg0_1 t) (stgW0_1 t) acc0 (Memref.isWhole_whole _)
      (fun h => h0 ((first0_iff t).mp h)) (fun h => h1 ((last0_iff t).mp h)) (blk0 V c 0 t) (outsAt0 V c s.val s.isLt).2

/-- At column block 3 the output block receives the same value. -/
theorem out_step0 (c : Dev nD) (s t : Fin cfg0.N) (e : t.val = s.val + 1) (h1 : t.val % 4 = 3) :
    (outsAt0 V c t.val t.isLt).1 = k0_pay2 (outsAt0 V c s.val s.isLt).2 (blk0 V c 0 t) := by
  have h0 : ¬t.val % 4 = 0 := by omega
  rw [outsAt0_last V c t h0 h1]
  dsimp only
  rw [outsAt0_congr V c (t.val - 1) s.val (Nat.lt_of_le_of_lt (Nat.sub_le _ _) t.isLt) s.isLt (by omega)]
  exact outAfterLast_eq c (grid0.coords t) (stg0_0 t) (stgW0_0 t) (stg0_1 t) (stgW0_1 t) acc0 (Memref.isWhole_whole _)
    (fun h => h0 ((first0_iff t).mp h)) ((last0_iff t).mpr h1) (blk0 V c 0 t) (outsAt0 V c s.val s.isLt).2

/-! ## A whole row block -/

/-- The output block stored at the last of a row block's four points: four steps from the zero block. -/
theorem out_chain0 (c : Dev nD) (t0 t1 t2 t3 : Fin cfg0.N) (h0 : t0.val % 4 = 0) (e1 : t1.val = t0.val + 1)
    (e2 : t2.val = t1.val + 1) (e3 : t3.val = t2.val + 1) :
    (outsAt0 V c t3.val t3.isLt).1
      = k0_pay2 (k0_pay2 (k0_pay2 (k0_pay2 (k0_pay1 (F := F)) (blk0 V c 0 t0)) (blk0 V c 0 t1)) (blk0 V c 0 t2)) (blk0 V c 0 t3) := by
  rw [out_step0 V c t2 t3 e3 (by omega), acc_step0 V c t1 t2 e2 (by omega), acc_step0 V c t0 t1 e1 (by omega),
    acc_zero0 V c t0 h0]

/-! ## An adjacency block's entries -/

/-- The adjacency window's block index at point t: its row block and its column block. -/
theorem index0_0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)

/-- Entry (p, q) of the adjacency block at point t is the adjacency at row 1024 (t / 4) + p, column 2048 (t % 4) + q. -/
theorem blk0_apply (c : Dev nD) (t : Fin cfg0.N) (p : Fin 1024) (q : Fin 2048) (r : Fin 8192) (j : Fin 8192)
    (hr : r.val = 1024 * (t.val / 4) + p.val) (hj : j.val = 2048 * (t.val % 4) + q.val) :
    (blk0 V c 0 t : Vec F S1024x2048 .bf16) (ix2 p q) = (V c main_v19 : S8192x8192.Idx → Elt F .bf16) (ix2 r j) := by
  obtain ⟨e0, e1⟩ := index0_0 t
  unfold blk0
  rw [View.read_apply]
  show V c main_v19 _ = V c main_v19 _
  refine congrArg (V c main_v19) (funext fun a => Fin.ext ?_)
  match a with
  | ⟨0, _⟩ => show win0_0.index t 0 * 1024 + 1 * p.val = r.val; rw [e0, hr]; omega
  | ⟨1, _⟩ => show win0_0.index t 1 * 2048 + 1 * q.val = j.val; rw [e1, hj]; omega

end Cert.KernelIdeal.Hand

end
-- ==== Proof.KI.R0ValueB.lean ====
/-
  The degree body's arithmetic read one entry at a time, at the ideal values.

  The body's stored block is its first operand plus, row by row, the sum of the adjacency block's 2048 lanes (kept as a
  one-column block); the block it starts from at column block 0 is zero everywhere.
-/
import proofs.«119681_j32641751449979_2_alg».proof.Proof.Gen.KernelIdeal.Skeleton
import Idealize.ShloMosaic.Lib.ValueLayout
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen
open scoped BigOperators

/-- A vector of length a viewed as a one-column block reads, at row i of its only column, the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The row index p with lane q put back is the entry (p, q). -/
theorem lift_lane (h : S1024x2048.Reduces [1] S1024) (p : Fin 1024) (q : Fin 2048) :
    h.lift (ix1 p) q = ix2 p q := by
  funext a
  match a with
  | ⟨0, _⟩ => exact Fin.ext rfl
  | ⟨1, _⟩ => exact Fin.ext rfl

/-- The sum over the lanes of a 1024 by 2048 block, at row p, is the sum of that row's 2048 entries. -/
theorem lane_sum_apply (src : FVec Ideal S1024x2048 .f32) (h : S1024x2048.Reduces [1] S1024) (hφ : FKind.Formats .f32)
    (hacc : (0x00000000#32 : BitVec 32) = 0x00000000#32) (p : Fin 1024) :
    multiReduction .add [1] S1024 src 0x00000000#32 h hφ hacc (ix1 p) = ∑ q : Fin 2048, src (ix2 p q) :=
  (Ideal.multiReduction_add_single src 0x00000000#32 h hφ hacc (ix1 p)).trans
    (Finset.sum_congr rfl fun q _ => congrArg src (lift_lane h p q))

/-- The accumulating step at an entry: the first operand's entry plus the adjacency block's row sum. -/
theorem k0_pay2_apply (v3 : Vec Ideal S1024x1 .f32) (v4 : Vec Ideal S1024x2048 .bf16) (p : Fin 1024) (u : Fin 1) :
    k0_pay2 (F := Ideal) v3 v4 (ix2 p u) = v3 (ix2 p u) + ∑ q : Fin 2048, v4 (ix2 p q) := by
  unfold k0_pay2
  refine (congrFun (shapeCast_self _ _) _).trans ?_
  refine congrArg (v3 (ix2 p u) + ·) ?_
  refine (shapeCast_a_a1_apply _ _ p u).trans ?_
  refine (lane_sum_apply _ _ _ _ p).trans ?_
  refine Finset.sum_congr rfl fun q _ => ?_
  exact congrFun (shapeCast_self _ _) _

/-- The block the accumulator is reset to is zero at every entry. -/
theorem k0_pay1_apply (i : S1024x1.Idx) : k0_pay1 (F := Ideal) i = 0 := by
  unfold k0_pay1
  refine (congrFun (shapeCast_self _ _) _).trans ?_
  exact Ideal.ofBits_zero_f32

end Cert.KernelIdeal.Hand

end
-- ==== Proof.LibBlockedSum.lean ====
/-
  A finite sum cut into consecutive blocks.

  A sum over the `a * b` indices `0, 1, …, a * b - 1` is the sum, over the `a` blocks `s = 0, …, a - 1`, of the
  block's own sum over its `b` consecutive indices `s * b, s * b + 1, …, s * b + (b - 1)`. Addition is only asked
  to be commutative and associative (any additive commutative monoid: the extended reals qualify, where
  cancellation and distributivity may fail at the infinities but re-bracketing and re-ordering a sum never do).
  This is the law that joins a contraction computed one block of the contracted axis at a time with the same
  contraction computed in one go.
-/
import Mathlib.Algebra.BigOperators.Fin
import Mathlib.Logic.Equiv.Fin.Basic

open scoped BigOperators

namespace BlockedSum

/-- The `k`-th index of block `s` is an index of the whole range. -/
theorem block_index_lt {a b : ℕ} (s : Fin a) (k : Fin b) : s.val * b + k.val < a * b := by
  have hs : s.val + 1 ≤ a := s.isLt
  have hk : k.val < b := k.isLt
  calc s.val * b + k.val < s.val * b + b := Nat.add_lt_add_left hk _
    _ = (s.val + 1) * b := (Nat.succ_mul _ _).symm
    _ ≤ a * b := Nat.mul_le_mul_right b hs

/-- The `k`-th index of block `s`, as an index of the whole range. -/
def blockIndex {a b : ℕ} (s : Fin a) (k : Fin b) : Fin (a * b) := ⟨s.val * b + k.val, block_index_lt s k⟩

@[simp] theorem blockIndex_val {a b : ℕ} (s : Fin a) (k : Fin b) : (blockIndex s k).val = s.val * b + k.val := rfl

/-- A sum over `a * b` indices is the sum of its `a` consecutive blocks of `b` terms each. -/
theorem sum_eq_sum_blocks {M : Type*} [AddCommMonoid M] (a b : ℕ) (f : Fin (a * b) → M) :
    ∑ i : Fin (a * b), f i = ∑ s : Fin a, ∑ k : Fin b, f (blockIndex s k) := by
  rw [← Equiv.sum_comp finProdFinEquiv f, Fintype.sum_prod_type]
  refine Finset.sum_congr rfl fun s _ => Finset.sum_congr rfl fun k _ => congrArg f (Fin.ext ?_)
  show k.val + b * s.val = s.val * b + k.val
  rw [Nat.add_comm, Nat.mul_comm]

/-- The same with the blocks counted by a natural number below `a` (a `Finset.range` sum, the form a fold over
    consecutive steps unrolls to): `g` gives block `s`'s term at its `k`-th place, and agrees with `f` there. -/
theorem sum_range_blocks {M : Type*} [AddCommMonoid M] (a b : ℕ) (f : Fin (a * b) → M) (g : ℕ → Fin b → M)
    (hg : ∀ (s : Fin a) (k : Fin b), g s.val k = f (blockIndex s k)) :
    ∑ s ∈ Finset.range a, ∑ k : Fin b, g s k = ∑ i : Fin (a * b), f i := by
  rw [sum_eq_sum_blocks, Finset.sum_range]
  exact Finset.sum_congr rfl fun s _ => Finset.sum_congr rfl fun k _ => hg s k

end BlockedSum
-- ==== Proof.KI.R0Value.lean ====
/-
  The value of the degree pass: its output array is the row sum of the adjacency.

  The output block written back at the last point of row block m holds, at row p, the zero the accumulator was reset
  to plus the four column blocks' sums of row 1024 m + p, added in the order the columns are walked. The four column
  blocks of 2048 lanes are the 8192 columns cut into consecutive runs, so that value is the sum of the whole row of the
  adjacency; the eight row blocks written back cover the 8192 rows of the output.
-/
import proofs.«119681_j32641751449979_2_alg».proof.Proof.KI.R0ValueA
import proofs.«119681_j32641751449979_2_alg».proof.Proof.KI.R0ValueB
import proofs.«119681_j32641751449979_2_alg».proof.Proof.LibBlockedSum

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

variable (V : (c : Dev nD) → (b : Ref sig .tc) → Buf (Elt Ideal) ((c : Thread nD τ).loc b))

/-! ## Four steps at an entry, and a row cut into four runs -/

/-- Four steps from the zero block, at row p: the four adjacency blocks' sums of row p, added in order. -/
theorem chain_apply (B0 B1 B2 B3 : Vec Ideal S1024x2048 .bf16) (p : Fin 1024) (u : Fin 1) :
    k0_pay2 (F := Ideal) (k0_pay2 (k0_pay2 (k0_pay2 (k0_pay1 (F := Ideal)) B0) B1) B2) B3 (ix2 p u)
      = ∑ q : Fin 2048, B0 (ix2 p q) + ∑ q : Fin 2048, B1 (ix2 p q) + ∑ q : Fin 2048, B2 (ix2 p q)
        + ∑ q : Fin 2048, B3 (ix2 p q) := by
  rw [k0_pay2_apply, k0_pay2_apply, k0_pay2_apply, k0_pay2_apply, k0_pay1_apply, zero_add]

/-- A sum over 8192 columns is the sum of its four consecutive runs of 2048. -/
theorem sum_four_blocks {M : Type*} [AddCommMonoid M] (f : Fin 8192 → M) :
    ∑ j : Fin 8192, f j
      = ∑ q : Fin 2048, f ⟨q.val, by have := q.isLt; omega⟩ + ∑ q : Fin 2048, f ⟨2048 + q.val, by have := q.isLt; omega⟩
        + ∑ q : Fin 2048, f ⟨4096 + q.val, by have := q.isLt; omega⟩ + ∑ q : Fin 2048, f ⟨6144 + q.val, by have := q.isLt; omega⟩ := by
  have e := BlockedSum.sum_eq_sum_blocks 4 2048 (fun i : Fin (4 * 2048) => f ⟨i.val, i.isLt⟩)
  rw [Fin.sum_univ_four] at e
  refine Eq.trans (b := ∑ i : Fin (4 * 2048), f ⟨i.val, i.isLt⟩) rfl (e.trans ?_)
  have hb : ∀ (s : Fin 4) (k : Nat) (hk : k = s.val * 2048),
      ∑ q : Fin 2048, (fun i : Fin (4 * 2048) => f ⟨i.val, i.isLt⟩) (BlockedSum.blockIndex s q)
        = ∑ q : Fin 2048, f ⟨k + q.val, by have := q.isLt; have := s.isLt; omega⟩ := fun s k hk => by
    subst hk
    exact Finset.sum_congr rfl fun q _ => congrArg f (Fin.ext (BlockedSum.blockIndex_val s q))
  rw [hb 0 0 rfl, hb 1 2048 rfl, hb 2 4096 rfl, hb 3 6144 rfl]
  refine congrArg (· + _) (congrArg (· + _) (congrArg (· + _) ?_))
  exact Finset.sum_congr rfl fun q _ => congrArg f (Fin.ext (Nat.zero_add _))

theorem add4 {M : Type*} [Add M] {a b c d a' b' c' d' : M} (ha : a = a') (hb : b = b') (hc : c = c') (hd : d = d') :
    a + b + c + d = a' + b' + c' + d' := by rw [ha, hb, hc, hd]

/-! ## The degree column -/

/-- The degree column: at row r, the sum of the adjacency's row r as the region finds it. -/
def degCol0 (c : Dev nD) : S8192x1.Idx → EReal :=
  fun i => (∑ j : Fin 8192, V c main_v19 (ix2 (⟨(i 0).val, idx2_lt0 i⟩ : Fin 8192) j) : EReal)

theorem degCol0_apply (c : Dev nD) (i : S8192x1.Idx) (r : Fin 8192) (h : (i 0).val = r.val) :
    degCol0 V c i = (∑ j : Fin 8192, V c main_v19 (ix2 r j) : EReal) := by
  unfold degCol0
  rw [show (⟨(i 0).val, idx2_lt0 i⟩ : Fin 8192) = r from Fin.ext h]

/-- The output window's block index at point t: its row block, and 0. -/
theorem index0_1 : ∀ t : Fin cfg0.N, win0_1.index t 0 = t.val / 4 ∧ win0_1.index t 1 = 0 :=
  (by decide +kernel : ∀ t : Fin grid0.N, win0_1.index t 0 = t.val / 4 ∧ win0_1.index t 1 = 0)

/-! ## What is written back, and where -/

/-- The block written back at the last point of a row block is that block of the degree column. -/
theorem flushed_eq0 (c : Dev nD) (t : Fin cfg0.N) (hf : (cfg0.win 1).flush t = true) :
    (dat0 (F := Ideal) V c).flushed 1 t = ((cfg0.win 1).blk t).view.read (Elt Ideal) (degCol0 V c) := by
  have hN : cfg0.N = 32 := N_0
  have h3 : t.val % 4 = 3 := (flush0_1 t).mp hf
  have hlt : t.val < 32 := lt_of_lt_of_eq t.isLt hN
  obtain ⟨e0, e1⟩ := index0_1 t
  show (cfg0.win 1).cut (grid0.coords t) ((dat0 V c).after 1 t) = _
  rw [after0_1 V c t]
  rw [out_chain0 V c ⟨t.val - 3, by omega⟩ ⟨t.val - 2, by omega⟩ ⟨t.val - 1, by omega⟩ t
    (by show (t.val - 3) % 4 = 0; omega) (by show t.val - 2 = t.val - 3 + 1; omega)
    (by show t.val - 1 = t.val - 2 + 1; omega) (by show t.val = t.val - 1 + 1; omega)]
  refine funext fun (y : S1024x1.Idx) => ?_
  obtain ⟨p, u, rfl⟩ : ∃ (p : Fin 1024) (u : Fin 1), y = ix2 p u := ⟨y 0, y 1, eq_ix2 y⟩
  rw [View.read_apply]
  have hdeg := degCol0_apply V c (((cfg0.win 1).blk t).view.emb (ix2 p u)) ⟨1024 * (t.val / 4) + p.val, by have := p.isLt; omega⟩
    (by show win0_1.index t 0 * 1024 + 1 * p.val = 1024 * (t.val / 4) + p.val; rw [e0]; omega)
  refine Eq.trans ?_ hdeg.symm
  refine (chain_apply _ _ _ _ p u).trans ?_
  refine Eq.trans ?_ (sum_four_blocks _).symm
  refine add4 (Finset.sum_congr rfl fun q _ => ?_) (Finset.sum_congr rfl fun q _ => ?_) (Finset.sum_congr rfl fun q _ => ?_)
    (Finset.sum_congr rfl fun q _ => ?_)
  · exact blk0_apply V c ⟨t.val - 3, by omega⟩ p q _ _ (by show 1024 * (t.val / 4) + p.val = 1024 * ((t.val - 3) / 4) + p.val; omega)
      (by show q.val = 2048 * ((t.val - 3) % 4) + q.val; omega)
  · exact blk0_apply V c ⟨t.val - 2, by omega⟩ p q _ _ (by show 1024 * (t.val / 4) + p.val = 1024 * ((t.val - 2) / 4) + p.val; omega)
      (by show 2048 + q.val = 2048 * ((t.val - 2) % 4) + q.val; omega)
  · exact blk0_apply V c ⟨t.val - 1, by omega⟩ p q _ _ (by show 1024 * (t.val / 4) + p.val = 1024 * ((t.val - 1) / 4) + p.val; omega)
      (by show 4096 + q.val = 2048 * ((t.val - 1) % 4) + q.val; omega)
  · exact blk0_apply V c t p q _ _ (by show 1024 * (t.val / 4) + p.val = 1024 * (t.val / 4) + p.val; rfl)
      (by show 6144 + q.val = 2048 * (t.val % 4) + q.val; omega)

/-- Every row of the output lies in the block written back at the last point of its row block. -/
theorem cover0 (i : S8192x1.Idx) :
    ∃ t : Fin cfg0.N, (cfg0.win 1).flush t = true ∧ i ∈ ((cfg0.win 1).blk t).view.set := by
  have hN : cfg0.N = 32 := N_0
  have hi0 : (i 0).val < 8192 := idx2_lt0 i
  have hi1 : (i 1).val < 1 := idx2_lt1 i
  have ht : 4 * ((i 0).val / 1024) + 3 < cfg0.N := by omega
  obtain ⟨e0, e1⟩ := index0_1 ⟨4 * ((i 0).val / 1024) + 3, ht⟩
  refine ⟨⟨4 * ((i 0).val / 1024) + 3, ht⟩, (flush0_1 _).mpr (by show (4 * ((i 0).val / 1024) + 3) % 4 = 3; omega), ?_⟩
  show i ∈ ((View.whole main_v20).slice (win0_1.rect ⟨4 * ((i 0).val / 1024) + 3, ht⟩)).set
  rw [View.set_slice_whole, Rect.mem_set_unit]
  intro a
  match a with
  | ⟨0, _⟩ =>
    show win0_1.index ⟨4 * ((i 0).val / 1024) + 3, ht⟩ 0 * 1024 ≤ (i 0).val
      ∧ (i 0).val < win0_1.index ⟨4 * ((i 0).val / 1024) + 3, ht⟩ 0 * 1024 + 1024
    rw [e0]
    show (4 * ((i 0).val / 1024) + 3) / 4 * 1024 ≤ (i 0).val ∧ (i 0).val < (4 * ((i 0).val / 1024) + 3) / 4 * 1024 + 1024
    omega
  | ⟨1, _⟩ =>
    show win0_1.index ⟨4 * ((i 0).val / 1024) + 3, ht⟩ 1 * 1 ≤ (i 1).val
      ∧ (i 1).val < win0_1.index ⟨4 * ((i 0).val / 1024) + 3, ht⟩ 1 * 1 + 1
    rw [e1]
    omega

/-! ## The output array -/

/-- After the degree pass its output array is the degree column. -/
theorem degree_final (c : Dev nD) : (dat0 (F := Ideal) V c).arrAt 1 cfg0.N = degCol0 V c :=
  (dat0 (F := Ideal) V c).arrAt_eq_of_cover 1 (degCol0 V c) (flushed_eq0 V c) (cover0)

/-- Entry r of the degree pass's output array is the sum of row r of the adjacency. -/
theorem degree_array (c : Dev nD) (r : Fin 8192) :
    (dat0 (F := Ideal) V c).arrAt 1 cfg0.N (ix2 r (0 : Fin 1))
      = (∑ j : Fin 8192, V c main_v19 (ix2 r j) : EReal) :=
  (congrFun (degree_final V c) (ix2 r (0 : Fin 1))).trans (degCol0_apply V c (ix2 r (0 : Fin 1)) r rfl)

end Cert.KernelIdeal.Hand

end
-- ==== Proof.LibScatterSet.lean ====
/-
  Entries of a scatter whose update computation returns the update.

  A scatter is a left fold over the update indices: each step replaces one entry of the running result by the
  update computation applied to that entry and to the update, or leaves the result alone when the update lands
  outside the operand. When the computation returns the update, every entry of every running result is either the
  operand's entry at the same index or one of the updates: the property holds of the operand, and a step either
  keeps an entry or sets it to an update. In particular a scatter of a constant into a constant takes only those
  two values.
-/
import Idealize.ShloMosaic.PureOps.ShapeOps
import Idealize.ShloMosaic.PureOps.Ideal

namespace Cert.LibScatterSet

open Idealize.ShloMosaic

/-- A property that holds of the initial value of a left fold and that every step preserves holds of the
result. -/
theorem foldl_invariant {β γ : Type} (P : β → Prop) (g : β → γ → β) (l : List γ) (b : β) (hb : P b)
    (hstep : ∀ b c, P b → P (g b c)) : P (l.foldl g b) := by
  induction l generalizing b with
  | nil => exact hb
  | cons c l ih => exact ih (g b c) (hstep b c hb)

/-- Every entry of a scatter whose update computation returns the update is the operand's entry at the same
index or one of the updates. -/
theorem scatter_set_mem {s si u : Shape} {α : Type} {w : Nat} (d : ScatterDims s si u) (x : s.Idx → α)
    (idx : IVec si w) (upd : u.Idx → α) (i : s.Idx) :
    Host.scatter d (fun _ b => b) x idx upd i = x i ∨ ∃ j, Host.scatter d (fun _ b => b) x idx upd i = upd j := by
  unfold Host.scatter
  refine foldl_invariant (fun r => ∀ i, r i = x i ∨ ∃ j, r i = upd j) _ _ x (fun i => Or.inl rfl) ?_ i
  intro r n hr i
  dsimp only
  generalize d.resultIdx? (u.rowMajor.symm n) idx = o
  cases o with
  | none => exact hr i
  | some i0 =>
    dsimp only
    by_cases h : i = i0
    · exact Or.inr ⟨_, by rw [if_pos h]⟩
    · rw [if_neg h]; exact hr i

/-- A scatter of the constant b into the constant a, its update computation returning the update, takes only the
values a and b. -/
theorem scatter_set_const {s si u : Shape} {α : Type} {w : Nat} (d : ScatterDims s si u) (a b : α)
    (idx : IVec si w) (i : s.Idx) :
    Host.scatter d (fun _ b => b) (fun _ => a) idx (fun _ => b) i = a
      ∨ Host.scatter d (fun _ b => b) (fun _ => a) idx (fun _ => b) i = b := by
  rcases scatter_set_mem d (fun _ => a) idx (fun _ => b) i with h | ⟨_, h⟩
  · exact Or.inl h
  · exact Or.inr h

/-- Over the extended reals: a scatter of ones into zeros, its update computation returning the update, has
every entry zero or one. -/
theorem scatter_set_zero_one {so si su : Shape} (sd : ScatterDims so si su)
    (idx : (⟨si, .i32⟩ : BufTy).Contents (Elt Ideal)) (i : so.Idx) :
    Host.scatter (α := EReal) sd (fun _ b => b) (fun _ => (0 : EReal)) idx (fun _ => (1 : EReal)) i = 0
      ∨ Host.scatter (α := EReal) sd (fun _ b => b) (fun _ => (0 : EReal)) idx (fun _ => (1 : EReal)) i = 1 :=
  scatter_set_const sd (0 : EReal) (1 : EReal) idx i

end Cert.LibScatterSet
-- ==== Proof.KI.Adj.lean ====
/-
  The adjacency the first host stretch builds, in normal form.

  The stretch reads the two rows of the edge list, wraps each negative entry around by adding the number of nodes,
  lays the two wrapped rows side by side as the columns of a list of index pairs, and scatters the constant one into
  a square array of zeros at those pairs, the update computation returning the update. As a function of the edge
  list the adjacency is therefore one scatter, of ones into zeros, at the prepared index pairs. Over the extended
  reals the two constants are the numbers zero and one, and every entry of the adjacency is zero or one.
-/
import proofs.«119681_j32641751449979_2_alg».proof.Proof.Gen.KernelIdeal.Launch
import Idealize.ShloMosaic.Lib.StableHlo.Run
import Idealize.ShloMosaic.Lib.ValueIdx
import proofs.«119681_j32641751449979_2_alg».proof.Proof.LibScatterSet

noncomputable section

namespace Cert.KernelIdeal.Hand

open Idealize.ShloMosaic Idealize.ShloMosaic.TcCoe Idealize.ShloMosaic.StableHlo Idealize.SL.Sem
open Cert.KernelIdeal Cert.KernelIdeal.Gen

variable {F : FTy → Type} [FloatOps F]

/-- A row of node indices with each negative entry wrapped around by adding the number of nodes. -/
def wrapK (v : (⟨S262144, .i32⟩ : BufTy).Contents (Elt F)) : (⟨S262144, .i32⟩ : BufTy).Contents (Elt F) :=
  select
    (cmpi .slt v (broadcastInDim S262144 ![] Facts₀.bcast_S_S262144 (constantI S_ 32 0#32)))
    (addi v (broadcastInDim S262144 ![] Facts₀.bcast_S_S262144 (constantI S_ 32 8192#32)))
    v

/-- The list of index pairs the scatter reads: the two rows of the edge list, wrapped, as the two columns. -/
def prepK (e : (⟨S2x262144, .i32⟩ : BufTy).Contents (Elt F)) : (⟨S262144x2, .i32⟩ : BufTy).Contents (Elt F) :=
  concatenate S262144x2 1
    [⟨S262144x1, broadcastInDim S262144x1 ![0] Facts₀.bcast_S262144_S262144x1_0
        (wrapK (F := F) (shapeCast S262144 (extractStridedSlice S1x262144 ![0, 0] e Facts₀.slices_S2x262144_S1x262144_0_0)
          Facts₀.shapeCasts_S1x262144_S262144))⟩,
     ⟨S262144x1, broadcastInDim S262144x1 ![0] Facts₀.bcast_S262144_S262144x1_0
        (wrapK (F := F) (shapeCast S262144 (extractStridedSlice S1x262144 ![1, 0] e Facts₀.slices_S2x262144_S1x262144_1_0)
          Facts₀.shapeCasts_S1x262144_S262144))⟩]
    Facts₀.concatenates_S262144x1_S262144x1_S262144x2_d1

/-- After the first host stretch the adjacency is the scatter of ones into zeros at the prepared index pairs. -/
theorem adj_eq (V : Valuation τ sig (Elt F)) :
    after hostOps0 V (main_v19 : DevRef τ sig)
      = Host.scatter scatter_S8192x8192_S262144x2_S262144_n_01_01_1 (fun _ b => b)
          (broadcastInDim S8192x8192 ![] Facts₀.bcast_S_S8192x8192 (constant (F := F) S_ .bf16 0x0000#16))
          (prepK (V (main_arg1 : DevRef τ sig)))
          (broadcastInDim S262144 ![] Facts₀.bcast_S_S262144 (constant (F := F) S_ .bf16 0x3F80#16)) := by
  after_results_simp
  try rfl

/-- The half-precision word of all zero bits denotes zero. -/
theorem zero_bf16 : Ideal.ofBits .bf16 0x0000#16 = 0 := by simp [Ideal.ofBits, Ideal.ieee]

/-- The half-precision word 0x3F80 denotes one. -/
theorem one_bf16 : Ideal.ofBits .bf16 0x3F80#16 = 1 := by
  simp [Ideal.ofBits, Ideal.ieee, -EReal.coe_mul]; norm_num

/-- The single-precision word 0x3F800000 denotes one. -/
theorem one_f32 : Ideal.ofBits .f32 0x3F800000#32 = 1 := by
  simp [Ideal.ofBits, Ideal.ieee, -EReal.coe_mul]; norm_num

/-- Over the extended reals the adjacency is the scatter of the number one into the number zero at the prepared
index pairs. -/
theorem adj_normal (V : Valuation τ sig (Elt Ideal)) :
    after (hostOps0 (F := Ideal)) V (main_v19 : DevRef τ sig)
      = Host.scatter (α := EReal) scatter_S8192x8192_S262144x2_S262144_n_01_01_1 (fun _ b => b)
          (fun _ => (0 : EReal)) (prepK (F := Ideal) (V (main_arg1 : DevRef τ sig))) (fun _ => (1 : EReal)) := by
  have h0 : broadcastInDim S8192x8192 ![] Facts₀.bcast_S_S8192x8192 (constant (F := Ideal) S_ .bf16 0x0000#16)
      = fun _ => (0 : EReal) := by
    funext i; exact zero_bf16
  have h1 : broadcastInDim S262144 ![] Facts₀.bcast_S_S262144 (constant (F := Ideal) S_ .bf16 0x3F80#16)
      = fun _ => (1 : EReal) := by
    funext i; exact one_bf16
  rw [adj_eq, h0, h1]

/-- Over the extended reals every entry of the adjacency is zero or one. -/
theorem adj_zero_one (V : Valuation τ sig (Elt Ideal)) (i j : Fin 8192) :
    after (hostOps0 (F := Ideal)) V (main_v19 : DevRef τ sig) (ValueIdx.ix2 i j) = (0 : EReal)
      ∨ after (hostOps0 (F := Ideal)) V (main_v19 : DevRef τ sig) (ValueIdx.ix2 i j) = (1 : EReal) := by
  rw [adj_normal]
  exact Cert.LibScatterSet.scatter_set_zero_one _ _ _

end Cert.KernelIdeal.Hand

end
-- ==== Proof.KI.ResultA.lean ====
/-
  What the aggregation pass is entered with, as functions of the program's arguments: the adjacency `A` the first host
  stretch scatters (unchanged by everything after it), the scale `d i = dinv ((∑ j, A i j) + 1)` from the degree pass's
  row sums, the pre-scaled features `d j * x j k`, the transposed weight and the bias row.
-/
import proofs.«119681_j32641751449979_2_alg».proof.Proof.KI.Main
import proofs.«119681_j32641751449979_2_alg».proof.Proof.KI.GlueIdeal
import proofs.«119681_j32641751449979_2_alg».proof.Proof.KI.R0Value
import proofs.«119681_j32641751449979_2_alg».proof.Proof.KI.Adj
import proofs.«119681_j32641751449979_2_alg».proof.Proof.Spec

noncomputable section

namespace Cert.KernelIdeal.Hand

open Idealize.ShloMosaic Idealize.ShloMosaic.ValueIdx Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The adjacency the program builds, the features, the weight and the bias, as matrices over literal index types. -/
def adjK (c : Dev nD) : Fin 8192 → Fin 8192 → EReal := fun i j => V1 (F := Ideal) m c main_v19 (ix2 i j)
def featK (c : Dev nD) : Fin 8192 → Fin 128 → EReal := fun j k => m ((c : Thread nD τ).loc main_arg0) (ix2 j k)
def weightK (c : Dev nD) : Fin 128 → Fin 128 → EReal := fun q k => m ((c : Thread nD τ).loc main_arg2) (ix2 q k)
def biasK (c : Dev nD) : Fin 128 → EReal := fun q => m ((c : Thread nD τ).loc main_arg3) (ix1 q)

/-- The adjacency reaches the aggregation pass unchanged: the degree pass only reads it, no later host operation
    writes it. -/
theorem adjK_at (c : Dev nD) (i j : Fin 8192) : V5 (F := Ideal) m c main_v19 (ix2 i j) = adjK m c i j := by
  have h : W5 (F := Ideal) m c (Proc.devRef .tc main_v19) = W1 m c (Proc.devRef .tc main_v19) :=
    (keep_v19 (W2 m c)).trans ((W2_arr m c 0).trans (((dat0 (V1 m) c).arrAt_in 0 rfl _).trans (A_eq0 (V1 m) c 0)))
  exact congrFun h (ix2 i j)

/-- Arguments reach the host stretches between the passes as launched. -/
theorem W2_arg (c : Dev nD) (r : Ref sig .tc) (h0 : r ∉ hostOps0_W) (hw : ∀ w, Pipeline.arrRef spec0 w ≠ r) :
    W2 (F := Ideal) m c (Proc.devRef .tc r) = m ((c : Thread nD τ).loc r) :=
  (W2_of_ne m c r hw).trans (W1_of m c r h0)

theorem featK_at (c : Dev nD) (j : Fin 8192) (k : Fin 128) : V5 (F := Ideal) m c main_arg0 (ix2 j k) = featK m c j k := by
  have h : W5 (F := Ideal) m c (Proc.devRef .tc main_arg0) = m ((c : Thread nD τ).loc main_arg0) :=
    (keep_arg0 (W2 m c)).trans (W2_arg m c main_arg0 (by decide) (by decide))
  exact congrFun h (ix2 j k)

/-- The scale of row `r` is the guarded inverse square root of the row's degree plus one. -/
theorem scaleK_at (c : Dev nD) (r : Fin 8192) : V5 (F := Ideal) m c main_v28 (ix2 r (0 : Fin 1)) = Cert.Spec.dK (adjK m c) r := by
  have h : W5 (F := Ideal) m c (Proc.devRef .tc main_v28) = dinvCol (W2 m c (Proc.devRef .tc main_v20)) :=
    (keep_v28 (W4 m c)).trans (scale_eq (W2 m c))
  refine (congrFun h (ix2 r (0 : Fin 1))).trans ?_
  rw [dinvCol_apply]
  have hd : W2 (F := Ideal) m c (Proc.devRef .tc main_v20) (ix2 r (0 : Fin 1)) = ∑ j : Fin 8192, adjK m c r j :=
    (congrFun (W2_arr m c 1) (ix2 r (0 : Fin 1))).trans (degree_array (V1 m) c r)
  rw [hd]
  rfl

/-- The pre-scaled feature. -/
theorem scaledK_at (c : Dev nD) (j : Fin 8192) (k : Fin 128) :
    V5 (F := Ideal) m c main_v31 (ix2 j k) = Cert.Spec.dK (adjK m c) j * featK m c j k := by
  have h := scaled_eq (W4 (F := Ideal) m c)
  refine (congrFun h (ix2 j k)).trans ?_
  rw [scaled_apply]
  have h28 : W4 (F := Ideal) m c (Proc.devRef .tc main_v28) (ix2 j (0 : Fin 1)) = Cert.Spec.dK (adjK m c) j :=
    (congrFun (keep_v28 (W4 m c)).symm (ix2 j (0 : Fin 1))).trans (scaleK_at m c j)
  have h0 : W4 (F := Ideal) m c (Proc.devRef .tc main_arg0) = m ((c : Thread nD τ).loc main_arg0) :=
    (keep1_arg0 (W2 m c)).trans (W2_arg m c main_arg0 (by decide) (by decide))
  rw [h28, congrFun h0 (ix2 j k)]
  rfl

/-- The transposed weight. -/
theorem weightK_at (c : Dev nD) (k q : Fin 128) : V5 (F := Ideal) m c main_v32 (ix2 k q) = weightK m c q k := by
  have h := wt_eq (W4 (F := Ideal) m c)
  refine (congrFun h (ix2 k q)).trans ?_
  rw [wt_apply]
  have h2 : W4 (F := Ideal) m c (Proc.devRef .tc main_arg2) = m ((c : Thread nD τ).loc main_arg2) :=
    (keep1_arg2 (W2 m c)).trans (W2_arg m c main_arg2 (by decide) (by decide))
  exact congrFun h2 (ix2 q k)

/-- The bias row. -/
theorem biasK_at (c : Dev nD) (q : Fin 128) : V5 (F := Ideal) m c main_v33 (ix2 (0 : Fin 1) q) = biasK m c q := by
  have h := brow_eq (W4 (F := Ideal) m c)
  refine (congrFun h (ix2 (0 : Fin 1) q)).trans ?_
  rw [brow_apply]
  have h3 : W4 (F := Ideal) m c (Proc.devRef .tc main_arg3) = m ((c : Thread nD τ).loc main_arg3) :=
    (keep1_arg3 (W2 m c)).trans (W2_arg m c main_arg3 (by decide) (by decide))
  exact congrFun h3 (ix1 q)

end Cert.KernelIdeal.Hand

end
-- ==== Proof.KI.R1Pieces.lean ====
import proofs.«119681_j32641751449979_2_alg».proof.Proof.KI.R1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ
/-! # What each control case of the second call's body leaves, as the body's payloads

Each case's pieces are whole-buffer stores through the unit rectangle at zero offsets, and each of its loads reads a
whole buffer the same way: read back, the contents are the payload of the last store at the loaded blocks. The
loads the body makes of a buffer just before overwriting it do not enter any payload. -/

private theorem zeroOffsets : (![0, 0] : Fin 2 → ℕ) = fun _ => 0 := by funext a; fin_cases a <;> rfl

/-- First step: the accumulator is zeroed and then holds the zero block plus the product of the two operand blocks. -/
theorem accFirst_eq (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i) (x0 : Vec F S1024x2048 .bf16) (x1 : Vec F S2048x128 .bf16) :
    accFirst c i arg2 harg2 arg3 harg3 arg4 harg4 arg5 harg5 arg6 harg6 arg7 harg7 arg8 harg8 arg9 harg9 hc0 hc1 x0 x1 = k1_pay2 (k1_pay1 (F := F)) x0 x1 := by
  have hz := zeroOffsets
  unfold accFirst
  rw [View.read_writes_junk_eq_canon]
  unfold firstRun
  dsimp only
  rw [View.canon_cons_unit_zero hz]
  sl_unfold_words
  rw [View.readCov_unit_zero _ hz]
  simp only [View.readAt_eq_ld, harg2.read_unread, harg3.read_unread, View.ld_unit_zero (S := S1024x2048) hz, View.ld_unit_zero (S := S2048x128) hz]

/-- Middle step: the accumulator holds what it held plus the product of the two operand blocks. -/
theorem accMid_eq (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i) (x0 : Vec F S1024x2048 .bf16) (x1 : Vec F S2048x128 .bf16) (xs0 : Vec F S1024x128 .f32) :
    accMid c i arg2 harg2 arg3 harg3 arg4 harg4 arg5 harg5 arg6 harg6 arg7 harg7 arg8 harg8 arg9 harg9 hc0 hc1 x0 x1 xs0 = k1_pay2 xs0 x0 x1 := by
  have hz := zeroOffsets
  unfold accMid
  rw [View.read_writes_junk_eq_canon]
  unfold midRun
  dsimp only
  rw [View.canon_unit_zero hz]
  simp only [View.readAt_eq_ld, harg9.read_unread, harg2.read_unread, harg3.read_unread, View.ld_unit_zero (S := S1024x128) hz, View.ld_unit_zero (S := S1024x2048) hz, View.ld_unit_zero (S := S2048x128) hz]

/-- Last step: the accumulator likewise, -/
theorem accLast_eq (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i) (x0 : Vec F S1024x2048 .bf16) (x1 : Vec F S2048x128 .bf16) (x2 : Vec F S1024x1 .f32) (x3 : Vec F S1024x128 .f32) (x4 : Vec F S128x128 .f32) (x5 : Vec F S1x128 .f32) (xs0 : Vec F S1024x128 .f32) :
    accLast c i arg2 harg2 arg3 harg3 arg4 harg4 arg5 harg5 arg6 harg6 arg7 harg7 arg8 harg8 arg9 harg9 hc0 hc1 x0 x1 x2 x3 x4 x5 xs0 = k1_pay2 xs0 x0 x1 := by
  have hz := zeroOffsets
  unfold accLast
  rw [View.read_writes_junk_eq_canon]
  unfold lastRun
  dsimp only
  sl_unfold_words
  rw [View.canon_unit_zero hz]
  simp only [View.readAt_eq_ld, harg9.read_unread, harg2.read_unread, harg3.read_unread, View.ld_unit_zero (S := S1024x128) hz, View.ld_unit_zero (S := S1024x2048) hz, View.ld_unit_zero (S := S2048x128) hz]

/-- and the output block is the epilogue of the scale column, that accumulator, the features, the weights and the bias. -/
theorem outLast_eq (c : Dev nD) (i : grid1.Coords) (arg2 : Memref sig .tc .vmem S1024x2048 .bf16) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i) (x0 : Vec F S1024x2048 .bf16) (x1 : Vec F S2048x128 .bf16) (x2 : Vec F S1024x1 .f32) (x3 : Vec F S1024x128 .f32) (x4 : Vec F S128x128 .f32) (x5 : Vec F S1x128 .f32) (xs0 : Vec F S1024x128 .f32) :
    outLast c i arg2 harg2 arg3 harg3 arg4 harg4 arg5 harg5 arg6 harg6 arg7 harg7 arg8 harg8 arg9 harg9 hc0 hc1 x0 x1 x2 x3 x4 x5 xs0 = k1_pay3 x2 (k1_pay2 xs0 x0 x1) x3 x4 x5 := by
  have hz := zeroOffsets
  unfold outLast
  rw [View.read_writes_junk_eq_canon]
  unfold lastRun
  dsimp only
  rw [View.canon_unit_zero hz]
  sl_unfold_words
  rw [View.readCov_unit_zero _ hz]
  simp only [View.readAt_eq_ld, harg9.read_unread, harg2.read_unread, harg3.read_unread, harg4.read_unread, harg5.read_unread,
    harg6.read_unread, harg7.read_unread, View.ld_unit_zero (S := S1024x128) hz, View.ld_unit_zero (S := S1024x2048) hz, View.ld_unit_zero (S := S2048x128) hz, View.ld_unit_zero (S := S1024x1) hz, View.ld_unit_zero (S := S128x128) hz, View.ld_unit_zero (S := S1x128) hz]

end Cert.KernelIdeal.Hand

end
-- ==== Proof.KI.R1ValueA.lean ====
import proofs.«119681_j32641751449979_2_alg».proof.Proof.KI.R1Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ
/-! # The second call, one row block at a time

Row block m of the output is walked at the four points 4m, 4m + 1, 4m + 2, 4m + 3, one per column block of the
adjacency. The accumulator after them is the accumulation step applied four times, from the zero block, to the four
pairs of operand blocks in order, and the output block stored at the last of them is the epilogue of that value. -/

variable (V : (c : Dev nD) → (b : Ref sig .tc) → Buf (Elt F) ((c : Thread nD τ).loc b))

/-! ## From one point to the next -/

/-- At the first step of a row block the accumulator is left at the zero block stepped by the point's operand blocks. -/
theorem acc_first1 (c : Dev nD) (n : ℕ) (hn : n < cfg1.N) (h0 : n % 4 = 0) :
    (outsAt1 V c n hn).2 = k1_pay2 (k1_pay1 (F := F)) (iblk1 V c 0 ⟨n, hn⟩) (iblk1 V c 1 ⟨n, hn⟩) := by
  rw [outsAt1_A V c ⟨n, hn⟩ h0 (not_last_of_first h0)]
  dsimp only
  exact accFirst_eq c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) scM1_0 (Memref.isWhole_whole _) _ _ (iblk1 V c 0 ⟨n, hn⟩) (iblk1 V c 1 ⟨n, hn⟩)

/-- At a later step it is what the point before left, stepped by the point's operand blocks. -/
theorem acc_next1 (c : Dev nD) (n : ℕ) (hn : n + 1 < cfg1.N) (h0 : ¬(n + 1) % 4 = 0) :
    (outsAt1 V c (n + 1) hn).2 = k1_pay2 (outsAt1 V c n (Nat.lt_of_succ_lt hn)).2 (iblk1 V c 0 ⟨n + 1, hn⟩) (iblk1 V c 1 ⟨n + 1, hn⟩) := by
  by_cases h1 : (n + 1) % 4 = 3
  · rw [outsAt1_C V c ⟨n + 1, hn⟩ h0 h1]
    dsimp only
    exact accLast_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) _ _ (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 V c n (Nat.lt_of_succ_lt hn)).2
  · rw [outsAt1_B V c ⟨n + 1, hn⟩ h0 h1]
    dsimp only
    exact accMid_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) _ _ (iblk1 V c 0 ⟨n + 1, hn⟩) (iblk1 V c 1 ⟨n + 1, hn⟩) (outsAt1 V c n (Nat.lt_of_succ_lt hn)).2

/-- At the last step the output block receives the epilogue of that same accumulator. -/
theorem out_last1 (c : Dev nD) (n : ℕ) (hn : n + 1 < cfg1.N) (h1 : (n + 1) % 4 = 3) :
    (outsAt1 V c (n + 1) hn).1
      = k1_pay3 (iblk1 V c 2 ⟨n + 1, hn⟩) (k1_pay2 (outsAt1 V c n (Nat.lt_of_succ_lt hn)).2 (iblk1 V c 0 ⟨n + 1, hn⟩) (iblk1 V c 1 ⟨n + 1, hn⟩)) (iblk1 V c 3 ⟨n + 1, hn⟩) (iblk1 V c 4 ⟨n + 1, hn⟩) (iblk1 V c 5 ⟨n + 1, hn⟩) := by
  have h0 : ¬(n + 1) % 4 = 0 := by omega
  rw [outsAt1_C V c ⟨n + 1, hn⟩ h0 h1]
  dsimp only
  exact outLast_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) _ _ (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 V c n (Nat.lt_of_succ_lt hn)).2

/-! ## A whole row block -/

/-- The accumulator after the four points of row block m: four steps from the zero block. -/
def accRow (c : Dev nD) (m : ℕ) (h : 4 * m + 3 < cfg1.N) : Vec F S1024x128 .f32 :=
  k1_pay2 (k1_pay2 (k1_pay2 (k1_pay2 (k1_pay1 (F := F))
    (iblk1 V c 0 ⟨4 * m, by omega⟩) (iblk1 V c 1 ⟨4 * m, by omega⟩)) (iblk1 V c 0 ⟨4 * m + 1, by omega⟩) (iblk1 V c 1 ⟨4 * m + 1, by omega⟩))
    (iblk1 V c 0 ⟨4 * m + 2, by omega⟩) (iblk1 V c 1 ⟨4 * m + 2, by omega⟩)) (iblk1 V c 0 ⟨4 * m + 3, h⟩) (iblk1 V c 1 ⟨4 * m + 3, h⟩)

/-- The output block stored at the last point of row block m. -/
theorem out_rowblock1 (c : Dev nD) (m : ℕ) (h : 4 * m + 3 < cfg1.N) :
    (outsAt1 V c (4 * m + 3) h).1
      = k1_pay3 (iblk1 V c 2 ⟨4 * m + 3, h⟩) (accRow V c m h) (iblk1 V c 3 ⟨4 * m + 3, h⟩) (iblk1 V c 4 ⟨4 * m + 3, h⟩) (iblk1 V c 5 ⟨4 * m + 3, h⟩) := by
  unfold accRow
  rw [out_last1 V c (4 * m + 2) h (by omega), acc_next1 V c (4 * m + 1) (by omega) (by omega),
    acc_next1 V c (4 * m) (by omega) (by omega), acc_first1 V c (4 * m) (by omega) (by omega)]

end Cert.KernelIdeal.Hand

end
-- ==== Proof.KI.R1Payloads.lean ====
/-
  The second kernel's arithmetic, read at a row and a column over the extended reals.

  One grid step of the kernel holds a block of 1024 rows. It clears an accumulator block (the first payload), adds to it the
  product of a [1024, 2048] block of the adjacency with a [2048, 128] block of the scaled features (the second), and at the
  last step scales the accumulated rows and the block's own features by the rows' inverse square root degrees, multiplies
  by the transposed weight and adds the bias row (the third). At the ideal values a narrowing of the float format is the
  identity, a same-shape cast is the identity, a matrix product into a zero accumulator is the sum over the contracted
  axis of the products, a column broadcast reads its operand at column 0 and a row broadcast at row 0.
-/
import proofs.«119681_j32641751449979_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-! ## A column broadcast over many columns -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products into a zero accumulator -/

theorem mm_agg_lhs0 (i : S1024x128.Idx) (c : dot_S1024x2048_S2048x128_S1024x128_1_0_0_1_n_n.contr.Idx) : (dot_S1024x2048_S2048x128_S1024x128_1_0_0_1_n_n.lhsIdx i c 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem mm_agg_lhs1 (i : S1024x128.Idx) (c : dot_S1024x2048_S2048x128_S1024x128_1_0_0_1_n_n.contr.Idx) : (dot_S1024x2048_S2048x128_S1024x128_1_0_0_1_n_n.lhsIdx i c 1).val = (c ⟨0, by decide⟩).val :=
  dot_S1024x2048_S2048x128_S1024x128_1_0_0_1_n_n.lhsIdx_val_of_single rfl i c
theorem mm_agg_rhs0 (i : S1024x128.Idx) (c : dot_S1024x2048_S2048x128_S1024x128_1_0_0_1_n_n.contr.Idx) : (dot_S1024x2048_S2048x128_S1024x128_1_0_0_1_n_n.rhsIdx i c 0).val = (c ⟨0, by decide⟩).val :=
  dot_S1024x2048_S2048x128_S1024x128_1_0_0_1_n_n.rhsIdx_val_of_single rfl i c
theorem mm_agg_rhs1 (i : S1024x128.Idx) (c : dot_S1024x2048_S2048x128_S1024x128_1_0_0_1_n_n.contr.Idx) : (dot_S1024x2048_S2048x128_S1024x128_1_0_0_1_n_n.rhsIdx i c 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The adjacency block times the feature block: the sum over the 2048 contracted columns. -/
theorem mm_agg_apply {φ₁ φ₂ : FTy} (l : FVec Ideal S1024x2048 φ₁) (r : FVec Ideal S2048x128 φ₂) (p : Fin 1024) (q : Fin 128) :
    matmul dot_S1024x2048_S2048x128_S1024x128_1_0_0_1_n_n none l r (constant S1024x128 .f32 0x00000000#32) (ix2 p q) = ∑ j : Fin 2048, l (ix2 p j) * r (ix2 j q) := by
  refine (Ideal.matmul_constant_zero_apply dot_S1024x2048_S2048x128_S1024x128_1_0_0_1_n_n none l r (ix2 p q)).trans ?_
  rw [← Equiv.sum_comp (contrEquiv1 dot_S1024x2048_S2048x128_S1024x128_1_0_0_1_n_n 2048 rfl rfl).symm]
  refine Finset.sum_congr rfl fun j _ => ?_
  have hj := contrEquiv1_symm_val dot_S1024x2048_S2048x128_S1024x128_1_0_0_1_n_n 2048 rfl rfl j
  have el : dot_S1024x2048_S2048x128_S1024x128_1_0_0_1_n_n.lhsIdx (ix2 p q) ((contrEquiv1 dot_S1024x2048_S2048x128_S1024x128_1_0_0_1_n_n 2048 rfl rfl).symm j) = ix2 p j := funext fun a => Fin.ext (by
    match a with
    | ⟨0, _⟩ => exact mm_agg_lhs0 _ _
    | ⟨1, _⟩ => exact (mm_agg_lhs1 _ _).trans hj)
  have er : dot_S1024x2048_S2048x128_S1024x128_1_0_0_1_n_n.rhsIdx (ix2 p q) ((contrEquiv1 dot_S1024x2048_S2048x128_S1024x128_1_0_0_1_n_n 2048 rfl rfl).symm j) = ix2 j q := funext fun a => Fin.ext (by
    match a with
    | ⟨0, _⟩ => exact (mm_agg_rhs0 _ _).trans hj
    | ⟨1, _⟩ => exact mm_agg_rhs1 _ _)
  rw [el, er]

theorem mm_out_lhs0 (i : S1024x128.Idx) (c : dot_S1024x128_S128x128_S1024x128_1_0_0_1_n_n.contr.Idx) : (dot_S1024x128_S128x128_S1024x128_1_0_0_1_n_n.lhsIdx i c 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem mm_out_lhs1 (i : S1024x128.Idx) (c : dot_S1024x128_S128x128_S1024x128_1_0_0_1_n_n.contr.Idx) : (dot_S1024x128_S128x128_S1024x128_1_0_0_1_n_n.lhsIdx i c 1).val = (c ⟨0, by decide⟩).val :=
  dot_S1024x128_S128x128_S1024x128_1_0_0_1_n_n.lhsIdx_val_of_single rfl i c
theorem mm_out_rhs0 (i : S1024x128.Idx) (c : dot_S1024x128_S128x128_S1024x128_1_0_0_1_n_n.contr.Idx) : (dot_S1024x128_S128x128_S1024x128_1_0_0_1_n_n.rhsIdx i c 0).val = (c ⟨0, by decide⟩).val :=
  dot_S1024x128_S128x128_S1024x128_1_0_0_1_n_n.rhsIdx_val_of_single rfl i c
theorem mm_out_rhs1 (i : S1024x128.Idx) (c : dot_S1024x128_S128x128_S1024x128_1_0_0_1_n_n.contr.Idx) : (dot_S1024x128_S128x128_S1024x128_1_0_0_1_n_n.rhsIdx i c 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The aggregate block times the transposed weight: the sum over the 128 contracted channels. -/
theorem mm_out_apply {φ₁ φ₂ : FTy} (l : FVec Ideal S1024x128 φ₁) (r : FVec Ideal S128x128 φ₂) (p : Fin 1024) (q : Fin 128) :
    matmul dot_S1024x128_S128x128_S1024x128_1_0_0_1_n_n none l r (constant S1024x128 .f32 0x00000000#32) (ix2 p q) = ∑ j : Fin 128, l (ix2 p j) * r (ix2 j q) := by
  refine (Ideal.matmul_constant_zero_apply dot_S1024x128_S128x128_S1024x128_1_0_0_1_n_n none l r (ix2 p q)).trans ?_
  rw [← Equiv.sum_comp (contrEquiv1 dot_S1024x128_S128x128_S1024x128_1_0_0_1_n_n 128 rfl rfl).symm]
  refine Finset.sum_congr rfl fun j _ => ?_
  have hj := contrEquiv1_symm_val dot_S1024x128_S128x128_S1024x128_1_0_0_1_n_n 128 rfl rfl j
  have el : dot_S1024x128_S128x128_S1024x128_1_0_0_1_n_n.lhsIdx (ix2 p q) ((contrEquiv1 dot_S1024x128_S128x128_S1024x128_1_0_0_1_n_n 128 rfl rfl).symm j) = ix2 p j := funext fun a => Fin.ext (by
    match a with
    | ⟨0, _⟩ => exact mm_out_lhs0 _ _
    | ⟨1, _⟩ => exact (mm_out_lhs1 _ _).trans hj)
  have er : dot_S1024x128_S128x128_S1024x128_1_0_0_1_n_n.rhsIdx (ix2 p q) ((contrEquiv1 dot_S1024x128_S128x128_S1024x128_1_0_0_1_n_n 128 rfl rfl).symm j) = ix2 j q := funext fun a => Fin.ext (by
    match a with
    | ⟨0, _⟩ => exact (mm_out_rhs0 _ _).trans hj
    | ⟨1, _⟩ => exact mm_out_rhs1 _ _)
  rw [el, er]

/-! ## The three payloads -/

/-- The accumulator block is cleared to zero. -/
theorem pay1_apply (p : Fin 1024) (k : Fin 128) : k1_pay1 (F := Ideal) (ix2 p k) = 0 := by
  unfold k1_pay1
  simp only [shapeCast_self]
  exact Ideal.ofBits_zero_f32

/-- The accumulator block plus the product of the adjacency block with the feature block. -/
theorem pay2_apply (v3 : FVec Ideal S1024x128 .f32) (v4 : FVec Ideal S1024x2048 .bf16) (v6 : FVec Ideal S2048x128 .bf16)
    (p : Fin 1024) (k : Fin 128) :
    k1_pay2 v3 v4 v6 (ix2 p k) = v3 (ix2 p k) + ∑ j : Fin 2048, v4 (ix2 p j) * v6 (ix2 j k) := by
  unfold k1_pay2
  simp only [shapeCast_self]
  rw [addf_apply, mm_agg_apply]

/-- The scaled rows — `d * acc + (d * d) * x` with `d` the row's inverse square root degree — times the transposed weight,
    plus the bias. -/
theorem pay3_apply (v16 : FVec Ideal S1024x1 .f32) (v18 v22 : FVec Ideal S1024x128 .f32) (v27 : FVec Ideal S128x128 .f32)
    (v31 : FVec Ideal S1x128 .f32) (p : Fin 1024) (q : Fin 128) :
    k1_pay3 v16 v18 v22 v27 v31 (ix2 p q)
      = (∑ k : Fin 128, (v16 (ix2 p 0) * v18 (ix2 p k) + (v16 (ix2 p 0) * v16 (ix2 p 0)) * v22 (ix2 p k)) * v27 (ix2 k q))
        + v31 (ix2 0 q) := by
  unfold k1_pay3
  simp only [shapeCast_self]
  rw [addf_apply, mm_out_apply, broadcastTo_1b_ab_apply]
  refine congrArg (· + v31 (ix2 0 q)) (Finset.sum_congr rfl fun k _ => ?_)
  rw [truncf_apply, truncf_apply, addf_apply, mulf_apply, mulf_apply, broadcastTo_a1_ab_apply, broadcastTo_a1_ab_apply, mulf_apply]

end Cert.KernelIdeal.Hand

end
-- ==== Proof.KI.R1Blocks.lean ====
/-
  What the second kernel's six input windows show at a grid point, as elements of the arrays the region is entered with.

  The grid is 8 x 4, the second axis the fast one: point `t` is row block `t / 4`, reduction step `t % 4`. The adjacency
  window shows rows `1024 (t / 4) + p`, columns `2048 (t % 4) + j`; the scaled-feature window rows `2048 (t % 4) + j`; the
  scale column and the feature window rows `1024 (t / 4) + p`; the weight and the bias row are whole at every point. A
  block's coordinate on an axis is the block index times the block size plus the coordinate inside the block; the block
  indices are decided once over the 32 points.
-/
import proofs.«119681_j32641751449979_2_alg».proof.Proof.KI.R1Kit
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]
variable (V : (c : Dev nD) → (b : Ref sig .tc) → Buf (Elt F) ((c : Thread nD τ).loc b))

/-! ## The grid's size and the bounds of the coordinates -/

theorem t_lt (t : Fin cfg1.N) : t.val < 32 := lt_of_lt_of_eq t.isLt N_1

theorem row_lt (t : Fin cfg1.N) (p : Fin 1024) : 1024 * (t.val / 4) + p.val < 8192 := by
  have := t_lt t; have := p.isLt; omega

theorem col_lt (t : Fin cfg1.N) (j : Fin 2048) : 2048 * (t.val % 4) + j.val < 8192 := by
  have := j.isLt; omega

/-! ## The block indices, decided over the grid -/

theorem idx1_0 : ∀ t : Fin cfg1.N, win1_0.index t 0 = t.val / 4 ∧ win1_0.index t 1 = t.val % 4 :=
  (by decide +kernel : ∀ t : Fin grid1.N, win1_0.index t 0 = t.val / 4 ∧ win1_0.index t 1 = t.val % 4)
theorem idx1_1 : ∀ t : Fin cfg1.N, win1_1.index t 0 = t.val % 4 ∧ win1_1.index t 1 = 0 :=
  (by decide +kernel : ∀ t : Fin grid1.N, win1_1.index t 0 = t.val % 4 ∧ win1_1.index t 1 = 0)
theorem idx1_2 : ∀ t : Fin cfg1.N, win1_2.index t 0 = t.val / 4 ∧ win1_2.index t 1 = 0 :=
  (by decide +kernel : ∀ t : Fin grid1.N, win1_2.index t 0 = t.val / 4 ∧ win1_2.index t 1 = 0)
theorem idx1_3 : ∀ t : Fin cfg1.N, win1_3.index t 0 = t.val / 4 ∧ win1_3.index t 1 = 0 :=
  (by decide +kernel : ∀ t : Fin grid1.N, win1_3.index t 0 = t.val / 4 ∧ win1_3.index t 1 = 0)
theorem idx1_4 : ∀ t : Fin cfg1.N, win1_4.index t 0 = 0 ∧ win1_4.index t 1 = 0 :=
  (by decide +kernel : ∀ t : Fin grid1.N, win1_4.index t 0 = 0 ∧ win1_4.index t 1 = 0)
theorem idx1_5 : ∀ t : Fin cfg1.N, win1_5.index t 0 = 0 ∧ win1_5.index t 1 = 0 :=
  (by decide +kernel : ∀ t : Fin grid1.N, win1_5.index t 0 = 0 ∧ win1_5.index t 1 = 0)

/-! ## The six blocks -/

/-- The adjacency block: rows of row block `t / 4`, columns of reduction step `t % 4`. -/
theorem blk1_adj (c : Dev nD) (t : Fin cfg1.N) (p : Fin 1024) (j : Fin 2048) :
    (iblk1 V c 0 t : Vec F S1024x2048 .bf16) (ix2 p j) = V c main_v19 (ix2 (⟨1024 * (t.val / 4) + p.val, row_lt t p⟩ : Fin 8192) (⟨2048 * (t.val % 4) + j.val, col_lt t j⟩ : Fin 8192)) := by
  have hi := idx1_0 t
  unfold iblk1
  rw [View.read_apply]
  show V c main_v19 _ = V c main_v19 _
  congr 1
  funext a
  apply Fin.ext
  match a with
  | ⟨0, _⟩ => show win1_0.index t 0 * 1024 + 1 * p.val = 1024 * (t.val / 4) + p.val; rw [hi.1]; omega
  | ⟨1, _⟩ => show win1_0.index t 1 * 2048 + 1 * j.val = 2048 * (t.val % 4) + j.val; rw [hi.2]; omega

/-- The scaled-feature block: rows of reduction step `t % 4`, every channel. -/
theorem blk1_xs (c : Dev nD) (t : Fin cfg1.N) (j : Fin 2048) (k : Fin 128) :
    (iblk1 V c 1 t : Vec F S2048x128 .bf16) (ix2 j k) = V c main_v31 (ix2 (⟨2048 * (t.val % 4) + j.val, col_lt t j⟩ : Fin 8192) k) := by
  have hi := idx1_1 t
  unfold iblk1
  rw [View.read_apply]
  show V c main_v31 _ = V c main_v31 _
  congr 1
  funext a
  apply Fin.ext
  match a with
  | ⟨0, _⟩ => show win1_1.index t 0 * 2048 + 1 * j.val = 2048 * (t.val % 4) + j.val; rw [hi.1]; omega
  | ⟨1, _⟩ => show win1_1.index t 1 * 128 + 1 * k.val = k.val; rw [hi.2]; omega

/-- The scale column: rows of row block `t / 4`. -/
theorem blk1_scale (c : Dev nD) (t : Fin cfg1.N) (p : Fin 1024) :
    (iblk1 V c 2 t : Vec F S1024x1 .f32) (ix2 p (0 : Fin 1)) = V c main_v28 (ix2 (⟨1024 * (t.val / 4) + p.val, row_lt t p⟩ : Fin 8192) (0 : Fin 1)) := by
  have hi := idx1_2 t
  unfold iblk1
  rw [View.read_apply]
  show V c main_v28 _ = V c main_v28 _
  congr 1
  funext a
  apply Fin.ext
  match a with
  | ⟨0, _⟩ => show win1_2.index t 0 * 1024 + 1 * p.val = 1024 * (t.val / 4) + p.val; rw [hi.1]; omega
  | ⟨1, _⟩ => show win1_2.index t 1 * 1 + 1 * 0 = 0; rw [hi.2]

/-- The feature block: rows of row block `t / 4`, every channel. -/
theorem blk1_x (c : Dev nD) (t : Fin cfg1.N) (p : Fin 1024) (k : Fin 128) :
    (iblk1 V c 3 t : Vec F S1024x128 .f32) (ix2 p k) = V c main_arg0 (ix2 (⟨1024 * (t.val / 4) + p.val, row_lt t p⟩ : Fin 8192) k) := by
  have hi := idx1_3 t
  unfold iblk1
  rw [View.read_apply]
  show V c main_arg0 _ = V c main_arg0 _
  congr 1
  funext a
  apply Fin.ext
  match a with
  | ⟨0, _⟩ => show win1_3.index t 0 * 1024 + 1 * p.val = 1024 * (t.val / 4) + p.val; rw [hi.1]; omega
  | ⟨1, _⟩ => show win1_3.index t 1 * 128 + 1 * k.val = k.val; rw [hi.2]; omega

/-- The transposed weight, whole at every point. -/
theorem blk1_wt (c : Dev nD) (t : Fin cfg1.N) (k q : Fin 128) :
    (iblk1 V c 4 t : Vec F S128x128 .f32) (ix2 k q) = V c main_v32 (ix2 k q) := by
  have hi := idx1_4 t
  unfold iblk1
  rw [View.read_apply]
  show V c main_v32 _ = V c main_v32 _
  congr 1
  funext a
  apply Fin.ext
  match a with
  | ⟨0, _⟩ => show win1_4.index t 0 * 128 + 1 * k.val = k.val; rw [hi.1]; omega
  | ⟨1, _⟩ => show win1_4.index t 1 * 128 + 1 * q.val = q.val; rw [hi.2]; omega

/-- The bias row, whole at every point. -/
theorem blk1_brow (c : Dev nD) (t : Fin cfg1.N) (q : Fin 128) :
    (iblk1 V c 5 t : Vec F S1x128 .f32) (ix2 (0 : Fin 1) q) = V c main_v33 (ix2 (0 : Fin 1) q) := by
  have hi := idx1_5 t
  unfold iblk1
  rw [View.read_apply]
  show V c main_v33 _ = V c main_v33 _
  congr 1
  funext a
  apply Fin.ext
  match a with
  | ⟨0, _⟩ => show win1_5.index t 0 * 1 + 1 * 0 = 0; rw [hi.1]
  | ⟨1, _⟩ => show win1_5.index t 1 * 128 + 1 * q.val = q.val; rw [hi.2]; omega

end Cert.KernelIdeal.Hand

end
-- ==== Proof.KI.R1ValueB.lean ====
import proofs.«119681_j32641751449979_2_alg».proof.Proof.KI.R1ValueA
import proofs.«119681_j32641751449979_2_alg».proof.Proof.KI.R1Payloads
import proofs.«119681_j32641751449979_2_alg».proof.Proof.KI.R1Blocks
import proofs.«119681_j32641751449979_2_alg».proof.Proof.LibBlockedSum
import Idealize.ShloMosaic.Lib.ValueIdx
import Idealize.ShloMosaic.Lib.Pipeline.Value

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
/-! # The array the second call leaves, entry by entry, over the extended reals

Row r of the output is row r of the adjacency times the pre-scaled features, scaled by the row's factor, plus the
squared factor times the row's own features, all times the transposed weight, plus the bias. The kernel reaches the
inner product over the 8192 columns as four partial sums over the column blocks of 2048, added in order onto a zero
block; re-bracketing that sum is all the arithmetic used. -/

variable (V : (c : Dev nD) → (b : Ref sig .tc) → Buf (Elt Ideal) ((c : Thread nD τ).loc b))

/-- The six arrays the call reads, as the region finds them: the scale column, the adjacency, the pre-scaled
    features, the features, the transposed weight and the bias row. -/
abbrev scaleCol (c : Dev nD) : S8192x1.Idx → EReal := V c main_v28
abbrev adjMat (c : Dev nD) : S8192x8192.Idx → EReal := V c main_v19
abbrev preFeat (c : Dev nD) : S8192x128.Idx → EReal := V c main_v31
abbrev featMat (c : Dev nD) : S8192x128.Idx → EReal := V c main_arg0
abbrev weightT (c : Dev nD) : S128x128.Idx → EReal := V c main_v32
abbrev biasRow (c : Dev nD) : S1x128.Idx → EReal := V c main_v33

/-- The value at row r, output channel q, from the arrays as the region finds them. -/
def aggAt (c : Dev nD) (r : Fin 8192) (q : Fin 128) : EReal :=
  (∑ k : Fin 128,
      (scaleCol V c (ix2 r (0 : Fin 1))
          * (∑ j : Fin 8192, adjMat V c (ix2 r j) * preFeat V c (ix2 j k))
        + (scaleCol V c (ix2 r (0 : Fin 1)) * scaleCol V c (ix2 r (0 : Fin 1))) * featMat V c (ix2 r k))
      * weightT V c (ix2 k q))
    + biasRow V c (ix2 (0 : Fin 1) q)

/-- The same as one array. -/
def aggOut (c : Dev nD) : S8192x128.Idx → EReal := fun i => aggAt V c (i 0) (i 1)

/-! ## Four column blocks make the whole contraction -/

/-- Column j of column block s. -/
def colAt (s : Fin 4) (j : Fin 2048) : Fin 8192 := ⟨s.val * 2048 + j.val, by have := s.isLt; have := j.isLt; omega⟩

/-- The four partial sums, added in order onto zero, are the sum over all columns. -/
theorem join_cols (f : Fin 8192 → EReal) :
    (((0 + ∑ j : Fin 2048, f (colAt 0 j)) + ∑ j : Fin 2048, f (colAt 1 j)) + ∑ j : Fin 2048, f (colAt 2 j))
        + ∑ j : Fin 2048, f (colAt 3 j) = ∑ i : Fin 8192, f i := by
  rw [zero_add]
  exact ((BlockedSum.sum_eq_sum_blocks 4 2048 (fun i : Fin (4 * 2048) => f ⟨i.val, i.isLt⟩)).trans (Fin.sum_univ_four _)).symm

/-- The epilogue of four accumulation steps from the zero block, at an entry, when the blocks' entries are those of
    one row of a scale column D, a feature row Xr, an adjacency row Ar cut into four column blocks, the matching four
    row blocks of Xs, a weight Wt and a bias B. -/
theorem rowblock_value (d : FVec Ideal S1024x1 .f32) (x : FVec Ideal S1024x128 .f32) (wt : FVec Ideal S128x128 .f32)
    (b : FVec Ideal S1x128 .f32) (A0 A1 A2 A3 : FVec Ideal S1024x2048 .bf16) (X0 X1 X2 X3 : FVec Ideal S2048x128 .bf16)
    (p : Fin 1024) (q : Fin 128)
    (D : EReal) (Xr : Fin 128 → EReal) (Ar : Fin 8192 → EReal) (Xs : Fin 8192 → Fin 128 → EReal)
    (Wt : Fin 128 → Fin 128 → EReal) (B : Fin 128 → EReal)
    (hd : d (ix2 p 0) = D) (hx : ∀ k, x (ix2 p k) = Xr k) (hwt : ∀ k q, wt (ix2 k q) = Wt k q) (hb : ∀ q, b (ix2 0 q) = B q)
    (hA0 : ∀ j, A0 (ix2 p j) = Ar (colAt 0 j)) (hA1 : ∀ j, A1 (ix2 p j) = Ar (colAt 1 j))
    (hA2 : ∀ j, A2 (ix2 p j) = Ar (colAt 2 j)) (hA3 : ∀ j, A3 (ix2 p j) = Ar (colAt 3 j))
    (hX0 : ∀ j k, X0 (ix2 j k) = Xs (colAt 0 j) k) (hX1 : ∀ j k, X1 (ix2 j k) = Xs (colAt 1 j) k)
    (hX2 : ∀ j k, X2 (ix2 j k) = Xs (colAt 2 j) k) (hX3 : ∀ j k, X3 (ix2 j k) = Xs (colAt 3 j) k) :
    k1_pay3 (F := Ideal) d (k1_pay2 (F := Ideal) (k1_pay2 (F := Ideal) (k1_pay2 (F := Ideal) (k1_pay2 (F := Ideal) (k1_pay1 (F := Ideal)) A0 X0) A1 X1) A2 X2) A3 X3) x wt b (ix2 p q)
      = (∑ k : Fin 128, (D * (∑ i : Fin 8192, Ar i * Xs i k) + (D * D) * Xr k) * Wt k q) + B q := by
  rw [pay3_apply, hd, hb]
  refine congrArg (· + B q) (Finset.sum_congr rfl fun k _ => ?_)
  rw [pay2_apply, pay2_apply, pay2_apply, pay2_apply, pay1_apply, hx, hwt]
  simp only [hA0, hA1, hA2, hA3, hX0, hX1, hX2, hX3]
  exact congrArg (fun S => (D * S + (D * D) * Xr k) * Wt k q) (join_cols (fun i => Ar i * Xs i k))

/-! ## The blocks of a row block's four points, as rows and columns of the arrays -/

theorem adj_at (c : Dev nD) (t : Fin cfg1.N) (m : ℕ) (s : Fin 4) (ht : t.val = 4 * m + s.val) (p : Fin 1024)
    (r : Fin 8192) (hr : r.val = 1024 * m + p.val) (j : Fin 2048) :
    (iblk1 V c 0 t : Vec Ideal S1024x2048 .bf16) (ix2 p j) = adjMat V c (ix2 r (colAt s j)) := by
  rw [blk1_adj V c t p j]
  have hs := s.isLt
  refine congrArg₂ (fun a b => adjMat V c (ix2 a b)) (Fin.ext ?_) (Fin.ext ?_)
  · show 1024 * (t.val / 4) + p.val = r.val; omega
  · show 2048 * (t.val % 4) + j.val = s.val * 2048 + j.val; omega

theorem xs_at (c : Dev nD) (t : Fin cfg1.N) (m : ℕ) (s : Fin 4) (ht : t.val = 4 * m + s.val) (j : Fin 2048) (k : Fin 128) :
    (iblk1 V c 1 t : Vec Ideal S2048x128 .bf16) (ix2 j k) = preFeat V c (ix2 (colAt s j) k) := by
  rw [blk1_xs V c t j k]
  have hs := s.isLt
  refine congrArg (fun a => preFeat V c (ix2 a k)) (Fin.ext ?_)
  show 2048 * (t.val % 4) + j.val = s.val * 2048 + j.val; omega

theorem scale_at (c : Dev nD) (t : Fin cfg1.N) (m : ℕ) (s : Fin 4) (ht : t.val = 4 * m + s.val) (p : Fin 1024)
    (r : Fin 8192) (hr : r.val = 1024 * m + p.val) :
    (iblk1 V c 2 t : Vec Ideal S1024x1 .f32) (ix2 p (0 : Fin 1)) = scaleCol V c (ix2 r (0 : Fin 1)) := by
  rw [blk1_scale V c t p]
  have hs := s.isLt
  refine congrArg (fun a => scaleCol V c (ix2 a (0 : Fin 1))) (Fin.ext ?_)
  show 1024 * (t.val / 4) + p.val = r.val; omega

theorem feat_at (c : Dev nD) (t : Fin cfg1.N) (m : ℕ) (s : Fin 4) (ht : t.val = 4 * m + s.val) (p : Fin 1024)
    (r : Fin 8192) (hr : r.val = 1024 * m + p.val) (k : Fin 128) :
    (iblk1 V c 3 t : Vec Ideal S1024x128 .f32) (ix2 p k) = featMat V c (ix2 r k) := by
  rw [blk1_x V c t p k]
  have hs := s.isLt
  refine congrArg (fun a => featMat V c (ix2 a k)) (Fin.ext ?_)
  show 1024 * (t.val / 4) + p.val = r.val; omega

/-! ## The output block a row block's last point stores -/

/-- Entry (p, q) of the block stored at the last point of row block m is the value at row 1024 m + p. -/
theorem out_block_value (c : Dev nD) (m : ℕ) (h : 4 * m + 3 < cfg1.N) (p : Fin 1024) (q : Fin 128)
    (r : Fin 8192) (hr : r.val = 1024 * m + p.val) :
    (outsAt1 V c (4 * m + 3) h).1 (ix2 p q) = aggAt V c r q := by
  rw [out_rowblock1 V c m h]
  unfold accRow aggAt
  exact rowblock_value (iblk1 V c 2 ⟨4 * m + 3, h⟩) (iblk1 V c 3 ⟨4 * m + 3, h⟩) (iblk1 V c 4 ⟨4 * m + 3, h⟩) (iblk1 V c 5 ⟨4 * m + 3, h⟩)
    (iblk1 V c 0 ⟨4 * m, by omega⟩) (iblk1 V c 0 ⟨4 * m + 1, by omega⟩) (iblk1 V c 0 ⟨4 * m + 2, by omega⟩) (iblk1 V c 0 ⟨4 * m + 3, h⟩)
    (iblk1 V c 1 ⟨4 * m, by omega⟩) (iblk1 V c 1 ⟨4 * m + 1, by omega⟩) (iblk1 V c 1 ⟨4 * m + 2, by omega⟩) (iblk1 V c 1 ⟨4 * m + 3, h⟩) p q
    (scaleCol V c (ix2 r (0 : Fin 1))) (fun k => featMat V c (ix2 r k)) (fun i => adjMat V c (ix2 r i))
    (fun i k => preFeat V c (ix2 i k)) (fun k q => weightT V c (ix2 k q)) (fun q => biasRow V c (ix2 (0 : Fin 1) q))
    (scale_at V c ⟨4 * m + 3, h⟩ m 3 rfl p r hr) (fun k => feat_at V c ⟨4 * m + 3, h⟩ m 3 rfl p r hr k)
    (fun k q => blk1_wt V c ⟨4 * m + 3, h⟩ k q) (fun q => blk1_brow V c ⟨4 * m + 3, h⟩ q)
    (fun j => adj_at V c ⟨4 * m, by omega⟩ m 0 rfl p r hr j) (fun j => adj_at V c ⟨4 * m + 1, by omega⟩ m 1 rfl p r hr j)
    (fun j => adj_at V c ⟨4 * m + 2, by omega⟩ m 2 rfl p r hr j) (fun j => adj_at V c ⟨4 * m + 3, h⟩ m 3 rfl p r hr j)
    (fun j k => xs_at V c ⟨4 * m, by omega⟩ m 0 rfl j k) (fun j k => xs_at V c ⟨4 * m + 1, by omega⟩ m 1 rfl j k)
    (fun j k => xs_at V c ⟨4 * m + 2, by omega⟩ m 2 rfl j k) (fun j k => xs_at V c ⟨4 * m + 3, h⟩ m 3 rfl j k)

/-! ## From the blocks to the array -/

/-- The output window's block index at point t: its row block. -/
theorem idx1_6 : ∀ t : Fin cfg1.N, win1_6.index t 0 = t.val / 4 ∧ win1_6.index t 1 = 0 :=
  (by decide +kernel : ∀ t : Fin grid1.N, win1_6.index t 0 = t.val / 4 ∧ win1_6.index t 1 = 0)

/-- What a point that writes back writes: its block of the one array. -/
theorem flushed1_6 (c : Dev nD) (t : Fin cfg1.N) (hf : (cfg1.win 6).flush t = true) :
    (dat1 V c).flushed 6 t = ((cfg1.win 6).blk t).view.read (Elt Ideal) (aggOut V c) := by
  have h3 : t.val % 4 = 3 := (flush1_6 t).mp hf
  have hN : t.val < 32 := lt_of_lt_of_eq t.isLt N_1
  obtain ⟨n, hn⟩ := t
  obtain ⟨m, rfl⟩ : ∃ m, n = 4 * m + 3 := ⟨n / 4, by (try dsimp only at h3); omega⟩
  have hm : m < 8 := by (try dsimp only at hN); omega
  obtain ⟨e0, e1⟩ := idx1_6 ⟨4 * m + 3, hn⟩
  show (cfg1.win 6).cut (grid1.coords ⟨4 * m + 3, hn⟩) ((dat1 V c).after 6 ⟨4 * m + 3, hn⟩) = _
  rw [after1_6]
  funext y
  obtain ⟨p, q, rfl⟩ : ∃ (p : Fin 1024) (q : Fin 128), y = ix2 p q := ⟨y 0, y 1, eq_ix2 y⟩
  rw [View.read_apply]
  show (outsAt1 V c (4 * m + 3) hn).1 (ix2 p q) = aggOut V c (((cfg1.win 6).blk ⟨4 * m + 3, hn⟩).view.emb (ix2 p q))
  rw [out_block_value V c m hn p q ⟨1024 * m + p.val, by have := p.isLt; omega⟩ rfl]
  unfold aggOut
  refine congrArg₂ (aggAt V c) (Fin.ext ?_) (Fin.ext ?_)
  · show 1024 * m + p.val = win1_6.index ⟨4 * m + 3, hn⟩ 0 * 1024 + 1 * p.val
    rw [e0]; show 1024 * m + p.val = (4 * m + 3) / 4 * 1024 + 1 * p.val; omega
  · show q.val = win1_6.index ⟨4 * m + 3, hn⟩ 1 * 128 + 1 * q.val
    rw [e1]; omega

/-- An entry of the array lies in a point's block iff each coordinate lies in the block's range. -/
theorem mem_blk1_6 (t : Fin cfg1.N) (i : S8192x128.Idx) :
    i ∈ ((cfg1.win 6).blk t).view.set ↔ ∀ a : Fin 2, win1_6.index t a * S1024x128.size a ≤ (i a).val
      ∧ (i a).val < win1_6.index t a * S1024x128.size a + S1024x128.size a := by
  show i ∈ ((View.whole main_v34).slice (win1_6.rect t)).set ↔ _
  rw [View.set_slice_whole, Rect.mem_set_unit]
  exact Iff.rfl

/-- Every entry is written back: row r by the last point of its row block, point 4 (r / 1024) + 3. -/
theorem cover1_6 (i : S8192x128.Idx) : ∃ t : Fin cfg1.N, (cfg1.win 6).flush t = true ∧ i ∈ ((cfg1.win 6).blk t).view.set := by
  have hi0 : (i 0).val < 8192 := (i 0).isLt
  have hi1 : (i 1).val < 128 := (i 1).isLt
  have hN : cfg1.N = 32 := N_1
  have ht : 4 * ((i 0).val / 1024) + 3 < cfg1.N := by rw [hN]; omega
  obtain ⟨e0, e1⟩ := idx1_6 ⟨4 * ((i 0).val / 1024) + 3, ht⟩
  refine ⟨⟨4 * ((i 0).val / 1024) + 3, ht⟩, (flush1_6 _).mpr (by show (4 * ((i 0).val / 1024) + 3) % 4 = 3; omega), ?_⟩
  rw [mem_blk1_6]
  intro a
  match a with
  | ⟨0, _⟩ =>
    show win1_6.index ⟨4 * ((i 0).val / 1024) + 3, ht⟩ 0 * 1024 ≤ (i 0).val
      ∧ (i 0).val < win1_6.index ⟨4 * ((i 0).val / 1024) + 3, ht⟩ 0 * 1024 + 1024
    rw [e0]; show (4 * ((i 0).val / 1024) + 3) / 4 * 1024 ≤ (i 0).val ∧ (i 0).val < (4 * ((i 0).val / 1024) + 3) / 4 * 1024 + 1024
    omega
  | ⟨1, _⟩ =>
    show win1_6.index ⟨4 * ((i 0).val / 1024) + 3, ht⟩ 1 * 128 ≤ (i 1).val
      ∧ (i 1).val < win1_6.index ⟨4 * ((i 0).val / 1024) + 3, ht⟩ 1 * 128 + 128
    rw [e1]; omega

/-- So the output array ends as the one array. -/
theorem arrAt1_6 (c : Dev nD) : (dat1 V c).arrAt 6 cfg1.N = aggOut V c :=
  (dat1 V c).arrAt_eq_of_cover 6 (aggOut V c) (flushed1_6 V c) (cover1_6)

/-- Entry (r, q) of the array the second call leaves. -/
theorem agg_array (c : Dev nD) (r : Fin 8192) (q : Fin 128) :
    ((dat1 (F := Ideal) V c).arrAt 6 cfg1.N : S8192x128.Idx → EReal) (ix2 r q)
      = (∑ k : Fin 128,
            (scaleCol V c (ix2 r (0 : Fin 1)) * (∑ j : Fin 8192, adjMat V c (ix2 r j) * preFeat V c (ix2 j k))
              + (scaleCol V c (ix2 r (0 : Fin 1)) * scaleCol V c (ix2 r (0 : Fin 1))) * featMat V c (ix2 r k))
            * weightT V c (ix2 k q))
          + biasRow V c (ix2 (0 : Fin 1) q) := by
  rw [arrAt1_6 V c]
  rfl

end Cert.KernelIdeal.Hand

end
-- ==== Proof.KI.Result.lean ====
/-
  The kernel program's result as a function of its arguments: with `A` the scattered adjacency, `d` the scale, the
  aggregation pass leaves `(∑ k, (d i * (∑ j, A i j * (d j * x j k)) + (d i * d i) * x i k) * W q k) + b q` at `(i, q)` —
  the fused closed form.
-/
import proofs.«119681_j32641751449979_2_alg».proof.Proof.KI.ResultA
import proofs.«119681_j32641751449979_2_alg».proof.Proof.KI.R1ValueB

noncomputable section

namespace Cert.KernelIdeal.Hand

open Idealize.ShloMosaic Idealize.ShloMosaic.ValueIdx Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The result array is the fused closed form of the arguments. -/
theorem result_eq (c : Dev nD) :
    (dat1 (F := Ideal) (V5 m) c).arrAt 6 cfg1.N
      = fun i => Cert.Spec.outK (adjK m c) (featK m c) (weightK m c) (biasK m c) (i 0) (i 1) := by
  funext i
  obtain ⟨r, q, rfl⟩ : ∃ (r : Fin 8192) (q : Fin 128), i = ix2 r q := ⟨i 0, i 1, eq_ix2 i⟩
  refine (agg_array (V5 m) c r q).trans ?_
  dsimp only [scaleCol, adjMat, preFeat, featMat, weightT, biasRow]
  simp only [scaleK_at m c, scaledK_at m c, weightK_at m c, biasK_at m c, adjK_at m c, featK_at m c]
  rfl

end Cert.KernelIdeal.Hand

end
-- ==== Proof.RefValue.lean ====
/-
  The reference program computes, index by index over the extended reals, the dense closed form `Cert.Spec.outR`.

  The reference builds a dense adjacency by scattering the value 1 into a zero matrix at the positions an index array names,
  adds the identity (an equality test of the row and column numbers, converted to a float), sums each row into a degree,
  takes `1 / sqrt` of the degree where it is positive and `0` elsewhere, scales the matrix by that vector on the rows and on
  the columns, multiplies by the features, then by the transposed weight, and adds the bias.

  Two terms stay closed throughout: `prep e`, the index array the scatter reads — the reference's own chain on the edge list
  (rows 0 and 1, negative entries wrapped by adding 8192, the two columns joined) —, and `adj e`, the scattered matrix read
  at a row and a column. Everything downstream of them is pointwise, a row sum, or a contraction, and is read one stage at
  a time: the identity, the degree, its inverse square root, the normalised matrix, the aggregate, the output.
-/
import proofs.«119681_j32641751449979_2_alg».proof.Proof.RefRead
import proofs.«119681_j32641751449979_2_alg».proof.Proof.Spec

noncomputable section

open scoped BigOperators

namespace Cert.RefSide

open Idealize.ShloMosaic Idealize.ShloMosaic.ValueIdx Idealize.ShloMosaic.TcCoe Idealize.SL.Sem
open Cert.ReferenceIdeal Cert.ReferenceIdeal.Gen Cert.ReferenceIdeal.Read

/-- The index array the reference scatters at: its own chain on the edge list (slice rows 0 and 1, reshape, wrap negatives
    by adding 8192, broadcast to columns, concatenate). -/
def prep (e : (⟨S2x262144, .i32⟩ : BufTy).Contents (Elt Ideal)) : (⟨S262144x2, .i32⟩ : BufTy).Contents (Elt Ideal) :=
  concatenate S262144x2 1 [⟨S262144x1, (broadcastInDim S262144x1 ![0] bcast_S262144_S262144x1_0 (select (cmpi .slt (shapeCast _ (extractStridedSlice S1x262144 ![0, 0] e slices_S2x262144_S1x262144_0_0) shapeCasts_S1x262144_S262144) (broadcastInDim S262144 ![] bcast_S_S262144 (constantI S_ 32 0#32))) (addi (shapeCast _ (extractStridedSlice S1x262144 ![0, 0] e slices_S2x262144_S1x262144_0_0) shapeCasts_S1x262144_S262144) (broadcastInDim S262144 ![] bcast_S_S262144 (constantI S_ 32 8192#32))) (shapeCast _ (extractStridedSlice S1x262144 ![0, 0] e slices_S2x262144_S1x262144_0_0) shapeCasts_S1x262144_S262144)))⟩, ⟨S262144x1, (broadcastInDim S262144x1 ![0] bcast_S262144_S262144x1_0 (select (cmpi .slt (shapeCast _ (extractStridedSlice S1x262144 ![1, 0] e slices_S2x262144_S1x262144_1_0) shapeCasts_S1x262144_S262144) (broadcastInDim S262144 ![] bcast_S_S262144 (constantI S_ 32 0#32))) (addi (shapeCast _ (extractStridedSlice S1x262144 ![1, 0] e slices_S2x262144_S1x262144_1_0) shapeCasts_S1x262144_S262144) (broadcastInDim S262144 ![] bcast_S_S262144 (constantI S_ 32 8192#32))) (shapeCast _ (extractStridedSlice S1x262144 ![1, 0] e slices_S2x262144_S1x262144_1_0) shapeCasts_S1x262144_S262144)))⟩] concatenates_S262144x1_S262144x1_S262144x2_d1

/-- The dense adjacency: the value 1 scattered (a later write replacing an earlier one) into the zero matrix at the
    positions `prep e` names, read at row `i` and column `j`. -/
def adj (e : (⟨S2x262144, .i32⟩ : BufTy).Contents (Elt Ideal)) : Fin 8192 → Fin 8192 → EReal := fun i j =>
  Host.scatter scatter_S8192x8192_S262144x2_S262144_n_01_01_1 (fun _ b => b) (fun _ => (0 : EReal)) (prep e) (fun _ => (1 : EReal)) (ix2 i j)

/-! ## The two float constants -/

/-- The pattern `0x3F800000` denotes the real number one: sign 0, exponent 127, significand 0. -/
theorem ofBits_one_f32 : Ideal.ofBits .f32 0x3F800000#32 = 1 := by
  simp [Ideal.ofBits, Ideal.ieee]
  rw [← EReal.coe_mul, ← EReal.coe_one]
  norm_num

/-! ## The scatter's operands: the zero matrix, the index array, the ones -/

theorem zeros_eq : val_main_v0 (F := Ideal) = fun _ => (0 : EReal) := by
  funext i
  rw [val_main_v0_apply, val_main_cst_apply]
  exact Ideal.ofBits_zero_f32

theorem ones_eq : val_main_v18 (F := Ideal) = fun _ => (1 : EReal) := by
  funext i
  rw [val_main_v18_apply, val_main_cst_3_apply]
  exact ofBits_one_f32

theorem prep_eq (x1 : (⟨S2x262144, .i32⟩ : BufTy).Contents (Elt Ideal)) : val_main_v17 (F := Ideal) x1 = prep x1 := rfl

/-- The scattered matrix at a row and a column is `adj`. -/
theorem scattered_at (x1 : (⟨S2x262144, .i32⟩ : BufTy).Contents (Elt Ideal)) (i j : Fin 8192) : val_main_v19 (F := Ideal) x1 (ix2 i j) = adj x1 i j := by
  unfold val_main_v19 adj
  rw [zeros_eq, ones_eq, prep_eq]

/-! ## The identity matrix -/

/-- The row number equals the column number, as 32-bit words, exactly when the row is the column: both are below `2 ^ 32`. -/
theorem ofNat_eq_iff (i j : Fin 8192) : BitVec.ofNat 32 i.val = BitVec.ofNat 32 j.val ↔ i = j := by
  constructor
  · intro h
    have h' := congrArg BitVec.toNat h
    simp only [BitVec.toNat_ofNat] at h'
    have hi := i.isLt
    have hj := j.isLt
    exact Fin.ext (by omega)
  · rintro rfl; rfl

/-- The equality test of the two iotas, converted to a float, is the identity matrix. -/
theorem eye_at (i j : Fin 8192) : val_main_v25 (F := Ideal) (ix2 i j) = Cert.Spec.eye i j := by
  rw [val_main_v25_apply, val_main_v24_apply, val_main_v23_apply, val_main_v20_apply, val_main_v21_apply, val_main_v22_apply,
    val_main_c_4_apply]
  show (((IntOp.cmpi .eq (IntOp.addi (BitVec.ofNat 32 i.val) 0#32) (BitVec.ofNat 32 j.val)).toNat : ℝ) : EReal) = Cert.Spec.eye i j
  unfold Cert.Spec.eye
  simp only [IntOp.cmpi, IntOp.addi, BitVec.add_zero]
  by_cases h : i = j
  · subst h; simp
  · have hne : ¬ BitVec.ofNat 32 i.val = BitVec.ofNat 32 j.val := fun e => h ((ofNat_eq_iff i j).mp e)
    simp [h, hne]

/-- The adjacency with the self-loops added. -/
theorem loops_at (x1 : (⟨S2x262144, .i32⟩ : BufTy).Contents (Elt Ideal)) (i j : Fin 8192) :
    val_main_v26 (F := Ideal) x1 (ix2 i j) = adj x1 i j + Cert.Spec.eye i j := by
  rw [val_main_v26_apply, scattered_at, eye_at, Ideal.addf_def]

/-! ## The degree and its inverse square root -/

theorem idx_row (i k : Fin 8192) : idx_main_v27 (ix1 i) k = ix2 i k := funext fun a => Fin.ext (by match a with | ⟨0, _⟩ => rfl | ⟨1, _⟩ => rfl)

/-- The row sum, from the initial value zero. -/
theorem deg_at (x1 : (⟨S2x262144, .i32⟩ : BufTy).Contents (Elt Ideal)) (i : Fin 8192) : val_main_v27 (F := Ideal) x1 (ix1 i) = Cert.Spec.degR (adj x1) i := by
  rw [val_main_v27_apply, val_main_cst_5_apply, Ideal.ofBits_def, Ideal.ofBits_zero_f32]
  unfold Cert.Spec.degR
  refine congrArg (0 + ·) (Finset.sum_congr rfl fun k _ => ?_)
  rw [idx_row, loops_at]

/-- One element of the chain compare-greater-than-zero / square root / one-over / select: the inverse square root of a
    degree where the degree is positive, zero elsewhere. -/
theorem dinv_select (g : EReal) :
    Scalar.select (Ideal.cmp .ogt g 0) (Ideal.div 1 (Ideal.sqrt g)) (0 : EReal) = Cert.Spec.dinv g := by
  unfold Cert.Spec.dinv Scalar.select Ideal.cmp
  by_cases h : 0 < g
  · simp [h]
  · simp [h]

theorem dinv_at (x1 : (⟨S2x262144, .i32⟩ : BufTy).Contents (Elt Ideal)) (i : Fin 8192) : val_main_v33 (F := Ideal) x1 (ix1 i) = Cert.Spec.dR (adj x1) i := by
  rw [val_main_v33_apply, val_main_v29_apply, val_main_v32_apply, val_main_v30_apply, val_main_v28_apply, val_main_v31_apply,
    val_main_call0_v1_apply, val_main_call0_v0_apply, val_main_cst_6_apply, val_main_cst_7_apply, val_main_cst_8_apply, deg_at]
  simp only [Ideal.ofBits_def, Ideal.ofBits_zero_f32, ofBits_one_f32, Ideal.cmpf_def, Ideal.hostDivf_def, Ideal.hostUnary_sqrt_def]
  exact dinv_select _

/-! ## The normalised adjacency -/

theorem idx_rowvec (i j : Fin 8192) : idx_main_v34 (idx_main_v35 (ix2 i j)) = ix1 i := funext fun a => Fin.ext (by match a with | ⟨0, _⟩ => rfl)
theorem idx_colvec (i j : Fin 8192) : idx_main_v37 (idx_main_v38 (ix2 i j)) = ix1 j := funext fun a => Fin.ext (by match a with | ⟨0, _⟩ => rfl)

theorem norm_at (x1 : (⟨S2x262144, .i32⟩ : BufTy).Contents (Elt Ideal)) (i j : Fin 8192) : val_main_v39 (F := Ideal) x1 (ix2 i j) = Cert.Spec.normR (adj x1) i j := by
  rw [val_main_v39_apply, val_main_v36_apply, val_main_v35_apply, val_main_v34_apply, val_main_v38_apply, val_main_v37_apply,
    idx_rowvec, idx_colvec, dinv_at, dinv_at, loops_at, Ideal.mulf_def, Ideal.mulf_def]
  rfl

/-! ## The aggregate: the normalised adjacency times the features -/

theorem lidx_agg (i : Fin 8192) (k : Fin 128) (j : Fin 8192) : lidx_main_v40 (ix2 i k) j = ix2 i j := funext fun a => Fin.ext (by match a with | ⟨0, _⟩ => rfl | ⟨1, _⟩ => rfl)
theorem ridx_agg (i : Fin 8192) (k : Fin 128) (j : Fin 8192) : ridx_main_v40 (ix2 i k) j = ix2 j k := funext fun a => Fin.ext (by match a with | ⟨0, _⟩ => rfl | ⟨1, _⟩ => rfl)

theorem agg_at (x0 : (⟨S8192x128, .f32⟩ : BufTy).Contents (Elt Ideal)) (x1 : (⟨S2x262144, .i32⟩ : BufTy).Contents (Elt Ideal)) (i : Fin 8192) (k : Fin 128) :
    val_main_v40 (F := Ideal) x0 x1 (ix2 i k) = Cert.Spec.aggR (adj x1) (fun j k => x0 (ix2 j k)) i k := by
  rw [val_main_v40_apply]
  unfold Cert.Spec.aggR
  refine Finset.sum_congr rfl fun j _ => ?_
  rw [lidx_agg, ridx_agg, norm_at]

/-! ## The output: the aggregate times the transposed weight, plus the bias -/

theorem lidx_out (p : Fin 8192) (q k : Fin 128) : lidx_main_v42 (ix2 p q) k = ix2 p k := funext fun a => Fin.ext (by match a with | ⟨0, _⟩ => rfl | ⟨1, _⟩ => rfl)
theorem ridx_out (p : Fin 8192) (q k : Fin 128) : idx_main_v41 (ridx_main_v42 (ix2 p q) k) = ix2 q k := funext fun a => Fin.ext (by match a with | ⟨0, _⟩ => rfl | ⟨1, _⟩ => rfl)
theorem idx_bias (p : Fin 8192) (q : Fin 128) : idx_main_v43 (idx_main_v44 (ix2 p q)) = ix1 q := funext fun a => Fin.ext (by match a with | ⟨0, _⟩ => rfl)

theorem out_at (x0 : (⟨S8192x128, .f32⟩ : BufTy).Contents (Elt Ideal)) (x1 : (⟨S2x262144, .i32⟩ : BufTy).Contents (Elt Ideal)) (x2 : (⟨S128x128, .f32⟩ : BufTy).Contents (Elt Ideal)) (x3 : (⟨S128, .f32⟩ : BufTy).Contents (Elt Ideal)) (p : Fin 8192) (q : Fin 128) :
    val_main_v45 (F := Ideal) x0 x1 x2 x3 (ix2 p q)
      = Cert.Spec.outR (adj x1) (fun j k => x0 (ix2 j k)) (fun q k => x2 (ix2 q k)) (fun q => x3 (ix1 q)) p q := by
  rw [val_main_v45_apply, val_main_v42_apply, val_main_v44_apply, val_main_v43_apply, idx_bias, Ideal.addf_def]
  unfold Cert.Spec.outR
  refine congrArg (· + x3 (ix1 q)) (Finset.sum_congr rfl fun k _ => ?_)
  rw [lidx_out, val_main_v41_apply, ridx_out, agg_at]

/-- The reference's last stage, as a function of the four arguments' contents, is the dense closed form. -/
theorem ref_eq (x0 : (⟨S8192x128, .f32⟩ : BufTy).Contents (Elt Ideal)) (x1 : (⟨S2x262144, .i32⟩ : BufTy).Contents (Elt Ideal)) (x2 : (⟨S128x128, .f32⟩ : BufTy).Contents (Elt Ideal)) (x3 : (⟨S128, .f32⟩ : BufTy).Contents (Elt Ideal)) :
    val_main_v45 (F := Ideal) x0 x1 x2 x3
      = fun i => Cert.Spec.outR (adj x1) (fun j k => x0 (ix2 j k)) (fun q k => x2 (ix2 q k)) (fun q => x3 (ix1 q)) (i 0) (i 1) := by
  funext i
  obtain ⟨p, q, rfl⟩ : ∃ (p : Fin 8192) (q : Fin 128), i = ix2 p q := ⟨i 0, i 1, eq_ix2 i⟩
  exact out_at x0 x1 x2 x3 p q

/-! ## The run -/

/-- On every device, from any memory with zero counters: every weakly fair execution of the reference terminates with its
    result at the dense closed form of the arguments' launch contents, the arguments unchanged. -/
theorem run (m' : (ℓ : Loc nD τ sig) → Buf (Elt Ideal) ℓ) (ρ' : Dev nD → PrngReg) :
    θ_run (Cert.ReferenceIdeal.defs (F := Ideal)) (onTc (τ := τ) (Cert.ReferenceIdeal.main (F := Ideal))) ⟨m', fun _ => 0, ρ'⟩ (fun r => ∀ c : Dev nD,
      r.2.mem ((c.tc : Thread nD τ).loc main_v45) = (fun i => Cert.Spec.outR (adj (m' ((c.tc : Thread nD τ).loc main_arg1))) (fun j k => m' ((c.tc : Thread nD τ).loc main_arg0) (ix2 j k)) (fun q k => m' ((c.tc : Thread nD τ).loc main_arg2) (ix2 q k)) (fun q => m' ((c.tc : Thread nD τ).loc main_arg3) (ix1 q)) (i 0) (i 1))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) :=
  (θ_run Cert.ReferenceIdeal.defs _ _).mono
    (fun _ h c => ⟨(h c).1.trans ((val_main_v45_eq m' c).trans (ref_eq _ _ _ _)), (h c).2⟩)
    (Cert.ReferenceIdeal.Value.run (F := Ideal) m' ρ')

end Cert.RefSide

end
-- ==== Proof.Bridge.lean ====
/-
  The fused and the dense closed forms of the graph-convolution layer agree when the adjacency entries are
  zero or one and the features are real.

  Both degrees are the same extended real: the dense one is the sum over a row of the adjacency plus the
  identity, and the row of the identity sums to one. A degree is then the coercion of a real, and so is its
  inverse square root. With the adjacency, the scales and the features all real, both aggregates are coercions
  of real sums, and over the reals
  ∑ j, ((a i j + δ i j) * d i) * d j * x j k = d i * ∑ j, a i j * (d j * x j k) + (d i * d i) * x i k.
  The weight and the bias enter both forms through the same expression of the aggregate, so nothing is asked
  of them (they may be infinite, and nothing is distributed over them).
-/
import proofs.«119681_j32641751449979_2_alg».proof.Proof.Spec
import Mathlib.Tactic.Ring
import Mathlib.Tactic.Choose
import Mathlib.Tactic.SplitIfs

noncomputable section

open scoped BigOperators

namespace Cert.Spec

open Idealize.ShloMosaic

/-- The coercion of a finite real sum is the sum of the coercions. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An entry of the identity matrix is the coercion of a real. -/
theorem eye_eq_coe (i j : Fin 8192) : eye i j = ((if i = j then (1 : ℝ) else 0 : ℝ) : EReal) := by
  unfold eye
  split_ifs <;> simp

/-- A row of the identity matrix sums to one. -/
theorem sum_eye (i : Fin 8192) : ∑ j, eye i j = 1 := by
  unfold eye
  rw [Finset.sum_ite_eq]
  simp

/-- The two degrees are the same extended real. -/
theorem degR_eq_degK (A : Fin 8192 → Fin 8192 → EReal) (i : Fin 8192) : degR A i = degK A i := by
  unfold degR degK
  rw [zero_add, Finset.sum_add_distrib, sum_eye]

/-- The two scales are the same extended real. -/
theorem dR_eq_dK (A : Fin 8192 → Fin 8192 → EReal) (i : Fin 8192) : dR A i = dK A i := by
  unfold dR dK
  rw [degR_eq_degK]

/-- The inverse square root of a real degree is the coercion of a real. -/
theorem dinv_coe (r : ℝ) : ∃ s : ℝ, dinv (r : EReal) = (s : EReal) := by
  unfold dinv
  split_ifs with h
  · have hr : 0 < r := by exact_mod_cast h
    have hs : Real.sqrt r ≠ 0 := (Real.sqrt_pos.mpr hr).ne'
    refine ⟨1 * (1 / Real.sqrt r), ?_⟩
    rw [Ideal.sqrt_coe, if_neg (not_lt.mpr hr.le), Ideal.div_coe hs, EReal.coe_mul, EReal.coe_one]
  · exact ⟨0, EReal.coe_zero.symm⟩

/-- The degree of a real adjacency is the coercion of a real. -/
theorem degK_coe (a : Fin 8192 → Fin 8192 → ℝ) (i : Fin 8192) :
    degK (fun i j => (a i j : EReal)) i = (((∑ j, a i j) + 1 : ℝ) : EReal) := by
  unfold degK
  rw [EReal.coe_add, coe_finset_sum, EReal.coe_one]

/-- The law over the reals: adding the identity to the adjacency adds the term of the row itself. -/
theorem real_law (a : Fin 8192 → Fin 8192 → ℝ) (d : Fin 8192 → ℝ) (xr : Fin 8192 → Fin 128 → ℝ)
    (i : Fin 8192) (k : Fin 128) :
    ∑ j, ((a i j + (if i = j then (1 : ℝ) else 0)) * d i) * d j * xr j k
      = d i * (∑ j, a i j * (d j * xr j k)) + (d i * d i) * xr i k := by
  have h1 : ∀ j, ((a i j + (if i = j then (1 : ℝ) else 0)) * d i) * d j * xr j k
      = d i * (a i j * (d j * xr j k)) + (if i = j then (d i * d j) * xr j k else 0) := by
    intro j
    split_ifs <;> ring
  simp only [h1, Finset.sum_add_distrib, ← Finset.mul_sum, Finset.sum_ite_eq, Finset.mem_univ, if_true]

/-- The two aggregates agree for a real adjacency and real features. -/
theorem aggK_eq_aggR_coe (a : Fin 8192 → Fin 8192 → ℝ) (xr : Fin 8192 → Fin 128 → ℝ) (i : Fin 8192) (k : Fin 128) :
    aggK (fun i j => (a i j : EReal)) (fun j k => (xr j k : EReal)) i k
      = aggR (fun i j => (a i j : EReal)) (fun j k => (xr j k : EReal)) i k := by
  have hd : ∀ i, ∃ s : ℝ, dK (fun i j => (a i j : EReal)) i = (s : EReal) := by
    intro i
    unfold dK
    rw [degK_coe]
    exact dinv_coe _
  choose d hd using hd
  unfold aggK aggR normR
  simp only [dR_eq_dK, hd, eye_eq_coe]
  simp only [← EReal.coe_mul, ← EReal.coe_add, ← coe_finset_sum]
  rw [real_law]

/-- The fused form and the dense form agree when the adjacency entries are zero or one and the features are
real. -/
theorem outK_eq_outR (A : Fin 8192 → Fin 8192 → EReal) (x : Fin 8192 → Fin 128 → EReal)
    (W : Fin 128 → Fin 128 → EReal) (b : Fin 128 → EReal)
    (hA : ∀ i j, A i j = 0 ∨ A i j = 1) (hx : ∀ j k, ∃ r : ℝ, x j k = (r : EReal)) :
    outK A x W b = outR A x W b := by
  have hA' : ∀ i j, ∃ r : ℝ, A i j = (r : EReal) := by
    intro i j
    rcases hA i j with h | h
    · exact ⟨0, by rw [h, EReal.coe_zero]⟩
    · exact ⟨1, by rw [h, EReal.coe_one]⟩
  choose a ha using hA'
  choose xr hxr using hx
  have eA : A = fun i j => (a i j : EReal) := funext fun i => funext fun j => ha i j
  have ex : x = fun j k => (xr j k : EReal) := funext fun j => funext fun k => hxr j k
  funext i q
  unfold outK outR
  rw [eA, ex]
  simp only [aggK_eq_aggR_coe]

end Cert.Spec

end
-- ==== Proof.Finite.lean ====
/-
  Under the precondition every entry of the feature matrix is a real.

  The precondition is the conjunction, over the three floating-point inputs, of "every entry has absolute value
  below +∞", each conjunct a reduction by "and" of the entrywise comparisons. The conjunction being one gives each
  conjunct; a reduction by "and" over all axes being one gives each entry's comparison; and an extended real whose
  absolute value max v (-v) is below +∞ is neither +∞ nor -∞, so it is the coercion of a real. Only the first
  input, the features, is read here.
-/
import proofs.«119681_j32641751449979_2_alg».proof.Defs
import Idealize.ShloMosaic.Lib.ReduceAll
import Idealize.ShloMosaic.Lib.ValueIdx

open Idealize.ShloMosaic Idealize.SL.Sem

namespace Cert.FiniteX

/-- The shape with no axes has one index. -/
instance : Subsingleton Cert.Pre_finite_inputs.S_.Idx := ⟨fun a b => funext fun d => d.elim0⟩

/-- The word with all exponent bits set and no fraction bit denotes +∞. -/
theorem ofBits_inf : Ideal.ofBits .f32 0x7F800000#32 = (⊤ : EReal) := by
  simp [Ideal.ofBits, Ideal.ieee]

/-- An extended real whose absolute value is below +∞ is the coercion of a real. -/
theorem real_of_abs_lt_top (v : EReal) (h : max v (-v) < ⊤) : ∃ r : ℝ, v = (r : EReal) := by
  induction v using EReal.rec with
  | bot => simp at h
  | coe r => exact ⟨r, rfl⟩
  | top => simp at h

/-- A truth value whose one-bit word is one is true. -/
theorem ofBool_eq_one : ∀ {b : Bool}, BitVec.ofBool b = 1#1 → b = true
  | true, _ => rfl
  | false, h => absurd h (by decide)

/-- The same, with the comparison as the word it is computed to. -/
theorem real_of_cmp (v : EReal) (h : Ideal.cmp .olt (max v (-v)) (Ideal.ofBits .f32 0x7F800000#32) = 1#1) :
    ∃ r : ℝ, v = (r : EReal) := by
  rw [ofBits_inf] at h
  have hb : decide (max v (-v) < (⊤ : EReal)) = true := ofBool_eq_one h
  exact real_of_abs_lt_top v (of_decide_eq_true hb)

/-- The precondition, as a function of the four inputs, being one everywhere makes every entry of the first
input a real. -/
theorem x_real_of_fn [Cert.Pre_finite_inputs.Facts] (x0 : FVec Ideal Cert.Pre_finite_inputs.S8192x128 .f32)
    (x1 : IVec Cert.Pre_finite_inputs.S2x262144 32) (x2 : FVec Ideal Cert.Pre_finite_inputs.S128x128 .f32)
    (x3 : FVec Ideal Cert.Pre_finite_inputs.S128 .f32)
    (h : Cert.Pre_finite_inputs.fn (F := Ideal) x0 x1 x2 x3 = fun _ => 1#1) (j : Fin 8192) (k : Fin 128) :
    ∃ r : ℝ, x0 (ValueIdx.ix2 j k) = (r : EReal) := by
  have h0 := congrFun h ValueIdx.ix0
  dsimp only [Cert.Pre_finite_inputs.fn] at h0
  have h1 := (IntOp.andi_eq_one.1 h0).1
  have h2 := (IntOp.andi_eq_one.1 h1).1
  have h3 := Host.reduce_andi_all _ _ _ _ _ h2 (ValueIdx.ix2 j k)
  simp only [cmpf, Host.absf, broadcastInDim, constant] at h3
  exact real_of_cmp _ h3

/-- Under the precondition every entry of the feature matrix is a real. -/
theorem x_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (j : Fin 8192) (k : Fin 128) :
    ∃ r : ℝ, m ((c.tc : Thread Cert.KernelIdeal.nD Cert.KernelIdeal.τ).loc Cert.KernelIdeal.main_arg0) (ValueIdx.ix2 j k)
      = (r : EReal) :=
  x_real_of_fn _ _ _ _ (h c) j k

end Cert.FiniteX
-- ==== Proof.Cross.lean ====
/-
  The two programs' adjacencies are one function of the edge list.

  Each program prepares the list of index pairs by the same operations on the edge list (the two rows, each negative
  entry wrapped around by adding the number of nodes, side by side as two columns) and scatters the number one into
  zeros at those pairs under the same dimension numbers. The two programs name their shapes, their dimension
  numbers and the side conditions of their operations separately, but the shapes are the same literals, the
  dimension numbers have the same fields, and the side conditions are proofs: the two terms are the same term.
-/
import proofs.«119681_j32641751449979_2_alg».proof.Proof.KI.Adj
import proofs.«119681_j32641751449979_2_alg».proof.Proof.RefValue

noncomputable section

namespace Cert.Cross

open Idealize.ShloMosaic

/-- The two programs' scatter dimension numbers are the same record. -/
theorem dims_same :
    Cert.KernelIdeal.scatter_S8192x8192_S262144x2_S262144_n_01_01_1
      = Cert.ReferenceIdeal.scatter_S8192x8192_S262144x2_S262144_n_01_01_1 := rfl

/-- The two programs prepare the same list of index pairs from the edge list. -/
theorem prep_same (e : (⟨Cert.KernelIdeal.S2x262144, .i32⟩ : BufTy).Contents (Elt Ideal)) :
    Cert.KernelIdeal.Hand.prepK (F := Ideal) e = Cert.RefSide.prep e := rfl

/-- The kernel's adjacency, in normal form, is the reference's. -/
theorem adj_same (e : (⟨Cert.KernelIdeal.S2x262144, .i32⟩ : BufTy).Contents (Elt Ideal)) (i j : Fin 8192) :
    Host.scatter (α := EReal) Cert.KernelIdeal.scatter_S8192x8192_S262144x2_S262144_n_01_01_1 (fun _ b => b)
        (fun _ => (0 : EReal)) (Cert.KernelIdeal.Hand.prepK (F := Ideal) e) (fun _ => (1 : EReal)) (ValueIdx.ix2 i j)
      = Cert.RefSide.adj e i j := by
  unfold Cert.RefSide.adj
  rw [prep_same, dims_same]

end Cert.Cross

end
-- ==== Proof.lean ====
/-
  A graph-convolution layer, (D (A + I) D x) Wᵀ + b with A the dense 0/1 adjacency scattered from an edge list and
  D the diagonal of inverse square roots of the row degrees of A + I, computed two ways.

  The kernel program never forms A + I: a first pass over the adjacency, tiled 1024 x 2048, accumulates the row sums
  of A; the host adds one and takes the guarded inverse square root d; a second pass accumulates A (d ⊙ x) tile by
  tile and finishes each row block with d ⊙ acc + d² ⊙ x, the product with Wᵀ and the bias. The reference adds the
  identity, sums the rows, scales A + I on both sides and multiplies. Over the extended reals the two agree when the
  adjacency entries are 0 or 1 (a scatter of ones into zeros) and the features are real (the precondition):
  ∑ j, (A i j + δ i j) · t j = (∑ j, A i j · t j) + t i for finite terms (Bridge). Both programs scatter at the same
  index array, so their adjacencies are one function of the edge list (Cross).

  The frames: the reference's is its run with the result dropped; each kernel program's is the run of its six
  segments (four host stretches, two pipelined kernel regions, each region carrying its accumulator from one grid
  point to the next in its invariant), read at the argument buffers. The idealization rewrote nothing, so
  `preserves` is trivial.
-/
import proofs.«119681_j32641751449979_2_alg».proof.Defs
import proofs.«119681_j32641751449979_2_alg».proof.Proof.Gen.Kernel
import proofs.«119681_j32641751449979_2_alg».proof.Proof.Gen.KernelIdeal
import proofs.«119681_j32641751449979_2_alg».proof.Proof.Gen.ReferenceIdeal
import proofs.«119681_j32641751449979_2_alg».proof.Proof.Gen.Pre_finite_inputs
import proofs.«119681_j32641751449979_2_alg».proof.Proof.K.Main
import proofs.«119681_j32641751449979_2_alg».proof.Proof.KI.Result
import proofs.«119681_j32641751449979_2_alg».proof.Proof.RefValue
import proofs.«119681_j32641751449979_2_alg».proof.Proof.Bridge
import proofs.«119681_j32641751449979_2_alg».proof.Proof.Finite
import proofs.«119681_j32641751449979_2_alg».proof.Proof.Cross
import Idealize.ShloMosaic.Adequacy
import Idealize.ShloMosaic.Init

noncomputable section

namespace Cert.Proof

open Idealize.ShloMosaic Idealize.ShloMosaic.ValueIdx Idealize.SL.Sem

/-- The word-level kernel program runs and leaves its arguments alone. -/
theorem frame_kernel : Cert.frame_Kernel (hKernel := Cert.Kernel.Gen.facts) (hPre_finite_inputs := Cert.Pre_finite_inputs.Gen.facts) :=
  fun m ρ _ => Cert.Kernel.Hand.frame m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefSide.run m ρ)

/-- Over the extended reals both programs end with the fused closed form of the arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c i => Cert.Spec.outK (Cert.KernelIdeal.Hand.adjK m c) (Cert.KernelIdeal.Hand.featK m c)
    (Cert.KernelIdeal.Hand.weightK m c) (Cert.KernelIdeal.Hand.biasK m c) (i 0) (i 1), ?_, ?_⟩
  · exact (θ_run Cert.KernelIdeal.defs _ _).mono
      (fun r h c => ⟨(h c).1.trans (Cert.KernelIdeal.Hand.result_eq m c), (h c).2⟩) (Cert.KernelIdeal.Hand.run_result m ρ)
  · refine (θ_run Cert.ReferenceIdeal.defs _ _).mono (fun r h c => ⟨(h c).1.trans ?_, (h c).2⟩) (Cert.RefSide.run m' ρ')
    rw [(hagree c).1, (hagree c).2.1, (hagree c).2.2.1, (hagree c).2.2.2]
    funext i
    have hA : ∀ a b, Cert.KernelIdeal.Hand.adjK m c a b = 0 ∨ Cert.KernelIdeal.Hand.adjK m c a b = 1 :=
      fun a b => Cert.KernelIdeal.Hand.adj_zero_one (Cert.KernelIdeal.Hand.W0 m c) a b
    have hx : ∀ j k, ∃ r : ℝ, Cert.KernelIdeal.Hand.featK m c j k = (r : EReal) :=
      fun j k => Cert.FiniteX.x_real m hpre c j k
    have hE : Cert.RefSide.adj (m ((c.tc : Thread Cert.KernelIdeal.nD Cert.KernelIdeal.τ).loc Cert.KernelIdeal.main_arg1)) = Cert.KernelIdeal.Hand.adjK m c := by
      funext a b
      exact ((congrFun (Cert.KernelIdeal.Hand.adj_normal (Cert.KernelIdeal.Hand.W0 m c)) (ix2 a b)).trans (Cert.Cross.adj_same _ a b)).symm
    rw [hE]
    exact (congrFun (congrFun (Cert.Spec.outK_eq_outR _ _ _ _ hA hx) (i 0)) (i 1)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
